-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v89_1)) (v1 : (c : Dev Cert.KernelIdeal.nD) → Buf (Elt Ideal) ((c.tc : Thread Cert.KernelIdeal.nD Cert.KernelIdeal.τ).loc Cert.KernelIdeal.main_v89_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89_1) = v0 c
          ∧ r.2.mem ((c.tc : Thread Cert.KernelIdeal.nD Cert.KernelIdeal.τ).loc Cert.KernelIdeal.main_v89_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x8 : Shape := ⟨2, ![500000, 8]⟩
abbrev S2x16000000 : Shape := ⟨2, ![2, 16000000]⟩
abbrev S4x8 : Shape := ⟨2, ![4, 8]⟩
abbrev S4 : Shape := ⟨1, ![4]⟩
abbrev S4x4 : Shape := ⟨2, ![4, 4]⟩
abbrev S2x4 : Shape := ⟨2, ![2, 4]⟩
abbrev S2 : Shape := ⟨1, ![2]⟩
abbrev S2x2 : Shape := ⟨2, ![2, 2]⟩
abbrev S112x2 : Shape := ⟨2, ![112, 2]⟩
abbrev S112 : Shape := ⟨1, ![112]⟩
abbrev S_ : Shape := ⟨0, ![]⟩

class Facts : Prop where
  bcast_S_S500000x8 : S_.BroadcastsInDim S500000x8 (![] : Fin 0 → Fin S500000x8.rank)
  reducesTo_S500000x8_S_d0_1 : S500000x8.ReducesTo [0, 1] S_
  h_S_ : 0 < S_.numel
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S2x4 : S_.BroadcastsInDim S2x4 (![] : Fin 0 → Fin S2x4.rank)
  reducesTo_S2x4_S_d0_1 : S2x4.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_
  bcast_S_S112x2 : S_.BroadcastsInDim S112x2 (![] : Fin 0 → Fin S112x2.rank)
  reducesTo_S112x2_S_d0_1 : S112x2.ReducesTo [0, 1] S_
  bcast_S_S112 : S_.BroadcastsInDim S112 (![] : Fin 0 → Fin S112.rank)
  reducesTo_S112_S_d0 : S112.ReducesTo [0] S_

variable [Facts]

def fn_part3 {F : FTy → Type} [FloatOps F] (main_v48 : IVec S_ 1) (main_v49 : FVec F S112 .f32) (main_v50 : FVec F S112 .f32) : IVec S_ 1 :=
  let main_v51 : IVec S112 1 := cmpf .olt main_v49 main_v50
  let main_c_19 : IVec S_ 1 := constantI S_ 1 1#1
  let main_v52 : IVec S_ 1 := (fun x v => Host.reduce IntOp.andi x v reducesTo_S112_S_d0 h_S_) main_v51 main_c_19
  let main_v53 : IVec S_ 1 := andi main_v48 main_v52
  main_v53

def fn_part2 {F : FTy → Type} [FloatOps F] (main_arg8 : FVec F S2x2 .f32) (main_arg9 : FVec F S2 .f32) (main_arg10 : FVec F S112x2 .f32) (main_arg11 : FVec F S112 .f32) (main_v33 : IVec S_ 1) : IVec S_ 1 :=
  let main_v34 : FVec F S2x2 .f32 := Host.absf main_arg8
  let main_cst_12 : FVec F S_ .f32 := constant S_ .f32 0x7F800000#32
  let main_v35 : FVec F S2x2 .f32 := broadcastInDim S2x2 ![] bcast_S_S2x2 main_cst_12
  let main_v36 : IVec S2x2 1 := cmpf .olt main_v34 main_v35
  let main_c_13 : IVec S_ 1 := constantI S_ 1 1#1
  let main_v37 : IVec S_ 1 := (fun x v => Host.reduce IntOp.andi x v reducesTo_S2x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S112x2 .f32 := Host.absf main_arg10
  let main_cst_16 : FVec F S_ .f32 := constant S_ .f32 0x7F800000#32
  let main_v45 : FVec F S112x2 .f32 := broadcastInDim S112x2 ![] bcast_S_S112x2 main_cst_16
  let main_v46 : IVec S112x2 1 := cmpf .olt main_v44 main_v45
  let main_c_17 : IVec S_ 1 := constantI S_ 1 1#1
  let main_v47 : IVec S_ 1 := (fun x v => Host.reduce IntOp.andi x v reducesTo_S112x2_S_d0_1 h_S_) main_v46 main_c_17
  let main_v48 : IVec S_ 1 := andi main_v43 main_v47
  let main_v49 : FVec F S112 .f32 := Host.absf main_arg11
  let main_cst_18 : FVec F S_ .f32 := constant S_ .f32 0x7F800000#32
  let main_v50 : FVec F S112 .f32 := broadcastInDim S112 ![] bcast_S_S112 main_cst_18
  fn_part3 (F := F) main_v48 main_v49 main_v50

def fn_part1 {F : FTy → Type} [FloatOps F] (main_arg5 : FVec F S4 .f32) (main_arg6 : FVec F S2x4 .f32) (main_arg7 : FVec F S2 .f32) (main_arg8 : FVec F S2x2 .f32) (main_arg9 : FVec F S2 .f32) (main_arg10 : FVec F S112x2 .f32) (main_arg11 : FVec F S112 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S2x4 .f32 := Host.absf main_arg6
  let main_cst_8 : FVec F S_ .f32 := constant S_ .f32 0x7F800000#32
  let main_v25 : FVec F S2x4 .f32 := broadcastInDim S2x4 ![] bcast_S_S2x4 main_cst_8
  let main_v26 : IVec S2x4 1 := cmpf .olt main_v24 main_v25
  let main_c_9 : IVec S_ 1 := constantI S_ 1 1#1
  let main_v27 : IVec S_ 1 := (fun x v => Host.reduce IntOp.andi x v reducesTo_S2x4_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S500000x8 .f32) (main_arg1 : IVec S2x16000000 32) (main_arg2 : FVec F S4x8 .f32) (main_arg3 : FVec F S4 .f32) (main_arg4 : FVec F S4x4 .f32) (main_arg5 : FVec F S4 .f32) (main_arg6 : FVec F S2x4 .f32) (main_arg7 : FVec F S2 .f32) (main_arg8 : FVec F S2x2 .f32) (main_arg9 : FVec F S2 .f32) (main_arg10 : FVec F S112x2 .f32) (main_arg11 : FVec F S112 .f32) : IVec S_ 1 :=
  let main_v0 : FVec F S500000x8 .f32 := Host.absf main_arg0
  let main_cst : FVec F S_ .f32 := constant S_ .f32 0x7F800000#32
  let main_v1 : FVec F S500000x8 .f32 := broadcastInDim S500000x8 ![] bcast_S_S500000x8 main_cst
  let main_v2 : IVec S500000x8 1 := cmpf .olt main_v0 main_v1
  let main_c : IVec S_ 1 := constantI S_ 1 1#1
  let main_v3 : IVec S_ 1 := (fun x v => Host.reduce IntOp.andi x v reducesTo_S500000x8_S_d0_1 h_S_) main_v2 main_c
  let main_v4 : FVec F S4x8 .f32 := Host.absf main_arg2
  let main_cst_0 : FVec F S_ .f32 := constant S_ .f32 0x7F800000#32
  let main_v5 : FVec F S4x8 .f32 := broadcastInDim S4x8 ![] bcast_S_S4x8 main_cst_0
  let main_v6 : IVec S4x8 1 := cmpf .olt main_v4 main_v5
  let main_c_1 : IVec S_ 1 := constantI S_ 1 1#1
  let main_v7 : IVec S_ 1 := (fun x v => Host.reduce IntOp.andi x v reducesTo_S4x8_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_arg10 main_arg11 main_v13 main_v16
-- ==== Kernel.lean ====
abbrev S500000x8 : Shape := ⟨2, ![500000, 8]⟩
abbrev S2x16000000 : Shape := ⟨2, ![2, 16000000]⟩
abbrev S4x8 : Shape := ⟨2, ![4, 8]⟩
abbrev S4 : Shape := ⟨1, ![4]⟩
abbrev S4x4 : Shape := ⟨2, ![4, 4]⟩
abbrev S2x4 : Shape := ⟨2, ![2, 4]⟩
abbrev S2 : Shape := ⟨1, ![2]⟩
abbrev S2x2 : Shape := ⟨2, ![2, 2]⟩
abbrev S112x2 : Shape := ⟨2, ![112, 2]⟩
abbrev S112 : Shape := ⟨1, ![112]⟩
abbrev S1x16000000 : Shape := ⟨2, ![1, 16000000]⟩
abbrev S16000000 : Shape := ⟨1, ![16000000]⟩
abbrev S_ : Shape := ⟨0, ![]⟩
abbrev S500000 : Shape := ⟨1, ![500000]⟩
abbrev S16000000x1 : Shape := ⟨2, ![16000000, 1]⟩
abbrev S500000x1 : Shape := ⟨2, ![500000, 1]⟩
abbrev S1x4 : Shape := ⟨2, ![1, 4]⟩
abbrev S1x2 : Shape := ⟨2, ![1, 2]⟩
abbrev S1x112 : Shape := ⟨2, ![1, 112]⟩
abbrev S500000x4 : Shape := ⟨2, ![500000, 4]⟩
abbrev S5000x8 : Shape := ⟨2, ![5000, 8]⟩
abbrev S5000x4 : Shape := ⟨2, ![5000, 4]⟩
abbrev S16000000x4 : Shape := ⟨2, ![16000000, 4]⟩
abbrev S5000x1 : Shape := ⟨2, ![5000, 1]⟩
abbrev S500000x2 : Shape := ⟨2, ![500000, 2]⟩
abbrev S5000x2 : Shape := ⟨2, ![5000, 2]⟩
abbrev S16000000x2 : Shape := ⟨2, ![16000000, 2]⟩
abbrev S500000x112 : Shape := ⟨2, ![500000, 112]⟩
abbrev S5000x112 : Shape := ⟨2, ![5000, 112]⟩

abbrev nBuf : Space → Nat
  | .hbm => 122
  | .vmem => 48
  | .smem => 0
  | _ => 0

abbrev bufTy : (tb : Table) → Fin (tcTables nBuf tb) → BufTy
  | .hbm, ⟨0, _⟩ => ⟨S500000x8, .f32⟩
  | .hbm, ⟨1, _⟩ => ⟨S2x16000000, .i32⟩
  | .hbm, ⟨2, _⟩ => ⟨S4x8, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S2x4, .f32⟩
  | .hbm, ⟨7, _⟩ => ⟨S2, .f32⟩
  | .hbm, ⟨8, _⟩ => ⟨S2x2, .f32⟩
  | .hbm, ⟨9, _⟩ => ⟨S2, .f32⟩
  | .hbm, ⟨10, _⟩ => ⟨S112x2, .f32⟩
  | .hbm, ⟨11, _⟩ => ⟨S112, .f32⟩
  | .hbm, ⟨12, _⟩ => ⟨S1x16000000, .i32⟩
  | .hbm, ⟨13, _⟩ => ⟨S16000000, .i32⟩
  | .hbm, ⟨14, _⟩ => ⟨S1x16000000, .i32⟩
  | .hbm, ⟨15, _⟩ => ⟨S16000000, .i32⟩
  | .hbm, ⟨16, _⟩ => ⟨S_, .f32⟩
  | .hbm, ⟨17, _⟩ => ⟨S16000000, .f32⟩
  | .hbm, ⟨18, _⟩ => ⟨S_, .f32⟩
  | .hbm, ⟨19, _⟩ => ⟨S500000, .f32⟩
  | .hbm, ⟨20, _⟩ => ⟨S16000000x1, .i32⟩
  | .hbm, ⟨21, _⟩ => ⟨S500000, .f32⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .i32⟩
  | .hbm, ⟨27, _⟩ => ⟨S16000000, .i32⟩
  | .hbm, ⟨28, _⟩ => ⟨S16000000, .i1⟩
  | .hbm, ⟨29, _⟩ => ⟨S_, .i32⟩
  | .hbm, ⟨30, _⟩ => ⟨S16000000, .i32⟩
  | .hbm, ⟨31, _⟩ => ⟨S16000000, .i32⟩
  | .hbm, ⟨32, _⟩ => ⟨S16000000, .i32⟩
  | .hbm, ⟨33, _⟩ => ⟨S16000000x1, .i32⟩
  | .hbm, ⟨34, _⟩ => ⟨S16000000, .f32⟩
  | .hbm, ⟨35, _⟩ => ⟨S_, .i32⟩
  | .hbm, ⟨36, _⟩ => ⟨S16000000, .i32⟩
  | .hbm, ⟨37, _⟩ => ⟨S16000000, .i1⟩
  | .hbm, ⟨38, _⟩ => ⟨S_, .i32⟩
  | .hbm, ⟨39, _⟩ => ⟨S16000000, .i32⟩
  | .hbm, ⟨40, _⟩ => ⟨S16000000, .i32⟩
  | .hbm, ⟨41, _⟩ => ⟨S16000000, .i32⟩
  | .hbm, ⟨42, _⟩ => ⟨S16000000x1, .i32⟩
  | .hbm, ⟨43, _⟩ => ⟨S16000000, .f32⟩
  | .hbm, ⟨44, _⟩ => ⟨S16000000, .f32⟩
  | .hbm, ⟨45, _⟩ => ⟨S500000, .f32⟩
  | .hbm, ⟨46, _⟩ => ⟨S500000x1, .f32⟩
  | .hbm, ⟨47, _⟩ => ⟨S1x4, .f32⟩
  | .hbm, ⟨48, _⟩ => ⟨S1x4, .f32⟩
  | .hbm, ⟨49, _⟩ => ⟨S1x2, .f32⟩
  | .hbm, ⟨50, _⟩ => ⟨S1x2, .f32⟩
  | .hbm, ⟨51, _⟩ => ⟨S1x112, .f32⟩
  | .hbm, ⟨52, _⟩ => ⟨S500000x4, .f32⟩
  | .hbm, ⟨53, _⟩ => ⟨S16000000x1, .f32⟩
  | .hbm, ⟨54, _⟩ => ⟨S_, .i32⟩
  | .hbm, ⟨55, _⟩ => ⟨S16000000, .i32⟩
  | .hbm, ⟨56, _⟩ => ⟨S16000000, .i1⟩
  | .hbm, ⟨57, _⟩ => ⟨S_, .i32⟩
  | .hbm, ⟨58, _⟩ => ⟨S16000000, .i32⟩
  | .hbm, ⟨59, _⟩ => ⟨S16000000, .i32⟩
  | .hbm, ⟨60, _⟩ => ⟨S16000000, .i32⟩
  | .hbm, ⟨61, _⟩ => ⟨S16000000x1, .i32⟩
  | .hbm, ⟨62, _⟩ => ⟨S16000000x4, .f32⟩
  | .hbm, ⟨63, _⟩ => ⟨S16000000x4, .f32⟩
  | .hbm, ⟨64, _⟩ => ⟨S16000000x4, .f32⟩
  | .hbm, ⟨65, _⟩ => ⟨S_, .f32⟩
  | .hbm, ⟨66, _⟩ => ⟨S500000x4, .f32⟩
  | .hbm, ⟨67, _⟩ => ⟨S16000000x1, .i32⟩
  | .hbm, ⟨68, _⟩ => ⟨S500000x4, .f32⟩
  | .hbm, ⟨69, _⟩ => ⟨S500000x4, .f32⟩
  | .hbm, ⟨70, _⟩ => ⟨S16000000x1, .f32⟩
  | .hbm, ⟨71, _⟩ => ⟨S_, .i32⟩
  | .hbm, ⟨72, _⟩ => ⟨S16000000, .i32⟩
  | .hbm, ⟨73, _⟩ => ⟨S16000000, .i1⟩
  | .hbm, ⟨74, _⟩ => ⟨S_, .i32⟩
  | .hbm, ⟨75, _⟩ => ⟨S16000000, .i32⟩
  | .hbm, ⟨76, _⟩ => ⟨S16000000, .i32⟩
  | .hbm, ⟨77, _⟩ => ⟨S16000000, .i32⟩
  | .hbm, ⟨78, _⟩ => ⟨S16000000x1, .i32⟩
  | .hbm, ⟨79, _⟩ => ⟨S16000000x4, .f32⟩
  | .hbm, ⟨80, _⟩ => ⟨S16000000x4, .f32⟩
  | .hbm, ⟨81, _⟩ => ⟨S16000000x4, .f32⟩
  | .hbm, ⟨82, _⟩ => ⟨S_, .f32⟩
  | .hbm, ⟨83, _⟩ => ⟨S500000x4, .f32⟩
  | .hbm, ⟨84, _⟩ => ⟨S16000000x1, .i32⟩
  | .hbm, ⟨85, _⟩ => ⟨S500000x4, .f32⟩
  | .hbm, ⟨86, _⟩ => ⟨S500000x2, .f32⟩
  | .hbm, ⟨87, _⟩ => ⟨S16000000x1, .f32⟩
  | .hbm, ⟨88, _⟩ => ⟨S_, .i32⟩
  | .hbm, ⟨89, _⟩ => ⟨S16000000, .i32⟩
  | .hbm, ⟨90, _⟩ => ⟨S16000000, .i1⟩
  | .hbm, ⟨91, _⟩ => ⟨S_, .i32⟩
  | .hbm, ⟨92, _⟩ => ⟨S16000000, .i32⟩
  | .hbm, ⟨93, _⟩ => ⟨S16000000, .i32⟩
  | .hbm, ⟨94, _⟩ => ⟨S16000000, .i32⟩
  | .hbm, ⟨95, _⟩ => ⟨S16000000x1, .i32⟩
  | .hbm, ⟨96, _⟩ => ⟨S16000000x2, .f32⟩
  | .hbm, ⟨97, _⟩ => ⟨S16000000x2, .f32⟩
  | .hbm, ⟨98, _⟩ => ⟨S16000000x2, .f32⟩
  | .hbm, ⟨99, _⟩ => ⟨S_, .f32⟩
  | .hbm, ⟨100, _⟩ => ⟨S500000x2, .f32⟩
  | .hbm, ⟨101, _⟩ => ⟨S16000000x1, .i32⟩
  | .hbm, ⟨102, _⟩ => ⟨S500000x2, .f32⟩
  | .hbm, ⟨103, _⟩ => ⟨S500000x2, .f32⟩
  | .hbm, ⟨104, _⟩ => ⟨S16000000x1, .f32⟩
  | .hbm, ⟨105, _⟩ => ⟨S_, .i32⟩
  | .hbm, ⟨106, _⟩ => ⟨S16000000, .i32⟩
  | .hbm, ⟨107, _⟩ => ⟨S16000000, .i1⟩
  | .hbm, ⟨108, _⟩ => ⟨S_, .i32⟩
  | .hbm, ⟨109, _⟩ => ⟨S16000000, .i32⟩
  | .hbm, ⟨110, _⟩ => ⟨S16000000, .i32⟩
  | .hbm, ⟨111, _⟩ => ⟨S16000000, .i32⟩
  | .hbm, ⟨112, _⟩ => ⟨S16000000x1, .i32⟩
  | .hbm, ⟨113, _⟩ => ⟨S16000000x2, .f32⟩
  | .hbm, ⟨114, _⟩ => ⟨S16000000x2, .f32⟩
  | .hbm, ⟨115, _⟩ => ⟨S16000000x2, .f32⟩
  | .hbm, ⟨116, _⟩ => ⟨S_, .f32⟩
  | .hbm, ⟨117, _⟩ => ⟨S500000x2, .f32⟩
  | .hbm, ⟨118, _⟩ => ⟨S16000000x1, .i32⟩
  | .hbm, ⟨119, _⟩ => ⟨S500000x2, .f32⟩
  | .hbm, ⟨120, _⟩ => ⟨S500000x2, .f32⟩
  | .hbm, ⟨121, _⟩ => ⟨S500000x112, .f32⟩
  | .local _ .vmem, ⟨0, _⟩ => ⟨S5000x8, .f32⟩
  | .local _ .vmem, ⟨1, _⟩ => ⟨S5000x8, .f32⟩
  | .local _ .vmem, ⟨2, _⟩ => ⟨S4x8, .f32⟩
  | .local _ .vmem, ⟨3, _⟩ => ⟨S5000x4, .f32⟩
  | .local _ .vmem, ⟨4, _⟩ => ⟨S5000x4, .f32⟩
  | .local _ .vmem, ⟨5, _⟩ => ⟨S5000x4, .f32⟩
  | .local _ .vmem, ⟨6, _⟩ => ⟨S5000x4, .f32⟩
  | .local _ .vmem, ⟨7, _⟩ => ⟨S5000x4, .f32⟩
  | .local _ .vmem, ⟨8, _⟩ => ⟨S5000x4, .f32⟩
  | .local _ .vmem, ⟨9, _⟩ => ⟨S5000x1, .f32⟩
  | .local _ .vmem, ⟨10, _⟩ => ⟨S5000x1, .f32⟩
  | .local _ .vmem, ⟨11, _⟩ => ⟨S1x4, .f32⟩
  | .local _ .vmem, ⟨12, _⟩ => ⟨S4x4, .f32⟩
  | .local _ .vmem, ⟨13, _⟩ => ⟨S5000x4, .f32⟩
  | .local _ .vmem, ⟨14, _⟩ => ⟨S5000x4, .f32⟩
  | .local _ .vmem, ⟨15, _⟩ => ⟨S5000x4, .f32⟩
  | .local _ .vmem, ⟨16, _⟩ => ⟨S5000x4, .f32⟩
  | .local _ .vmem, ⟨17, _⟩ => ⟨S5000x4, .f32⟩
  | .local _ .vmem, ⟨18, _⟩ => ⟨S5000x4, .f32⟩
  | .local _ .vmem, ⟨19, _⟩ => ⟨S5000x1, .f32⟩
  | .local _ .vmem, ⟨20, _⟩ => ⟨S5000x1, .f32⟩
  | .local _ .vmem, ⟨21, _⟩ => ⟨S1x4, .f32⟩
  | .local _ .vmem, ⟨22, _⟩ => ⟨S2x4, .f32⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S5000x2, .f32⟩
  | .local _ .vmem, ⟨28, _⟩ => ⟨S5000x2, .f32⟩
  | .local _ .vmem, ⟨29, _⟩ => ⟨S5000x1, .f32⟩
  | .local _ .vmem, ⟨30, _⟩ => ⟨S5000x1, .f32⟩
  | .local _ .vmem, ⟨31, _⟩ => ⟨S1x2, .f32⟩
  | .local _ .vmem, ⟨32, _⟩ => ⟨S2x2, .f32⟩
  | .local _ .vmem, ⟨33, _⟩ => ⟨S5000x2, .f32⟩
  | .local _ .vmem, ⟨34, _⟩ => ⟨S5000x2, .f32⟩
  | .local _ .vmem, ⟨35, _⟩ => ⟨S5000x2, .f32⟩
  | .local _ .vmem, ⟨36, _⟩ => ⟨S5000x2, .f32⟩
  | .local _ .vmem, ⟨37, _⟩ => ⟨S5000x2, .f32⟩
  | .local _ .vmem, ⟨38, _⟩ => ⟨S5000x2, .f32⟩
  | .local _ .vmem, ⟨39, _⟩ => ⟨S5000x1, .f32⟩
  | .local _ .vmem, ⟨40, _⟩ => ⟨S5000x1, .f32⟩
  | .local _ .vmem, ⟨41, _⟩ => ⟨S1x2, .f32⟩
  | .local _ .vmem, ⟨42, _⟩ => ⟨S112x2, .f32⟩
  | .local _ .vmem, ⟨43, _⟩ => ⟨S1x112, .f32⟩
  | .local _ .vmem, ⟨44, _⟩ => ⟨S5000x2, .f32⟩
  | .local _ .vmem, ⟨45, _⟩ => ⟨S5000x2, .f32⟩
  | .local _ .vmem, ⟨46, _⟩ => ⟨S5000x112, .f32⟩
  | .local _ .vmem, ⟨47, _⟩ => ⟨S5000x112, .f32⟩
  | _, _ => ⟨S500000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89_0 : Ref sig .tc := ⟨.hbm, 120, rfl⟩
abbrev main_v89_1 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem7_1 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S112x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x112 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x2 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x112 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  bcast_S500000_S500000x1_0 : S500000.BroadcastsInDim S500000x1 (![0] : Fin 1 → Fin S500000x1.rank)
  shapeCasts_S4_S1x4 : S4.ShapeCasts S1x4
  shapeCasts_S2_S1x2 : S2.ShapeCasts S1x2
  shapeCasts_S112_S1x112 : S112.ShapeCasts S1x112
  inb_S5000x8_S5000x8_0_0 : ∀ a, (![0, 0] : Fin 2 → Nat) a + S5000x8.size a ≤ S5000x8.size a
  h_S5000x8 : 0 < S5000x8.numel
  inb_S4x8_S4x8_0_0 : ∀ a, (![0, 0] : Fin 2 → Nat) a + S4x8.size a ≤ S4x8.size a
  h_S4x8 : 0 < S4x8.numel
  bitsLt_bf16_f32 : FTy.bits .bf16 < FTy.bits .f32
  inb_S5000x4_S5000x4_0_0 : ∀ a, (![0, 0] : Fin 2 → Nat) a + S5000x4.size a ≤ S5000x4.size a
  h_S5000x4 : 0 < S5000x4.numel
  bcast_S16000000x1_S16000000x4_0_1 : S16000000x1.BroadcastsInDim S16000000x4 (![0, 1] : Fin 2 → Fin S16000000x4.rank)
  bcast_S_S500000x4 : S_.BroadcastsInDim S500000x4 (![] : Fin 0 → Fin S500000x4.rank)
  shapeCasts_S5000x4_S5000x4 : S5000x4.ShapeCasts S5000x4
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x4 : S5000x1.Broadcasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S4x4_S4x4_0_0 : ∀ a, (![0, 0] : Fin 2 → Nat) a + S4x4.size a ≤ S4x4.size a
  h_S4x4 : 0 < S4x4.numel
  inb_S2x4_S2x4_0_0 : ∀ a, (![0, 0] : Fin 2 → Nat) a + S2x4.size a ≤ S2x4.size a
  h_S2x4 : 0 < S2x4.numel
  inb_S5000x2_S5000x2_0_0 : ∀ a, (![0, 0] : Fin 2 → Nat) a + S5000x2.size a ≤ S5000x2.size a
  h_S5000x2 : 0 < S5000x2.numel
  bcast_S16000000x1_S16000000x2_0_1 : S16000000x1.BroadcastsInDim S16000000x2 (![0, 1] : Fin 2 → Fin S16000000x2.rank)
  bcast_S_S500000x2 : S_.BroadcastsInDim S500000x2 (![] : Fin 0 → Fin S500000x2.rank)
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S2x2_S2x2_0_0 : ∀ a, (![0, 0] : Fin 2 → Nat) a + S2x2.size a ≤ S2x2.size a
  h_S2x2 : 0 < S2x2.numel
  inb_S112x2_S112x2_0_0 : ∀ a, (![0, 0] : Fin 2 → Nat) a + S112x2.size a ≤ S112x2.size a
  h_S112x2 : 0 < S112x2.numel
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S5000x112 : S1x112.Broadcasts S5000x112
  inb_S5000x112_S5000x112_0_0 : ∀ a, (![0, 0] : Fin 2 → Nat) a + S5000x112.size a ≤ S5000x112.size a
  h_S5000x112 : 0 < S5000x112.numel
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  dot_S5000x8_S4x8_S5000x4_1_1_0_0_n_n_wf : DotDims.WF S5000x8 S4x8 S5000x4 [1] [1] [0] [0] [] []
  gather_S500000x4_S16000000x1_S16000000x4_1_0_n_n_0_1_14_wf : GatherDims.WF S500000x4 S16000000x1 S16000000x4 [1] [0] [] [0] [] 1 ![1, 4]
  scatter_S500000x4_S16000000x1_S16000000x4_1_0_0_1_wf : ScatterDims.WF S500000x4 S16000000x1 S16000000x4 [1] [0] [0] 1
  dot_S5000x4_S4x4_S5000x4_1_1_0_0_n_n_wf : DotDims.WF S5000x4 S4x4 S5000x4 [1] [1] [0] [0] [] []
  dot_S5000x4_S2x4_S5000x2_1_1_0_0_n_n_wf : DotDims.WF S5000x4 S2x4 S5000x2 [1] [1] [0] [0] [] []
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  dot_S5000x2_S2x2_S5000x2_1_1_0_0_n_n_wf : DotDims.WF S5000x2 S2x2 S5000x2 [1] [1] [0] [0] [] []
  dot_S5000x2_S112x2_S5000x112_1_1_0_0_n_n_wf : DotDims.WF S5000x2 S112x2 S5000x112 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S500000x8.size a
  hwx0_0 : ∀ i : grid0.Coords, EltTy.bits .f32 = 32 ∨ (Rect.block (s := S500000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8.size a ≤ S4x8.size a
  hwx0_1 : ∀ i : grid0.Coords, EltTy.bits .f32 = 32 ∨ (Rect.block (s := S4x8) S4x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S500000x4.size a
  hwx0_2 : ∀ i : grid0.Coords, EltTy.bits .f32 = 32 ∨ (Rect.block (s := S500000x4) S5000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x4.size a ≤ S500000x4.size a
  hwx1_1 : ∀ i : grid1.Coords, EltTy.bits .f32 = 32 ∨ (Rect.block (s := S500000x4) S5000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x4.size a ≤ S4x4.size a
  hwx1_4 : ∀ i : grid1.Coords, EltTy.bits .f32 = 32 ∨ (Rect.block (s := S4x4) S4x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S500000x4.size a
  hwx1_5 : ∀ i : grid1.Coords, EltTy.bits .f32 = 32 ∨ (Rect.block (s := S500000x4) S5000x4.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S500000x4.size a
  hwx2_0 : ∀ i : grid2.Coords, EltTy.bits .f32 = 32 ∨ (Rect.block (s := S500000x4) S5000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x4.size a ≤ S500000x4.size a
  hwx2_1 : ∀ i : grid2.Coords, EltTy.bits .f32 = 32 ∨ (Rect.block (s := S500000x4) S5000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2x4.size a ≤ S2x4.size a
  hwx2_4 : ∀ i : grid2.Coords, EltTy.bits .f32 = 32 ∨ (Rect.block (s := S2x4) S2x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S500000x2.size a
  hwx2_5 : ∀ i : grid2.Coords, EltTy.bits .f32 = 32 ∨ (Rect.block (s := S500000x2) S5000x2.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S500000x2.size a
  hwx3_0 : ∀ i : grid3.Coords, EltTy.bits .f32 = 32 ∨ (Rect.block (s := S500000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S500000x2.size a
  hwx3_1 : ∀ i : grid3.Coords, EltTy.bits .f32 = 32 ∨ (Rect.block (s := S500000x2) S5000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S500000x1.size a
  hwx3_2 : ∀ i : grid3.Coords, EltTy.bits .f32 = 32 ∨ (Rect.block (s := S500000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x2.size a ≤ S2x2.size a
  hwx3_4 : ∀ i : grid3.Coords, EltTy.bits .f32 = 32 ∨ (Rect.block (s := S2x2) S2x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x2.size a ≤ S500000x2.size a
  hwx3_5 : ∀ i : grid3.Coords, EltTy.bits .f32 = 32 ∨ (Rect.block (s := S500000x2) S5000x2.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x2.size a ≤ S500000x2.size a
  hwx4_0 : ∀ i : grid4.Coords, EltTy.bits .f32 = 32 ∨ (Rect.block (s := S500000x2) S5000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x2.size a ≤ S500000x2.size a
  hwx4_1 : ∀ i : grid4.Coords, EltTy.bits .f32 = 32 ∨ (Rect.block (s := S500000x2) S5000x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S500000x1.size a
  hwx4_2 : ∀ i : grid4.Coords, EltTy.bits .f32 = 32 ∨ (Rect.block (s := S500000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2.size a ≤ S1x2.size a
  hwx4_3 : ∀ i : grid4.Coords, EltTy.bits .f32 = 32 ∨ (Rect.block (s := S1x2) S1x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S112x2.size a ≤ S112x2.size a
  hwx4_4 : ∀ i : grid4.Coords, EltTy.bits .f32 = 32 ∨ (Rect.block (s := S112x2) S112x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x112.size a ≤ S1x112.size a
  hwx4_5 : ∀ i : grid4.Coords, EltTy.bits .f32 = 32 ∨ (Rect.block (s := S1x112) S1x112.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x2.size a ≤ S500000x2.size a
  hwx4_6 : ∀ i : grid4.Coords, EltTy.bits .f32 = 32 ∨ (Rect.block (s := S500000x2) S5000x2.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x112.size a ≤ S500000x112.size a
  hwx4_7 : ∀ i : grid4.Coords, EltTy.bits .f32 = 32 ∨ (Rect.block (s := S500000x112) S5000x112.size (cc4_transform_7 i) (hinb4_7 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def dot_S5000x8_S4x8_S5000x4_1_1_0_0_n_n : DotDims S5000x8 S4x8 S5000x4 where
  lhsContracting := [1]
  rhsContracting := [1]
  lhsNonContracting := [0]
  rhsNonContracting := [0]
  lhsBatch := []
  rhsBatch := []
  wf := dot_S5000x8_S4x8_S5000x4_1_1_0_0_n_n_wf
def gather_S500000x4_S16000000x1_S16000000x4_1_0_n_n_0_1_14 : GatherDims S500000x4 S16000000x1 S16000000x4 where
  offsetDims := [1]
  collapsedSliceDims := [0]
  operandBatchingDims := []
  startIndicesBatchingDims := []
  startIndexMap := [0]
  indexVectorDim := 1
  sliceSizes := ![1, 4]
  wf := gather_S500000x4_S16000000x1_S16000000x4_1_0_n_n_0_1_14_wf
def scatter_S500000x4_S16000000x1_S16000000x4_1_0_0_1 : ScatterDims S500000x4 S16000000x1 S16000000x4 where
  updateWindowDims := [1]
  insertedWindowDims := [0]
  scatterDimsToOperandDims := [0]
  indexVectorDim := 1
  wf := scatter_S500000x4_S16000000x1_S16000000x4_1_0_0_1_wf
def dot_S5000x4_S4x4_S5000x4_1_1_0_0_n_n : DotDims S5000x4 S4x4 S5000x4 where
  lhsContracting := [1]
  rhsContracting := [1]
  lhsNonContracting := [0]
  rhsNonContracting := [0]
  lhsBatch := []
  rhsBatch := []
  wf := dot_S5000x4_S4x4_S5000x4_1_1_0_0_n_n_wf
def dot_S5000x4_S2x4_S5000x2_1_1_0_0_n_n : DotDims S5000x4 S2x4 S5000x2 where
  lhsContracting := [1]
  rhsContracting := [1]
  lhsNonContracting := [0]
  rhsNonContracting := [0]
  lhsBatch := []
  rhsBatch := []
  wf := dot_S5000x4_S2x4_S5000x2_1_1_0_0_n_n_wf
def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def dot_S5000x2_S2x2_S5000x2_1_1_0_0_n_n : DotDims S5000x2 S2x2 S5000x2 where
  lhsContracting := [1]
  rhsContracting := [1]
  lhsNonContracting := [0]
  rhsNonContracting := [0]
  lhsBatch := []
  rhsBatch := []
  wf := dot_S5000x2_S2x2_S5000x2_1_1_0_0_n_n_wf
def dot_S5000x2_S112x2_S5000x112_1_1_0_0_n_n : DotDims S5000x2 S112x2 S5000x112 where
  lhsContracting := [1]
  rhsContracting := [1]
  lhsNonContracting := [0]
  rhsNonContracting := [0]
  lhsBatch := []
  rhsBatch := []
  wf := dot_S5000x2_S112x2_S5000x112_1_1_0_0_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S2x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S2x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S5000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v88) S5000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S5000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v31) S1x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S112x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v32) S1x112.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89_0) S5000x2.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v89_1) S5000x112.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S500000x8 : Shape := ⟨2, ![500000, 8]⟩
abbrev S2x16000000 : Shape := ⟨2, ![2, 16000000]⟩
abbrev S4x8 : Shape := ⟨2, ![4, 8]⟩
abbrev S4 : Shape := ⟨1, ![4]⟩
abbrev S4x4 : Shape := ⟨2, ![4, 4]⟩
abbrev S2x4 : Shape := ⟨2, ![2, 4]⟩
abbrev S2 : Shape := ⟨1, ![2]⟩
abbrev S2x2 : Shape := ⟨2, ![2, 2]⟩
abbrev S112x2 : Shape := ⟨2, ![112, 2]⟩
abbrev S112 : Shape := ⟨1, ![112]⟩
abbrev S1x16000000 : Shape := ⟨2, ![1, 16000000]⟩
abbrev S16000000 : Shape := ⟨1, ![16000000]⟩
abbrev S_ : Shape := ⟨0, ![]⟩
abbrev S500000 : Shape := ⟨1, ![500000]⟩
abbrev S16000000x1 : Shape := ⟨2, ![16000000, 1]⟩
abbrev S8x4 : Shape := ⟨2, ![8, 4]⟩
abbrev S500000x4 : Shape := ⟨2, ![500000, 4]⟩
abbrev S16000000x4 : Shape := ⟨2, ![16000000, 4]⟩
abbrev S500000x1 : Shape := ⟨2, ![500000, 1]⟩
abbrev S1x4 : Shape := ⟨2, ![1, 4]⟩
abbrev S4x2 : Shape := ⟨2, ![4, 2]⟩
abbrev S500000x2 : Shape := ⟨2, ![500000, 2]⟩
abbrev S16000000x2 : Shape := ⟨2, ![16000000, 2]⟩
abbrev S1x2 : Shape := ⟨2, ![1, 2]⟩
abbrev S2x112 : Shape := ⟨2, ![2, 112]⟩
abbrev S500000x112 : Shape := ⟨2, ![500000, 112]⟩
abbrev S1x112 : Shape := ⟨2, ![1, 112]⟩

abbrev nBuf : Space → Nat
  | .hbm => 159
  | .vmem => 0
  | .smem => 0
  | _ => 0

abbrev hbmTy0_0 (i : Nat) : BufTy := match i % 128 with
  | 0 => ⟨S500000x8, .f32⟩
  | 1 => ⟨S2x16000000, .i32⟩
  | 2 => ⟨S4x8, .f32⟩
  | 3 => ⟨S4, .f32⟩
  | 4 => ⟨S4x4, .f32⟩
  | 5 => ⟨S4, .f32⟩
  | 6 => ⟨S2x4, .f32⟩
  | 7 => ⟨S2, .f32⟩
  | 8 => ⟨S2x2, .f32⟩
  | 9 => ⟨S2, .f32⟩
  | 10 => ⟨S112x2, .f32⟩
  | 11 => ⟨S112, .f32⟩
  | 12 => ⟨S1x16000000, .i32⟩
  | 13 => ⟨S16000000, .i32⟩
  | 14 => ⟨S1x16000000, .i32⟩
  | 15 => ⟨S16000000, .i32⟩
  | 16 => ⟨S_, .f32⟩
  | 17 => ⟨S16000000, .f32⟩
  | 18 => ⟨S_, .f32⟩
  | 19 => ⟨S500000, .f32⟩
  | 20 => ⟨S16000000x1, .i32⟩
  | 21 => ⟨S500000, .f32⟩
  | 22 => ⟨S_, .f32⟩
  | 23 => ⟨S500000, .f32⟩
  | 24 => ⟨S500000, .f32⟩
  | 25 => ⟨S500000, .f32⟩
  | 26 => ⟨S_, .i32⟩
  | 27 => ⟨S16000000, .i32⟩
  | 28 => ⟨S16000000, .i1⟩
  | 29 => ⟨S_, .i32⟩
  | 30 => ⟨S16000000, .i32⟩
  | 31 => ⟨S16000000, .i32⟩
  | 32 => ⟨S16000000, .i32⟩
  | 33 => ⟨S16000000x1, .i32⟩
  | 34 => ⟨S16000000, .f32⟩
  | 35 => ⟨S_, .i32⟩
  | 36 => ⟨S16000000, .i32⟩
  | 37 => ⟨S16000000, .i1⟩
  | 38 => ⟨S_, .i32⟩
  | 39 => ⟨S16000000, .i32⟩
  | 40 => ⟨S16000000, .i32⟩
  | 41 => ⟨S16000000, .i32⟩
  | 42 => ⟨S16000000x1, .i32⟩
  | 43 => ⟨S16000000, .f32⟩
  | 44 => ⟨S16000000, .f32⟩
  | 45 => ⟨S500000, .f32⟩
  | 46 => ⟨S8x4, .f32⟩
  | 47 => ⟨S500000x4, .f32⟩
  | 48 => ⟨S16000000x1, .f32⟩
  | 49 => ⟨S_, .i32⟩
  | 50 => ⟨S16000000, .i32⟩
  | 51 => ⟨S16000000, .i1⟩
  | 52 => ⟨S_, .i32⟩
  | 53 => ⟨S16000000, .i32⟩
  | 54 => ⟨S16000000, .i32⟩
  | 55 => ⟨S16000000, .i32⟩
  | 56 => ⟨S16000000x1, .i32⟩
  | 57 => ⟨S16000000x4, .f32⟩
  | 58 => ⟨S16000000x4, .f32⟩
  | 59 => ⟨S16000000x4, .f32⟩
  | 60 => ⟨S_, .f32⟩
  | 61 => ⟨S500000x4, .f32⟩
  | 62 => ⟨S16000000x1, .i32⟩
  | 63 => ⟨S500000x4, .f32⟩
  | 64 => ⟨S500000x1, .f32⟩
  | 65 => ⟨S500000x4, .f32⟩
  | 66 => ⟨S500000x4, .f32⟩
  | 67 => ⟨S500000x4, .f32⟩
  | 68 => ⟨S1x4, .f32⟩
  | 69 => ⟨S500000x4, .f32⟩
  | 70 => ⟨S500000x4, .f32⟩
  | 71 => ⟨S_, .f32⟩
  | 72 => ⟨S500000x4, .f32⟩
  | 73 => ⟨S500000x4, .f32⟩
  | 74 => ⟨S4x4, .f32⟩
  | 75 => ⟨S500000x4, .f32⟩
  | 76 => ⟨S16000000x1, .f32⟩
  | 77 => ⟨S_, .i32⟩
  | 78 => ⟨S16000000, .i32⟩
  | 79 => ⟨S16000000, .i1⟩
  | 80 => ⟨S_, .i32⟩
  | 81 => ⟨S16000000, .i32⟩
  | 82 => ⟨S16000000, .i32⟩
  | 83 => ⟨S16000000, .i32⟩
  | 84 => ⟨S16000000x1, .i32⟩
  | 85 => ⟨S16000000x4, .f32⟩
  | 86 => ⟨S16000000x4, .f32⟩
  | 87 => ⟨S16000000x4, .f32⟩
  | 88 => ⟨S_, .f32⟩
  | 89 => ⟨S500000x4, .f32⟩
  | 90 => ⟨S16000000x1, .i32⟩
  | 91 => ⟨S500000x4, .f32⟩
  | 92 => ⟨S500000x1, .f32⟩
  | 93 => ⟨S500000x4, .f32⟩
  | 94 => ⟨S500000x4, .f32⟩
  | 95 => ⟨S500000x4, .f32⟩
  | 96 => ⟨S1x4, .f32⟩
  | 97 => ⟨S500000x4, .f32⟩
  | 98 => ⟨S500000x4, .f32⟩
  | 99 => ⟨S500000x4, .f32⟩
  | 100 => ⟨S4x2, .f32⟩
  | 101 => ⟨S500000x2, .f32⟩
  | 102 => ⟨S16000000x1, .f32⟩
  | 103 => ⟨S_, .i32⟩
  | 104 => ⟨S16000000, .i32⟩
  | 105 => ⟨S16000000, .i1⟩
  | 106 => ⟨S_, .i32⟩
  | 107 => ⟨S16000000, .i32⟩
  | 108 => ⟨S16000000, .i32⟩
  | 109 => ⟨S16000000, .i32⟩
  | 110 => ⟨S16000000x1, .i32⟩
  | 111 => ⟨S16000000x2, .f32⟩
  | 112 => ⟨S16000000x2, .f32⟩
  | 113 => ⟨S16000000x2, .f32⟩
  | 114 => ⟨S_, .f32⟩
  | 115 => ⟨S500000x2, .f32⟩
  | 116 => ⟨S16000000x1, .i32⟩
  | 117 => ⟨S500000x2, .f32⟩
  | 118 => ⟨S500000x1, .f32⟩
  | 119 => ⟨S500000x2, .f32⟩
  | 120 => ⟨S500000x2, .f32⟩
  | 121 => ⟨S500000x2, .f32⟩
  | 122 => ⟨S1x2, .f32⟩
  | 123 => ⟨S500000x2, .f32⟩
  | 124 => ⟨S500000x2, .f32⟩
  | 125 => ⟨S_, .f32⟩
  | 126 => ⟨S500000x2, .f32⟩
  | 127 => ⟨S500000x2, .f32⟩
  | _ => ⟨S500000x8, .f32⟩

abbrev hbmTy0_1 (i : Nat) : BufTy := match i % 128 with
  | 0 => ⟨S2x2, .f32⟩
  | 1 => ⟨S500000x2, .f32⟩
  | 2 => ⟨S16000000x1, .f32⟩
  | 3 => ⟨S_, .i32⟩
  | 4 => ⟨S16000000, .i32⟩
  | 5 => ⟨S16000000, .i1⟩
  | 6 => ⟨S_, .i32⟩
  | 7 => ⟨S16000000, .i32⟩
  | 8 => ⟨S16000000, .i32⟩
  | 9 => ⟨S16000000, .i32⟩
  | 10 => ⟨S16000000x1, .i32⟩
  | 11 => ⟨S16000000x2, .f32⟩
  | 12 => ⟨S16000000x2, .f32⟩
  | 13 => ⟨S16000000x2, .f32⟩
  | 14 => ⟨S_, .f32⟩
  | 15 => ⟨S500000x2, .f32⟩
  | 16 => ⟨S16000000x1, .i32⟩
  | 17 => ⟨S500000x2, .f32⟩
  | 18 => ⟨S500000x1, .f32⟩
  | 19 => ⟨S500000x2, .f32⟩
  | 20 => ⟨S500000x2, .f32⟩
  | 21 => ⟨S500000x2, .f32⟩
  | 22 => ⟨S1x2, .f32⟩
  | 23 => ⟨S500000x2, .f32⟩
  | 24 => ⟨S500000x2, .f32⟩
  | 25 => ⟨S500000x2, .f32⟩
  | 26 => ⟨S2x112, .f32⟩
  | 27 => ⟨S500000x112, .f32⟩
  | 28 => ⟨S1x112, .f32⟩
  | 29 => ⟨S500000x112, .f32⟩
  | 30 => ⟨S500000x112, .f32⟩
  | _ => ⟨S500000x8, .f32⟩

abbrev hbmTy (i : Nat) : BufTy := match i / 128 with
  | 0 => hbmTy0_0 i
  | 1 => hbmTy0_1 i
  | _ => ⟨S500000x8, .f32⟩

abbrev bufTy : (tb : Table) → Fin (tcTables nBuf tb) → BufTy
  | .hbm, ⟨i, _⟩ => hbmTy i
  | _, _ => ⟨S500000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_v76 : Ref sig .tc := ⟨.hbm, 104, rfl⟩
abbrev main_v77 : Ref sig .tc := ⟨.hbm, 105, rfl⟩
abbrev main_c_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_cst : Ref sig .tc := ⟨.hbm, 125, rfl⟩
abbrev main_call1_v0 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_14 : Ref sig .tc := ⟨.hbm, 131, rfl⟩
abbrev main_v99 : Ref sig .tc := ⟨.hbm, 132, rfl⟩
abbrev main_v100 : Ref sig .tc := ⟨.hbm, 133, rfl⟩
abbrev main_c_15 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_16 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  transposes_S4x8_S8x4_1_0 : S4x8.Transposes [1, 0] S8x4
  bcast_S16000000x1_S16000000x4_0_1 : S16000000x1.BroadcastsInDim S16000000x4 (![0, 1] : Fin 2 → Fin S16000000x4.rank)
  bcast_S_S500000x4 : S_.BroadcastsInDim S500000x4 (![] : Fin 0 → Fin S500000x4.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  transposes_S4x4_S4x4_1_0 : S4x4.Transposes [1, 0] S4x4
  transposes_S2x4_S4x2_1_0 : S2x4.Transposes [1, 0] S4x2
  bcast_S16000000x1_S16000000x2_0_1 : S16000000x1.BroadcastsInDim S16000000x2 (![0, 1] : Fin 2 → Fin S16000000x2.rank)
  bcast_S_S500000x2 : S_.BroadcastsInDim S500000x2 (![] : Fin 0 → Fin S500000x2.rank)
  bcast_S500000x1_S500000x2_0_1 : S500000x1.BroadcastsInDim S500000x2 (![0, 1] : Fin 2 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  transposes_S2x2_S2x2_1_0 : S2x2.Transposes [1, 0] S2x2
  transposes_S112x2_S2x112_1_0 : S112x2.Transposes [1, 0] S2x112
  bcast_S112_S1x112_1 : S112.BroadcastsInDim S1x112 (![1] : Fin 1 → Fin S1x112.rank)
  bcast_S1x112_S500000x112_0_1 : S1x112.BroadcastsInDim S500000x112 (![0, 1] : Fin 2 → Fin S500000x112.rank)
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  dot_S500000x8_S8x4_S500000x4_1_0_0_1_n_n_wf : DotDims.WF S500000x8 S8x4 S500000x4 [1] [0] [0] [1] [] []
  gather_S500000x4_S16000000x1_S16000000x4_1_0_n_n_0_1_14_wf : GatherDims.WF S500000x4 S16000000x1 S16000000x4 [1] [0] [] [0] [] 1 ![1, 4]
  scatter_S500000x4_S16000000x1_S16000000x4_1_0_0_1_wf : ScatterDims.WF S500000x4 S16000000x1 S16000000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S16000000x1_S16000000x2_1_0_n_n_0_1_12_wf : GatherDims.WF S500000x2 S16000000x1 S16000000x2 [1] [0] [] [0] [] 1 ![1, 2]
  scatter_S500000x2_S16000000x1_S16000000x2_1_0_0_1_wf : ScatterDims.WF S500000x2 S16000000x1 S16000000x2 [1] [0] [0] 1
  dot_S500000x2_S2x2_S500000x2_1_0_0_1_n_n_wf : DotDims.WF S500000x2 S2x2 S500000x2 [1] [0] [0] [1] [] []
  dot_S500000x2_S2x112_S500000x112_1_0_0_1_n_n_wf : DotDims.WF S500000x2 S2x112 S500000x112 [1] [0] [0] [1] [] []

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def dot_S500000x8_S8x4_S500000x4_1_0_0_1_n_n : DotDims S500000x8 S8x4 S500000x4 where
  lhsContracting := [1]
  rhsContracting := [0]
  lhsNonContracting := [0]
  rhsNonContracting := [1]
  lhsBatch := []
  rhsBatch := []
  wf := dot_S500000x8_S8x4_S500000x4_1_0_0_1_n_n_wf
def gather_S500000x4_S16000000x1_S16000000x4_1_0_n_n_0_1_14 : GatherDims S500000x4 S16000000x1 S16000000x4 where
  offsetDims := [1]
  collapsedSliceDims := [0]
  operandBatchingDims := []
  startIndicesBatchingDims := []
  startIndexMap := [0]
  indexVectorDim := 1
  sliceSizes := ![1, 4]
  wf := gather_S500000x4_S16000000x1_S16000000x4_1_0_n_n_0_1_14_wf
def scatter_S500000x4_S16000000x1_S16000000x4_1_0_0_1 : ScatterDims S500000x4 S16000000x1 S16000000x4 where
  updateWindowDims := [1]
  insertedWindowDims := [0]
  scatterDimsToOperandDims := [0]
  indexVectorDim := 1
  wf := scatter_S500000x4_S16000000x1_S16000000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S16000000x1_S16000000x2_1_0_n_n_0_1_12 : GatherDims S500000x2 S16000000x1 S16000000x2 where
  offsetDims := [1]
  collapsedSliceDims := [0]
  operandBatchingDims := []
  startIndicesBatchingDims := []
  startIndexMap := [0]
  indexVectorDim := 1
  sliceSizes := ![1, 2]
  wf := gather_S500000x2_S16000000x1_S16000000x2_1_0_n_n_0_1_12_wf
def scatter_S500000x2_S16000000x1_S16000000x2_1_0_0_1 : ScatterDims S500000x2 S16000000x1 S16000000x2 where
  updateWindowDims := [1]
  insertedWindowDims := [0]
  scatterDimsToOperandDims := [0]
  indexVectorDim := 1
  wf := scatter_S500000x2_S16000000x1_S16000000x2_1_0_0_1_wf
def dot_S500000x2_S2x2_S500000x2_1_0_0_1_n_n : DotDims S500000x2 S2x2 S500000x2 where
  lhsContracting := [1]
  rhsContracting := [0]
  lhsNonContracting := [0]
  rhsNonContracting := [1]
  lhsBatch := []
  rhsBatch := []
  wf := dot_S500000x2_S2x2_S500000x2_1_0_0_1_n_n_wf
def dot_S500000x2_S2x112_S500000x112_1_0_0_1_n_n : DotDims S500000x2 S2x112 S500000x112 where
  lhsContracting := [1]
  rhsContracting := [0]
  lhsNonContracting := [0]
  rhsNonContracting := [1]
  lhsBatch := []
  rhsBatch := []
  wf := dot_S500000x2_S2x112_S500000x112_1_0_0_1_n_n_wf

class Facts : Prop extends Facts₀ where

variable [Facts]
-- ==== Proof.KRun.lean ====
/-
  The kernel program's run, with its results named.

  The program is ten segments: five stretches of host lines and five pipelined regions. The contents of the
  TensorCore's buffers at each boundary form a fold from the launch memory; the run ends with every unscoped buffer
  at the last boundary's contents. Read at the two result buffers this names what the program returns; read at the
  arguments it gives them back as launched.
-/
import proofs.«160437_j481036337415_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its two results NAMED: every weakly fair execution terminates, nothing faulting, with
    each result array at what the last region's exit contents hold there, and the argument arrays as launched. -/
theorem run_named : θ_run defs (onTc (τ := τ) (main (F := F))) ⟨m, fun _ => 0, ρ⟩ (fun r => ∀ c : Dev nD,
      r.2.mem ((c.tc : Thread nD τ).loc main_v89_1) = W10 m ρ c (Proc.devRef .tc main_v89_1)
      ∧ r.2.mem ((c.tc : Thread nD τ).loc main_v89_0) = W10 m ρ c (Proc.devRef .tc main_v89_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v89_1 (by decide)),
       h c _ (mem_uc main_v89_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.KRun

end
-- ==== Proof.Spec.lean ====
/-
  A graph-convolution network on the extended reals, entry by entry.

  Every dense stage of the network is local to a row of the node axis: a linear map sends row `r` of `x` to the
  products of that row with the ROWS of the weight matrix; a layer adds to the aggregated messages of node `r` the
  node's own projected features scaled by its self-loop weight, adds the bias, applies the activation and projects
  again. Stated here once, for any number of rows, so that a block of rows and the whole array are two instances of
  one function, together with the fact that makes the instances agree: the value at a row depends on that row only.
-/
import Idealize.ShloMosaic.PureOps.Ideal
import Idealize.ShloMosaic.Lib.ValueIdx

noncomputable section

namespace Cert.Gcn

open Idealize.ShloMosaic Idealize.ShloMosaic.ValueIdx

/-- An `R × C` matrix of extended reals. -/
abbrev Mat (R C : Nat) : Type := (⟨2, ![R, C]⟩ : Shape).Idx → EReal

/-- The rectifier: the larger of `x` and the value of the all-zero word. -/
def relu (x : EReal) : EReal := max x (Ideal.ofBits .f32 0x00000000#32)

/-- `x · wᵀ`: entry `(r, c)` is the sum over `k` of `x (r, k) * w (c, k)`. -/
def lin {R K N : Nat} (x : Mat R K) (w : Mat N K) : Mat R N :=
  fun j => ∑ k : Fin K, x (ix2 (j 0) k) * w (ix2 (j 1) k)

/-- A layer before its activation: the aggregated messages, plus the node's own projected features scaled by its
    self-loop weight, plus the bias. -/
def pre {R D : Nat} (agg hw : Mat R D) (sn : Mat R 1) (b : Mat 1 D) : Mat R D :=
  fun j => agg j + sn (ix2 (j 0) 0) * hw j + b (ix2 0 (j 1))

/-- A layer's output features: the activation of `pre`, entry by entry. -/
def feat {R D : Nat} (act : EReal → EReal) (agg hw : Mat R D) (sn : Mat R 1) (b : Mat 1 D) : Mat R D :=
  fun j => act (pre agg hw sn b j)

/-- A layer followed by the next layer's projection. -/
def layer {R D N : Nat} (act : EReal → EReal) (agg hw : Mat R D) (sn : Mat R 1) (b : Mat 1 D) (w : Mat N D) : Mat R N :=
  lin (feat act agg hw sn b) w

/-- The classifier head: a projection plus a bias row. -/
def head {R D N : Nat} (h : Mat R D) (w : Mat N D) (bc : Mat 1 N) : Mat R N :=
  fun j => lin h w j + bc (ix2 0 (j 1))

/-! ## A row of the result depends on that row of the operands only -/

theorem lin_row {R R' K N : Nat} (x : Mat R K) (x' : Mat R' K) (w : Mat N K) (r : Fin R) (r' : Fin R') (c : Fin N)
    (hx : ∀ k, x' (ix2 r' k) = x (ix2 r k)) : lin x' w (ix2 r' c) = lin x w (ix2 r c) := by
  unfold lin
  exact Finset.sum_congr rfl fun k _ => by rw [show (ix2 r' c) 0 = r' from rfl, show (ix2 r c) 0 = r from rfl, hx k]; rfl

theorem pre_row {R R' D : Nat} (agg hw : Mat R D) (sn : Mat R 1) (agg' hw' : Mat R' D) (sn' : Mat R' 1) (b : Mat 1 D)
    (r : Fin R) (r' : Fin R') (k : Fin D)
    (hagg : agg' (ix2 r' k) = agg (ix2 r k)) (hhw : hw' (ix2 r' k) = hw (ix2 r k)) (hsn : sn' (ix2 r' 0) = sn (ix2 r 0)) :
    pre agg' hw' sn' b (ix2 r' k) = pre agg hw sn b (ix2 r k) := by
  unfold pre
  rw [hagg, hhw, show (ix2 r' k) 0 = r' from rfl, show (ix2 r k) 0 = r from rfl, hsn]
  rfl

theorem feat_row {R R' D : Nat} (act : EReal → EReal) (agg hw : Mat R D) (sn : Mat R 1) (agg' hw' : Mat R' D) (sn' : Mat R' 1)
    (b : Mat 1 D) (r : Fin R) (r' : Fin R') (k : Fin D)
    (hagg : agg' (ix2 r' k) = agg (ix2 r k)) (hhw : hw' (ix2 r' k) = hw (ix2 r k)) (hsn : sn' (ix2 r' 0) = sn (ix2 r 0)) :
    feat act agg' hw' sn' b (ix2 r' k) = feat act agg hw sn b (ix2 r k) := by
  unfold feat
  rw [pre_row agg hw sn agg' hw' sn' b r r' k hagg hhw hsn]

theorem layer_row {R R' D N : Nat} (act : EReal → EReal) (agg hw : Mat R D) (sn : Mat R 1) (agg' hw' : Mat R' D) (sn' : Mat R' 1)
    (b : Mat 1 D) (w : Mat N D) (r : Fin R) (r' : Fin R') (c : Fin N)
    (hagg : ∀ k, agg' (ix2 r' k) = agg (ix2 r k)) (hhw : ∀ k, hw' (ix2 r' k) = hw (ix2 r k)) (hsn : sn' (ix2 r' 0) = sn (ix2 r 0)) :
    layer act agg' hw' sn' b w (ix2 r' c) = layer act agg hw sn b w (ix2 r c) :=
  lin_row _ _ w r r' c fun k => feat_row act agg hw sn agg' hw' sn' b r r' k (hagg k) (hhw k) hsn

theorem head_row {R R' D N : Nat} (h : Mat R D) (h' : Mat R' D) (w : Mat N D) (bc : Mat 1 N) (r : Fin R) (r' : Fin R') (c : Fin N)
    (hh : ∀ k, h' (ix2 r' k) = h (ix2 r k)) : head h' w bc (ix2 r' c) = head h w bc (ix2 r c) := by
  unfold head
  rw [lin_row h h' w r r' c hh]
  rfl

end Cert.Gcn

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.RegValA.lean ====
/-
  The three fused layers of the kernel, each read as one function of the arrays its region finds.

  Each region runs over a hundred blocks of 5000 rows. On a block the body computes the activation of
  `agg + sn * hw + b` and its product with the rows of the next weight matrix; a row of that result depends on the same
  row of `agg`, `hw`, `sn` only, so block `t` of the result is rows `5000 t … 5000 t + 4999` of the same function of
  the whole arrays, and the hundred blocks cover the output array.
-/
import proofs.«160437_j481036337415_2_alg».proof.Proof.Gen.KernelIdeal.Frame
import proofs.«160437_j481036337415_2_alg».proof.Proof.Spec
import proofs.«160437_j481036337415_2_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValA

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Two broadcasts read at an index, and the zero offsets of a whole-block access -/

/-- A column `[R, 1]` broadcast along the feature axis reads, at `(r, k)`, the column's entry of row `r`. -/
theorem bcast_col {R D : Nat} (x : (⟨2, ![R, 1]⟩ : Shape).Idx → EReal)
    (h : (⟨2, ![R, 1]⟩ : Shape).Broadcasts (⟨2, ![R, D]⟩ : Shape)) (r : Fin R) (k : Fin D) (hR : R ≠ 1) :
    broadcastTo (⟨2, ![R, D]⟩ : Shape) x h (ix2 r k) = x (ix2 r 0) :=
  broadcastTo_apply x h (ix2 r k) (ix2 r 0) fun a => by
    match a with
    | ⟨0, _⟩ => show r.val = if R = 1 then 0 else r.val; rw [if_neg hR]
    | ⟨1, _⟩ => rfl

/-- A row `[1, D]` broadcast along the node axis reads, at `(r, k)`, the row's entry of column `k`. -/
theorem bcast_row {R D : Nat} (x : (⟨2, ![1, D]⟩ : Shape).Idx → EReal)
    (h : (⟨2, ![1, D]⟩ : Shape).Broadcasts (⟨2, ![R, D]⟩ : Shape)) (r : Fin R) (k : Fin D) :
    broadcastTo (⟨2, ![R, D]⟩ : Shape) x h (ix2 r k) = x (ix2 0 k) :=
  broadcastTo_apply x h (ix2 r k) (ix2 0 k) fun a => by
    match a with
    | ⟨0, _⟩ => rfl
    | ⟨1, _⟩ =>
      show k.val = if D = 1 then 0 else k.val
      have := k.isLt
      split <;> omega

/-- The offsets of an access to a whole block are zero on both axes. -/
theorem hz : (![0, 0] : Fin 2 → Nat) = fun _ => 0 := funext fun a => by fin_cases a <;> rfl

/-! ## Region 1: the rectified first layer projected by the rows of the second weight matrix -/

/-- The body's arithmetic on a block of 5000 rows is the layer on that block: at `(r, c)` the sum over `k` of the
    activation of `agg (r, k) + sn (r, 0) * hw (r, k) + b (0, k)` times `w (c, k)`. The casts to the narrower format
    are the identity on the extended reals, and the matrix product into a zero accumulator is a plain sum. -/
theorem pay1_eq (v0 : Vec Ideal S5000x4 .f32) (v2 : Vec Ideal S5000x1 .f32) (v4 : Vec Ideal S5000x4 .f32)
    (v9 : Vec Ideal S1x4 .f32) (vw : Vec Ideal S4x4 .f32) :
    k1_pay1 (F := Ideal) v0 v2 v4 v9 vw = Cert.Gcn.layer (R := 5000) (D := 4) (N := 4) Cert.Gcn.relu v0 v4 v2 v9 vw := by
  funext j
  unfold k1_pay1
  refine (Cert.RowDot.matmul_zero_apply 5000 4 4 (φ₁ := .bf16) (φ₂ := .bf16) none _ _ j).trans ?_
  show _ = ∑ k : Fin 4, Cert.Gcn.feat (R := 5000) (D := 4) Cert.Gcn.relu v0 v4 v2 v9 (ix2 (j 0) k) * vw (ix2 (j 1) k)
  refine Finset.sum_congr rfl fun k _ => ?_
  refine congrArg (· * vw (ix2 (j 1) k)) ?_
  show max (shapeCast S5000x4 v0 shapeCasts_S5000x4_S5000x4 (ix2 (j 0) k)
        + broadcastTo S5000x4 (shapeCast S5000x1 v2 shapeCasts_S5000x1_S5000x1) broadcasts_S5000x1_S5000x4 (ix2 (j 0) k)
          * shapeCast S5000x4 v4 shapeCasts_S5000x4_S5000x4 (ix2 (j 0) k)
        + broadcastTo S5000x4 (shapeCast S1x4 v9 shapeCasts_S1x4_S1x4) broadcasts_S1x4_S5000x4 (ix2 (j 0) k))
      (Ideal.ofBits .f32 0x00000000#32)
    = max (v0 (ix2 (j 0) k) + v2 (ix2 (j 0) 0) * v4 (ix2 (j 0) k) + v9 (ix2 0 k)) (Ideal.ofBits .f32 0x00000000#32)
  rw [shapeCast_self, shapeCast_self, shapeCast_self, shapeCast_self,
    bcast_col (R := 5000) (D := 4) v2 broadcasts_S5000x1_S5000x4 (j 0) k (by decide),
    bcast_row (R := 5000) (D := 4) v9 broadcasts_S1x4_S5000x4 (j 0) k]

/-- The index maps of region 1 over its hundred points: the row-blocked windows sit at block `t`, the two small
    windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of window 0's block at point `t` is row `5000 t + r` of the aggregated messages. -/
theorem blk1_0 (c : Dev nD) (t : Fin cfg1.N) (r : Fin 5000) (k : Fin 4) (R : Fin 500000) (hR : R.val = 5000 * t.val + r.val) :
    (iblk1 V c 0 t : S5000x4.Idx → EReal) (ix2 r k) = (V c main_v46 : S500000x4.Idx → EReal) (ix2 R k) := by
  obtain ⟨a0, a1, -⟩ := idx_facts1 t
  show (V c main_v46 : S500000x4.Idx → EReal) (((cfg1.win 0).blk t).view.emb (ix2 r k)) = _
  refine congrArg _ (funext fun a => Fin.ext ?_)
  match a with
  | ⟨0, _⟩ => show win1_0.index t (0 : Fin 2) * 5000 + 1 * r.val = R.val; rw [a0, hR]; omega
  | ⟨1, _⟩ => show win1_0.index t (1 : Fin 2) * 4 + 1 * k.val = k.val; rw [a1]; omega

/-- Row `r` of window 1's block at point `t` is row `5000 t + r` of the node's own projected features. -/
theorem blk1_1 (c : Dev nD) (t : Fin cfg1.N) (r : Fin 5000) (k : Fin 4) (R : Fin 500000) (hR : R.val = 5000 * t.val + r.val) :
    (iblk1 V c 1 t : S5000x4.Idx → EReal) (ix2 r k) = (V c main_v33 : S500000x4.Idx → EReal) (ix2 R k) := by
  obtain ⟨-, -, b0, b1, -⟩ := idx_facts1 t
  show (V c main_v33 : S500000x4.Idx → EReal) (((cfg1.win 1).blk t).view.emb (ix2 r k)) = _
  refine congrArg _ (funext fun a => Fin.ext ?_)
  match a with
  | ⟨0, _⟩ => show win1_1.index t (0 : Fin 2) * 5000 + 1 * r.val = R.val; rw [b0, hR]; omega
  | ⟨1, _⟩ => show win1_1.index t (1 : Fin 2) * 4 + 1 * k.val = k.val; rw [b1]; omega

/-- Row `r` of window 2's block at point `t` is row `5000 t + r` of the self-loop column. -/
theorem blk1_2 (c : Dev nD) (t : Fin cfg1.N) (r : Fin 5000) (R : Fin 500000) (hR : R.val = 5000 * t.val + r.val) :
    (iblk1 V c 2 t : S5000x1.Idx → EReal) (ix2 r 0) = (V c main_v27 : S500000x1.Idx → EReal) (ix2 R 0) := by
  obtain ⟨-, -, -, -, s0, s1, -⟩ := idx_facts1 t
  show (V c main_v27 : S500000x1.Idx → EReal) (((cfg1.win 2).blk t).view.emb (ix2 r 0)) = _
  refine congrArg _ (funext fun a => Fin.ext ?_)
  match a with
  | ⟨0, _⟩ => show win1_2.index t (0 : Fin 2) * 5000 + 1 * r.val = R.val; rw [s0, hR]; omega
  | ⟨1, _⟩ => show win1_2.index t (1 : Fin 2) * 1 + 1 * 0 = 0; rw [s1]

/-- Window 3's block is the whole bias row at every point. -/
theorem blk1_3 (c : Dev nD) (t : Fin cfg1.N) : (iblk1 V c 3 t : S1x4.Idx → EReal) = V c main_v28 := by
  obtain ⟨-, -, -, -, -, -, p0, p1, -⟩ := idx_facts1 t
  funext y
  show (V c main_v28 : S1x4.Idx → EReal) (((cfg1.win 3).blk t).view.emb y) = _
  refine congrArg _ (funext fun a => Fin.ext ?_)
  match a with
  | ⟨0, _⟩ => show win1_3.index t (0 : Fin 2) * 1 + 1 * (y 0).val = (y 0).val; rw [p0]; omega
  | ⟨1, _⟩ => show win1_3.index t (1 : Fin 2) * 4 + 1 * (y 1).val = (y 1).val; rw [p1]; omega

/-- Window 4's block is the whole next weight matrix at every point. -/
theorem blk1_4 (c : Dev nD) (t : Fin cfg1.N) : (iblk1 V c 4 t : S4x4.Idx → EReal) = V c main_arg4 := by
  obtain ⟨-, -, -, -, -, -, -, -, w0, w1, -⟩ := idx_facts1 t
  funext y
  show (V c main_arg4 : S4x4.Idx → EReal) (((cfg1.win 4).blk t).view.emb y) = _
  refine congrArg _ (funext fun a => Fin.ext ?_)
  match a with
  | ⟨0, _⟩ => show win1_4.index t (0 : Fin 2) * 4 + 1 * (y 0).val = (y 0).val; rw [w0]; omega
  | ⟨1, _⟩ => show win1_4.index t (1 : Fin 2) * 4 + 1 * (y 1).val = (y 1).val; rw [w1]; omega

/-- What point `t` writes back is block `t` of the layer of the whole arrays, rows `5000 t … 5000 t + 4999`: a row
    of the layer depends on that row of the operands only, and the block's rows are those rows of the arrays. -/
theorem flushed1_eq (c : Dev nD) (t : Fin cfg1.N) :
    (dat1 (F := Ideal) V c).flushed 5 t = ((cfg1.win 5).blk t).view.read (Elt Ideal)
      (Cert.Gcn.layer (R := 500000) (D := 4) (N := 4) Cert.Gcn.relu (V c main_v46) (V c main_v33) (V c main_v27) (V c main_v28) (V c main_arg4)) := by
  show (cfg1.win 5).cut (grid1.coords t) ((dat1 V c).after 5 t) = _
  rw [after1_5]
  unfold out1_5
  rw [View.canon_unit_zero hz]
  simp only [View.ld_unit_zero (S := S5000x4) hz, View.ld_unit_zero (S := S5000x1) hz, View.ld_unit_zero (S := S1x4) hz, View.ld_unit_zero (S := S4x4) hz]
  rw [pay1_eq]
  obtain ⟨-, -, -, -, -, -, -, -, -, -, o0, o1⟩ := idx_facts1 t
  have ht : t.val < 100 := lt_of_lt_of_eq t.isLt N_1
  funext y
  show Cert.Gcn.layer (R := 5000) (D := 4) (N := 4) Cert.Gcn.relu (iblk1 V c 0 t) (iblk1 V c 1 t) (iblk1 V c 2 t) (iblk1 V c 3 t) (iblk1 V c 4 t) y
    = Cert.Gcn.layer (R := 500000) (D := 4) (N := 4) Cert.Gcn.relu (V c main_v46) (V c main_v33) (V c main_v27) (V c main_v28) (V c main_arg4) (((cfg1.win 5).blk t).view.emb y)
  rw [blk1_3 V c t, blk1_4 V c t]
  have hy0 : (y 0).val < 5000 := (y 0).isLt
  have ey : (y : S5000x4.Idx) = ix2 (y 0) (y 1) := eq_ix2 y
  have ee : ((cfg1.win 5).blk t).view.emb y = (ix2 (⟨5000 * t.val + (y 0).val, by omega⟩ : Fin 500000) (y 1) : S500000x4.Idx) := by
    funext a; apply Fin.ext
    match a with
    | ⟨0, _⟩ => show win1_5.index t (0 : Fin 2) * 5000 + 1 * (y 0).val = 5000 * t.val + (y 0).val; rw [o0]; omega
    | ⟨1, _⟩ => show win1_5.index t (1 : Fin 2) * 4 + 1 * (y 1).val = (y 1).val; rw [o1]; omega
  rw [ee]
  refine (congrArg (Cert.Gcn.layer (R := 5000) (D := 4) (N := 4) Cert.Gcn.relu (iblk1 V c 0 t) (iblk1 V c 1 t) (iblk1 V c 2 t) (V c main_v28) (V c main_arg4)) ey).trans ?_
  exact Cert.Gcn.layer_row Cert.Gcn.relu (V c main_v46) (V c main_v33) (V c main_v27) (iblk1 V c 0 t) (iblk1 V c 1 t) (iblk1 V c 2 t)
    (V c main_v28) (V c main_arg4) ⟨5000 * t.val + (y 0).val, by omega⟩ (y 0) (y 1)
    (fun k => blk1_0 V c t (y 0) k _ rfl) (fun k => blk1_1 V c t (y 0) k _ rfl) (blk1_2 V c t (y 0) _ rfl)

/-- An index of the output array is in point `t`'s block iff each coordinate is in the block's range on its axis. -/
theorem mem_blk1 (t : Fin cfg1.N) (i : S500000x4.Idx) :
    i ∈ ((cfg1.win 5).blk t).view.set ↔ ∀ a : Fin 2, win1_5.index t a * S5000x4.size a ≤ (i a).val ∧ (i a).val < win1_5.index t a * S5000x4.size a + S5000x4.size a := by
  show i ∈ ((View.whole main_v47).slice (win1_5.rect t)).set ↔ _
  rw [View.set_slice_whole, Rect.mem_set_unit]
  exact Iff.rfl

/-- Every row of the output array is written: row `r` lies in the block of point `r / 5000`. -/
theorem cover1 (i : S500000x4.Idx) : ∃ t : Fin cfg1.N, (cfg1.win 5).flush t = true ∧ i ∈ ((cfg1.win 5).blk t).view.set := by
  have hi0 : (i 0).val < 500000 := (i 0).isLt
  have hi1 : (i 1).val < 4 := (i 1).isLt
  have hN : cfg1.N = 100 := N_1
  refine ⟨⟨(i 0).val / 5000, by rw [hN]; omega⟩, flush1_5 _, ?_⟩
  rw [mem_blk1]
  obtain ⟨-, -, -, -, -, -, -, -, -, -, e0, e1⟩ := idx_facts1 ⟨(i 0).val / 5000, by rw [hN]; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
  | ⟨1, _⟩ => show win1_5.index _ (1 : Fin 2) * 4 ≤ (i 1).val ∧ (i 1).val < win1_5.index _ (1 : Fin 2) * 4 + 4; rw [e1]; omega

/-- Region 1: the array of window 5 after the region is the rectified first layer projected by `W2`. -/
theorem reg1_val (c : Dev nD) :
    (dat1 (F := Ideal) V c).arrAt 5 cfg1.N
      = Cert.Gcn.layer (R := 500000) (D := 4) (N := 4) Cert.Gcn.relu (V c main_v46) (V c main_v33) (V c main_v27) (V c main_v28) (V c main_arg4) :=
  (dat1 (F := Ideal) V c).arrAt_eq_of_cover 5 _ (fun t _ => flushed1_eq V c t) cover1

/-! ## Region 2: the second layer (hyperbolic tangent) projected by the rows of the third weight matrix -/

/-- The body's arithmetic on a block of 5000 rows is the layer on that block: at `(r, c)` the sum over `k` of the
    activation of `agg (r, k) + sn (r, 0) * hw (r, k) + b (0, k)` times `w (c, k)`. The casts to the narrower format
    are the identity on the extended reals, and the matrix product into a zero accumulator is a plain sum. -/
theorem pay2_eq (v0 : Vec Ideal S5000x4 .f32) (v2 : Vec Ideal S5000x1 .f32) (v4 : Vec Ideal S5000x4 .f32)
    (v9 : Vec Ideal S1x4 .f32) (vw : Vec Ideal S2x4 .f32) :
    k2_pay1 (F := Ideal) v0 v2 v4 v9 vw = Cert.Gcn.layer (R := 5000) (D := 4) (N := 2) Ideal.tanh v0 v4 v2 v9 vw := by
  funext j
  unfold k2_pay1
  refine (Cert.RowDot.matmul_zero_apply 5000 4 2 (φ₁ := .bf16) (φ₂ := .bf16) none _ _ j).trans ?_
  show _ = ∑ k : Fin 4, Cert.Gcn.feat (R := 5000) (D := 4) Ideal.tanh v0 v4 v2 v9 (ix2 (j 0) k) * vw (ix2 (j 1) k)
  refine Finset.sum_congr rfl fun k _ => ?_
  refine congrArg (· * vw (ix2 (j 1) k)) ?_
  show Ideal.tanh (shapeCast S5000x4 v0 shapeCasts_S5000x4_S5000x4 (ix2 (j 0) k)
        + broadcastTo S5000x4 (shapeCast S5000x1 v2 shapeCasts_S5000x1_S5000x1) broadcasts_S5000x1_S5000x4 (ix2 (j 0) k)
          * shapeCast S5000x4 v4 shapeCasts_S5000x4_S5000x4 (ix2 (j 0) k)
        + broadcastTo S5000x4 (shapeCast S1x4 v9 shapeCasts_S1x4_S1x4) broadcasts_S1x4_S5000x4 (ix2 (j 0) k))
    = Ideal.tanh (v0 (ix2 (j 0) k) + v2 (ix2 (j 0) 0) * v4 (ix2 (j 0) k) + v9 (ix2 0 k))
  rw [shapeCast_self, shapeCast_self, shapeCast_self, shapeCast_self,
    bcast_col (R := 5000) (D := 4) v2 broadcasts_S5000x1_S5000x4 (j 0) k (by decide),
    bcast_row (R := 5000) (D := 4) v9 broadcasts_S1x4_S5000x4 (j 0) k]

/-- The index maps of region 2 over its hundred points: the row-blocked windows sit at block `t`, the two small
    windows at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of window 0's block at point `t` is row `5000 t + r` of the aggregated messages. -/
theorem blk2_0 (c : Dev nD) (t : Fin cfg2.N) (r : Fin 5000) (k : Fin 4) (R : Fin 500000) (hR : R.val = 5000 * t.val + r.val) :
    (iblk2 V c 0 t : S5000x4.Idx → EReal) (ix2 r k) = (V c main_v60 : S500000x4.Idx → EReal) (ix2 R k) := by
  obtain ⟨a0, a1, -⟩ := idx_facts2 t
  show (V c main_v60 : S500000x4.Idx → EReal) (((cfg2.win 0).blk t).view.emb (ix2 r k)) = _
  refine congrArg _ (funext fun a => Fin.ext ?_)
  match a with
  | ⟨0, _⟩ => show win2_0.index t (0 : Fin 2) * 5000 + 1 * r.val = R.val; rw [a0, hR]; omega
  | ⟨1, _⟩ => show win2_0.index t (1 : Fin 2) * 4 + 1 * k.val = k.val; rw [a1]; omega

/-- Row `r` of window 1's block at point `t` is row `5000 t + r` of the node's own projected features. -/
theorem blk2_1 (c : Dev nD) (t : Fin cfg2.N) (r : Fin 5000) (k : Fin 4) (R : Fin 500000) (hR : R.val = 5000 * t.val + r.val) :
    (iblk2 V c 1 t : S5000x4.Idx → EReal) (ix2 r k) = (V c main_v47 : S500000x4.Idx → EReal) (ix2 R k) := by
  obtain ⟨-, -, b0, b1, -⟩ := idx_facts2 t
  show (V c main_v47 : S500000x4.Idx → EReal) (((cfg2.win 1).blk t).view.emb (ix2 r k)) = _
  refine congrArg _ (funext fun a => Fin.ext ?_)
  match a with
  | ⟨0, _⟩ => show win2_1.index t (0 : Fin 2) * 5000 + 1 * r.val = R.val; rw [b0, hR]; omega
  | ⟨1, _⟩ => show win2_1.index t (1 : Fin 2) * 4 + 1 * k.val = k.val; rw [b1]; omega

/-- Row `r` of window 2's block at point `t` is row `5000 t + r` of the self-loop column. -/
theorem blk2_2 (c : Dev nD) (t : Fin cfg2.N) (r : Fin 5000) (R : Fin 500000) (hR : R.val = 5000 * t.val + r.val) :
    (iblk2 V c 2 t : S5000x1.Idx → EReal) (ix2 r 0) = (V c main_v27 : S500000x1.Idx → EReal) (ix2 R 0) := by
  obtain ⟨-, -, -, -, s0, s1, -⟩ := idx_facts2 t
  show (V c main_v27 : S500000x1.Idx → EReal) (((cfg2.win 2).blk t).view.emb (ix2 r 0)) = _
  refine congrArg _ (funext fun a => Fin.ext ?_)
  match a with
  | ⟨0, _⟩ => show win2_2.index t (0 : Fin 2) * 5000 + 1 * r.val = R.val; rw [s0, hR]; omega
  | ⟨1, _⟩ => show win2_2.index t (1 : Fin 2) * 1 + 1 * 0 = 0; rw [s1]

/-- Window 3's block is the whole bias row at every point. -/
theorem blk2_3 (c : Dev nD) (t : Fin cfg2.N) : (iblk2 V c 3 t : S1x4.Idx → EReal) = V c main_v29 := by
  obtain ⟨-, -, -, -, -, -, p0, p1, -⟩ := idx_facts2 t
  funext y
  show (V c main_v29 : S1x4.Idx → EReal) (((cfg2.win 3).blk t).view.emb y) = _
  refine congrArg _ (funext fun a => Fin.ext ?_)
  match a with
  | ⟨0, _⟩ => show win2_3.index t (0 : Fin 2) * 1 + 1 * (y 0).val = (y 0).val; rw [p0]; omega
  | ⟨1, _⟩ => show win2_3.index t (1 : Fin 2) * 4 + 1 * (y 1).val = (y 1).val; rw [p1]; omega

/-- Window 4's block is the whole next weight matrix at every point. -/
theorem blk2_4 (c : Dev nD) (t : Fin cfg2.N) : (iblk2 V c 4 t : S2x4.Idx → EReal) = V c main_arg6 := by
  obtain ⟨-, -, -, -, -, -, -, -, w0, w1, -⟩ := idx_facts2 t
  funext y
  show (V c main_arg6 : S2x4.Idx → EReal) (((cfg2.win 4).blk t).view.emb y) = _
  refine congrArg _ (funext fun a => Fin.ext ?_)
  match a with
  | ⟨0, _⟩ => show win2_4.index t (0 : Fin 2) * 2 + 1 * (y 0).val = (y 0).val; rw [w0]; omega
  | ⟨1, _⟩ => show win2_4.index t (1 : Fin 2) * 4 + 1 * (y 1).val = (y 1).val; rw [w1]; omega

/-- What point `t` writes back is block `t` of the layer of the whole arrays, rows `5000 t … 5000 t + 4999`: a row
    of the layer depends on that row of the operands only, and the block's rows are those rows of the arrays. -/
theorem flushed2_eq (c : Dev nD) (t : Fin cfg2.N) :
    (dat2 (F := Ideal) V c).flushed 5 t = ((cfg2.win 5).blk t).view.read (Elt Ideal)
      (Cert.Gcn.layer (R := 500000) (D := 4) (N := 2) Ideal.tanh (V c main_v60) (V c main_v47) (V c main_v27) (V c main_v29) (V c main_arg6)) := by
  show (cfg2.win 5).cut (grid2.coords t) ((dat2 V c).after 5 t) = _
  rw [after2_5]
  unfold out2_5
  rw [View.canon_unit_zero hz]
  simp only [View.ld_unit_zero (S := S5000x4) hz, View.ld_unit_zero (S := S5000x1) hz, View.ld_unit_zero (S := S1x4) hz, View.ld_unit_zero (S := S2x4) hz]
  rw [pay2_eq]
  obtain ⟨-, -, -, -, -, -, -, -, -, -, o0, o1⟩ := idx_facts2 t
  have ht : t.val < 100 := lt_of_lt_of_eq t.isLt N_2
  funext y
  show Cert.Gcn.layer (R := 5000) (D := 4) (N := 2) Ideal.tanh (iblk2 V c 0 t) (iblk2 V c 1 t) (iblk2 V c 2 t) (iblk2 V c 3 t) (iblk2 V c 4 t) y
    = Cert.Gcn.layer (R := 500000) (D := 4) (N := 2) Ideal.tanh (V c main_v60) (V c main_v47) (V c main_v27) (V c main_v29) (V c main_arg6) (((cfg2.win 5).blk t).view.emb y)
  rw [blk2_3 V c t, blk2_4 V c t]
  have hy0 : (y 0).val < 5000 := (y 0).isLt
  have ey : (y : S5000x2.Idx) = ix2 (y 0) (y 1) := eq_ix2 y
  have ee : ((cfg2.win 5).blk t).view.emb y = (ix2 (⟨5000 * t.val + (y 0).val, by omega⟩ : Fin 500000) (y 1) : S500000x2.Idx) := by
    funext a; apply Fin.ext
    match a with
    | ⟨0, _⟩ => show win2_5.index t (0 : Fin 2) * 5000 + 1 * (y 0).val = 5000 * t.val + (y 0).val; rw [o0]; omega
    | ⟨1, _⟩ => show win2_5.index t (1 : Fin 2) * 2 + 1 * (y 1).val = (y 1).val; rw [o1]; omega
  rw [ee]
  refine (congrArg (Cert.Gcn.layer (R := 5000) (D := 4) (N := 2) Ideal.tanh (iblk2 V c 0 t) (iblk2 V c 1 t) (iblk2 V c 2 t) (V c main_v29) (V c main_arg6)) ey).trans ?_
  exact Cert.Gcn.layer_row Ideal.tanh (V c main_v60) (V c main_v47) (V c main_v27) (iblk2 V c 0 t) (iblk2 V c 1 t) (iblk2 V c 2 t)
    (V c main_v29) (V c main_arg6) ⟨5000 * t.val + (y 0).val, by omega⟩ (y 0) (y 1)
    (fun k => blk2_0 V c t (y 0) k _ rfl) (fun k => blk2_1 V c t (y 0) k _ rfl) (blk2_2 V c t (y 0) _ rfl)

/-- An index of the output array is in point `t`'s block iff each coordinate is in the block's range on its axis. -/
theorem mem_blk2 (t : Fin cfg2.N) (i : S500000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v61).slice (win2_5.rect t)).set ↔ _
  rw [View.set_slice_whole, Rect.mem_set_unit]
  exact Iff.rfl

/-- Every row of the output array is written: row `r` lies in the block of point `r / 5000`. -/
theorem cover2 (i : S500000x2.Idx) : ∃ t : Fin cfg2.N, (cfg2.win 5).flush t = true ∧ i ∈ ((cfg2.win 5).blk t).view.set := by
  have hi0 : (i 0).val < 500000 := (i 0).isLt
  have hi1 : (i 1).val < 2 := (i 1).isLt
  have hN : cfg2.N = 100 := N_2
  refine ⟨⟨(i 0).val / 5000, by rw [hN]; omega⟩, flush2_5 _, ?_⟩
  rw [mem_blk2]
  obtain ⟨-, -, -, -, -, -, -, -, -, -, e0, e1⟩ := idx_facts2 ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ _ ∧ _ < (i 0).val / 5000 * 5000 + 5000; omega
  | ⟨1, _⟩ => show win2_5.index _ (1 : Fin 2) * 2 ≤ (i 1).val ∧ (i 1).val < win2_5.index _ (1 : Fin 2) * 2 + 2; rw [e1]; omega

/-- Region 2: the array of window 5 after the region is the second layer (tanh) projected by `W3`. -/
theorem reg2_val (c : Dev nD) :
    (dat2 (F := Ideal) V c).arrAt 5 cfg2.N
      = Cert.Gcn.layer (R := 500000) (D := 4) (N := 2) Ideal.tanh (V c main_v60) (V c main_v47) (V c main_v27) (V c main_v29) (V c main_arg6) :=
  (dat2 (F := Ideal) V c).arrAt_eq_of_cover 5 _ (fun t _ => flushed2_eq V c t) cover2

/-! ## Region 3: the rectified third layer projected by the rows of the fourth weight matrix -/

/-- The body's arithmetic on a block of 5000 rows is the layer on that block: at `(r, c)` the sum over `k` of the
    activation of `agg (r, k) + sn (r, 0) * hw (r, k) + b (0, k)` times `w (c, k)`. The casts to the narrower format
    are the identity on the extended reals, and the matrix product into a zero accumulator is a plain sum. -/
theorem pay3_eq (v0 : Vec Ideal S5000x2 .f32) (v2 : Vec Ideal S5000x1 .f32) (v4 : Vec Ideal S5000x2 .f32)
    (v9 : Vec Ideal S1x2 .f32) (vw : Vec Ideal S2x2 .f32) :
    k3_pay1 (F := Ideal) v0 v2 v4 v9 vw = Cert.Gcn.layer (R := 5000) (D := 2) (N := 2) Cert.Gcn.relu v0 v4 v2 v9 vw := by
  funext j
  unfold k3_pay1
  refine (Cert.RowDot.matmul_zero_apply 5000 2 2 (φ₁ := .bf16) (φ₂ := .bf16) none _ _ j).trans ?_
  show _ = ∑ k : Fin 2, Cert.Gcn.feat (R := 5000) (D := 2) Cert.Gcn.relu v0 v4 v2 v9 (ix2 (j 0) k) * vw (ix2 (j 1) k)
  refine Finset.sum_congr rfl fun k _ => ?_
  refine congrArg (· * vw (ix2 (j 1) k)) ?_
  show max (shapeCast S5000x2 v0 shapeCasts_S5000x2_S5000x2 (ix2 (j 0) k)
        + broadcastTo S5000x2 (shapeCast S5000x1 v2 shapeCasts_S5000x1_S5000x1) broadcasts_S5000x1_S5000x2 (ix2 (j 0) k)
          * shapeCast S5000x2 v4 shapeCasts_S5000x2_S5000x2 (ix2 (j 0) k)
        + broadcastTo S5000x2 (shapeCast S1x2 v9 shapeCasts_S1x2_S1x2) broadcasts_S1x2_S5000x2 (ix2 (j 0) k))
      (Ideal.ofBits .f32 0x00000000#32)
    = max (v0 (ix2 (j 0) k) + v2 (ix2 (j 0) 0) * v4 (ix2 (j 0) k) + v9 (ix2 0 k)) (Ideal.ofBits .f32 0x00000000#32)
  rw [shapeCast_self, shapeCast_self, shapeCast_self, shapeCast_self,
    bcast_col (R := 5000) (D := 2) v2 broadcasts_S5000x1_S5000x2 (j 0) k (by decide),
    bcast_row (R := 5000) (D := 2) v9 broadcasts_S1x2_S5000x2 (j 0) k]

/-- The index maps of region 3 over its hundred points: the row-blocked windows sit at block `t`, the two small
    windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `r` of window 0's block at point `t` is row `5000 t + r` of the aggregated messages. -/
theorem blk3_0 (c : Dev nD) (t : Fin cfg3.N) (r : Fin 5000) (k : Fin 2) (R : Fin 500000) (hR : R.val = 5000 * t.val + r.val) :
    (iblk3 V c 0 t : S5000x2.Idx → EReal) (ix2 r k) = (V c main_v74 : S500000x2.Idx → EReal) (ix2 R k) := by
  obtain ⟨a0, a1, -⟩ := idx_facts3 t
  show (V c main_v74 : S500000x2.Idx → EReal) (((cfg3.win 0).blk t).view.emb (ix2 r k)) = _
  refine congrArg _ (funext fun a => Fin.ext ?_)
  match a with
  | ⟨0, _⟩ => show win3_0.index t (0 : Fin 2) * 5000 + 1 * r.val = R.val; rw [a0, hR]; omega
  | ⟨1, _⟩ => show win3_0.index t (1 : Fin 2) * 2 + 1 * k.val = k.val; rw [a1]; omega

/-- Row `r` of window 1's block at point `t` is row `5000 t + r` of the node's own projected features. -/
theorem blk3_1 (c : Dev nD) (t : Fin cfg3.N) (r : Fin 5000) (k : Fin 2) (R : Fin 500000) (hR : R.val = 5000 * t.val + r.val) :
    (iblk3 V c 1 t : S5000x2.Idx → EReal) (ix2 r k) = (V c main_v61 : S500000x2.Idx → EReal) (ix2 R k) := by
  obtain ⟨-, -, b0, b1, -⟩ := idx_facts3 t
  show (V c main_v61 : S500000x2.Idx → EReal) (((cfg3.win 1).blk t).view.emb (ix2 r k)) = _
  refine congrArg _ (funext fun a => Fin.ext ?_)
  match a with
  | ⟨0, _⟩ => show win3_1.index t (0 : Fin 2) * 5000 + 1 * r.val = R.val; rw [b0, hR]; omega
  | ⟨1, _⟩ => show win3_1.index t (1 : Fin 2) * 2 + 1 * k.val = k.val; rw [b1]; omega

/-- Row `r` of window 2's block at point `t` is row `5000 t + r` of the self-loop column. -/
theorem blk3_2 (c : Dev nD) (t : Fin cfg3.N) (r : Fin 5000) (R : Fin 500000) (hR : R.val = 5000 * t.val + r.val) :
    (iblk3 V c 2 t : S5000x1.Idx → EReal) (ix2 r 0) = (V c main_v27 : S500000x1.Idx → EReal) (ix2 R 0) := by
  obtain ⟨-, -, -, -, s0, s1, -⟩ := idx_facts3 t
  show (V c main_v27 : S500000x1.Idx → EReal) (((cfg3.win 2).blk t).view.emb (ix2 r 0)) = _
  refine congrArg _ (funext fun a => Fin.ext ?_)
  match a with
  | ⟨0, _⟩ => show win3_2.index t (0 : Fin 2) * 5000 + 1 * r.val = R.val; rw [s0, hR]; omega
  | ⟨1, _⟩ => show win3_2.index t (1 : Fin 2) * 1 + 1 * 0 = 0; rw [s1]

/-- Window 3's block is the whole bias row at every point. -/
theorem blk3_3 (c : Dev nD) (t : Fin cfg3.N) : (iblk3 V c 3 t : S1x2.Idx → EReal) = V c main_v30 := by
  obtain ⟨-, -, -, -, -, -, p0, p1, -⟩ := idx_facts3 t
  funext y
  show (V c main_v30 : S1x2.Idx → EReal) (((cfg3.win 3).blk t).view.emb y) = _
  refine congrArg _ (funext fun a => Fin.ext ?_)
  match a with
  | ⟨0, _⟩ => show win3_3.index t (0 : Fin 2) * 1 + 1 * (y 0).val = (y 0).val; rw [p0]; omega
  | ⟨1, _⟩ => show win3_3.index t (1 : Fin 2) * 2 + 1 * (y 1).val = (y 1).val; rw [p1]; omega

/-- Window 4's block is the whole next weight matrix at every point. -/
theorem blk3_4 (c : Dev nD) (t : Fin cfg3.N) : (iblk3 V c 4 t : S2x2.Idx → EReal) = V c main_arg8 := by
  obtain ⟨-, -, -, -, -, -, -, -, w0, w1, -⟩ := idx_facts3 t
  funext y
  show (V c main_arg8 : S2x2.Idx → EReal) (((cfg3.win 4).blk t).view.emb y) = _
  refine congrArg _ (funext fun a => Fin.ext ?_)
  match a with
  | ⟨0, _⟩ => show win3_4.index t (0 : Fin 2) * 2 + 1 * (y 0).val = (y 0).val; rw [w0]; omega
  | ⟨1, _⟩ => show win3_4.index t (1 : Fin 2) * 2 + 1 * (y 1).val = (y 1).val; rw [w1]; omega

/-- What point `t` writes back is block `t` of the layer of the whole arrays, rows `5000 t … 5000 t + 4999`: a row
    of the layer depends on that row of the operands only, and the block's rows are those rows of the arrays. -/
theorem flushed3_eq (c : Dev nD) (t : Fin cfg3.N) :
    (dat3 (F := Ideal) V c).flushed 5 t = ((cfg3.win 5).blk t).view.read (Elt Ideal)
      (Cert.Gcn.layer (R := 500000) (D := 2) (N := 2) Cert.Gcn.relu (V c main_v74) (V c main_v61) (V c main_v27) (V c main_v30) (V c main_arg8)) := by
  show (cfg3.win 5).cut (grid3.coords t) ((dat3 V c).after 5 t) = _
  rw [after3_5]
  unfold out3_5
  rw [View.canon_unit_zero hz]
  simp only [View.ld_unit_zero (S := S5000x2) hz, View.ld_unit_zero (S := S5000x1) hz, View.ld_unit_zero (S := S1x2) hz, View.ld_unit_zero (S := S2x2) hz]
  rw [pay3_eq]
  obtain ⟨-, -, -, -, -, -, -, -, -, -, o0, o1⟩ := idx_facts3 t
  have ht : t.val < 100 := lt_of_lt_of_eq t.isLt N_3
  funext y
  show Cert.Gcn.layer (R := 5000) (D := 2) (N := 2) Cert.Gcn.relu (iblk3 V c 0 t) (iblk3 V c 1 t) (iblk3 V c 2 t) (iblk3 V c 3 t) (iblk3 V c 4 t) y
    = Cert.Gcn.layer (R := 500000) (D := 2) (N := 2) Cert.Gcn.relu (V c main_v74) (V c main_v61) (V c main_v27) (V c main_v30) (V c main_arg8) (((cfg3.win 5).blk t).view.emb y)
  rw [blk3_3 V c t, blk3_4 V c t]
  have hy0 : (y 0).val < 5000 := (y 0).isLt
  have ey : (y : S5000x2.Idx) = ix2 (y 0) (y 1) := eq_ix2 y
  have ee : ((cfg3.win 5).blk t).view.emb y = (ix2 (⟨5000 * t.val + (y 0).val, by omega⟩ : Fin 500000) (y 1) : S500000x2.Idx) := by
    funext a; apply Fin.ext
    match a with
    | ⟨0, _⟩ => show win3_5.index t (0 : Fin 2) * 5000 + 1 * (y 0).val = 5000 * t.val + (y 0).val; rw [o0]; omega
    | ⟨1, _⟩ => show win3_5.index t (1 : Fin 2) * 2 + 1 * (y 1).val = (y 1).val; rw [o1]; omega
  rw [ee]
  refine (congrArg (Cert.Gcn.layer (R := 5000) (D := 2) (N := 2) Cert.Gcn.relu (iblk3 V c 0 t) (iblk3 V c 1 t) (iblk3 V c 2 t) (V c main_v30) (V c main_arg8)) ey).trans ?_
  exact Cert.Gcn.layer_row Cert.Gcn.relu (V c main_v74) (V c main_v61) (V c main_v27) (iblk3 V c 0 t) (iblk3 V c 1 t) (iblk3 V c 2 t)
    (V c main_v30) (V c main_arg8) ⟨5000 * t.val + (y 0).val, by omega⟩ (y 0) (y 1)
    (fun k => blk3_0 V c t (y 0) k _ rfl) (fun k => blk3_1 V c t (y 0) k _ rfl) (blk3_2 V c t (y 0) _ rfl)

/-- An index of the output array is in point `t`'s block iff each coordinate is in the block's range on its axis. -/
theorem mem_blk3 (t : Fin cfg3.N) (i : S500000x2.Idx) :
    i ∈ ((cfg3.win 5).blk t).view.set ↔ ∀ a : Fin 2, win3_5.index t a * S5000x2.size a ≤ (i a).val ∧ (i a).val < win3_5.index t a * S5000x2.size a + S5000x2.size a := by
  show i ∈ ((View.whole main_v75).slice (win3_5.rect t)).set ↔ _
  rw [View.set_slice_whole, Rect.mem_set_unit]
  exact Iff.rfl

/-- Every row of the output array is written: row `r` lies in the block of point `r / 5000`. -/
theorem cover3 (i : S500000x2.Idx) : ∃ t : Fin cfg3.N, (cfg3.win 5).flush t = true ∧ i ∈ ((cfg3.win 5).blk t).view.set := by
  have hi0 : (i 0).val < 500000 := (i 0).isLt
  have hi1 : (i 1).val < 2 := (i 1).isLt
  have hN : cfg3.N = 100 := N_3
  refine ⟨⟨(i 0).val / 5000, by rw [hN]; omega⟩, flush3_5 _, ?_⟩
  rw [mem_blk3]
  obtain ⟨-, -, -, -, -, -, -, -, -, -, e0, e1⟩ := idx_facts3 ⟨(i 0).val / 5000, by rw [hN]; omega⟩
  intro a
  match a with
  | ⟨0, _⟩ => show win3_5.index _ (0 : Fin 2) * 5000 ≤ (i 0).val ∧ (i 0).val < win3_5.index _ (0 : Fin 2) * 5000 + 5000; rw [e0]; show (i 0).val / 5000 * 5000 ≤ _ ∧ _ < (i 0).val / 5000 * 5000 + 5000; omega
  | ⟨1, _⟩ => show win3_5.index _ (1 : Fin 2) * 2 ≤ (i 1).val ∧ (i 1).val < win3_5.index _ (1 : Fin 2) * 2 + 2; rw [e1]; omega

/-- Region 3: the array of window 5 after the region is the rectified third layer projected by `W4`. -/
theorem reg3_val (c : Dev nD) :
    (dat3 (F := Ideal) V c).arrAt 5 cfg3.N
      = Cert.Gcn.layer (R := 500000) (D := 2) (N := 2) Cert.Gcn.relu (V c main_v74) (V c main_v61) (V c main_v27) (V c main_v30) (V c main_arg8) :=
  (dat3 (F := Ideal) V c).arrAt_eq_of_cover 5 _ (fun t _ => flushed3_eq V c t) cover3

end Cert.KernelIdeal.RegValA

end
-- ==== Proof.RegValB.lean ====
/-
  The first projection and the last layer with its classifier head, each read as one function of the arrays its region finds.

  Each region runs over one hundred blocks of 5000 rows. A block's result is the layer's formula on 5000 rows; the
  formula at a row reads that row of the row-blocked operands only, and the small operands (weights, bias rows) are
  whole at every block; the blocks tile the rows. So the array after the region is the same formula on all 500000 rows.
-/
import proofs.«160437_j481036337415_2_alg».proof.Proof.Gen.KernelIdeal.Frame
import proofs.«160437_j481036337415_2_alg».proof.Proof.Spec
import proofs.«160437_j481036337415_2_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValB

open Cert.KernelIdeal Cert.KernelIdeal.Gen Idealize.ShloMosaic Idealize.ShloMosaic.TcCoe Idealize.SL.Sem Idealize.ShloMosaic.ValueIdx
open Idealize.ShloMosaic.Pipeline (Dat)

/-! ## The formulas at two indices whose operands agree there -/

/-- The zero offsets of an access to a whole buffer, as the constant function. -/
theorem hz : (![0, 0] : Fin 2 → Nat) = fun _ => 0 := funext fun a => by fin_cases a <;> rfl

/-- A projection at `j` and at `i` agree when row `j 0` of the one left operand is row `i 0` of the other and
    row `j 1` of the one weight is row `i 1` of the other. -/
theorem lin_at {R R' K N : Nat} (X : Cert.Gcn.Mat R K) (x : Cert.Gcn.Mat R' K) (W w : Cert.Gcn.Mat N K)
    (j : (⟨2, ![R', N]⟩ : Shape).Idx) (i : (⟨2, ![R, N]⟩ : Shape).Idx)
    (hx : ∀ k, x (ix2 (j 0) k) = X (ix2 (i 0) k)) (hw : ∀ k, w (ix2 (j 1) k) = W (ix2 (i 1) k)) :
    Cert.Gcn.lin x w j = Cert.Gcn.lin X W i := by
  unfold Cert.Gcn.lin
  exact Finset.sum_congr rfl fun k _ => by rw [hx k, hw k]

/-! ## Region 0: the first projection -/

/-- On a block of 5000 rows the body's product of the rows of `v0` with the rows of `v1` (the casts to bf16 are
    the identity on extended reals, the accumulator starts at zero) is the projection. -/
theorem pay0_eq (v0 : Vec Ideal S5000x8 .f32) (v1 : Vec Ideal S4x8 .f32) :
    k0_pay1 (F := Ideal) v0 v1 = Cert.Gcn.lin (R := 5000) (K := 8) (N := 4) v0 v1 := by
  funext j
  unfold k0_pay1
  exact Cert.RowDot.matmul_zero_apply 5000 8 4 (φ₁ := .bf16) (φ₂ := .bf16) none
    (truncf .bf16 v0 bitsLt_bf16_f32) (truncf .bf16 v1 bitsLt_bf16_f32) j

/-- The block indices of region 0's windows at point `t`: the row-blocked windows take block `t`, the weight is whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Block `t` of the node features is rows `5000 t … 5000 t + 4999` of the array. -/
theorem blk0_0 (c : Dev nD) (t : Fin cfg0.N) (y : S5000x8.Idx) (i : S500000x8.Idx)
    (h0 : (i 0).val = t.val * 5000 + (y 0).val) (h1 : (i 1).val = (y 1).val) :
    (iblk0 (F := Ideal) V c 0 t : Vec Ideal S5000x8 .f32) y = (V c main_arg0 : S500000x8.Idx → Elt Ideal .f32) i := by
  obtain ⟨e0, e1, -⟩ := idx0 t
  unfold iblk0
  rw [View.read_apply]
  show (V c main_arg0 : S500000x8.Idx → Elt Ideal .f32) _ = V c main_arg0 i
  refine congrArg (V c main_arg0 : S500000x8.Idx → Elt Ideal .f32) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 8 + 1 * (y 1).val = (i 1).val; rw [e1, h1]; omega

/-- The weight's block is the weight at every point. -/
theorem blk0_1 (c : Dev nD) (t : Fin cfg0.N) (y : S4x8.Idx) (i : S4x8.Idx)
    (h0 : (i 0).val = (y 0).val) (h1 : (i 1).val = (y 1).val) :
    (iblk0 (F := Ideal) V c 1 t : Vec Ideal S4x8 .f32) y = (V c main_arg2 : S4x8.Idx → Elt Ideal .f32) i := by
  obtain ⟨-, -, e2, e3, -⟩ := idx0 t
  unfold iblk0
  rw [View.read_apply]
  show (V c main_arg2 : S4x8.Idx → Elt Ideal .f32) _ = V c main_arg2 i
  refine congrArg (V c main_arg2 : S4x8.Idx → Elt Ideal .f32) (funext fun a => Fin.ext ?_)
  match a with
  | ⟨0, _⟩ => show win0_1.index t (0 : Fin 2) * 4 + 1 * (y 0).val = (i 0).val; rw [e2, h0]; omega
  | ⟨1, _⟩ => show win0_1.index t (1 : Fin 2) * 8 + 1 * (y 1).val = (i 1).val; rw [e3, h1]; omega

/-- What point `t` writes back is block `t` of the projection of the whole arrays. -/
theorem flushed0 (c : Dev nD) (t : Fin cfg0.N) :
    (dat0 (F := Ideal) V c).flushed 2 t
      = ((cfg0.win 2).blk t).view.read (Elt Ideal)
          (Cert.Gcn.lin (R := 500000) (K := 8) (N := 4) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x8) hz, View.ld_unit_zero (S := S4x8) hz]
  rw [pay0_eq]
  obtain ⟨-, -, -, -, e4, e5⟩ := idx0 t
  funext j
  show Cert.Gcn.lin (R := 5000) (K := 8) (N := 4) (iblk0 V c 0 t) (iblk0 V c 1 t) j
    = Cert.Gcn.lin (R := 500000) (K := 8) (N := 4) (V c main_arg0) (V c main_arg2) (((cfg0.win 2).blk t).view.emb j)
  have h0 : ((((cfg0.win 2).blk t).view.emb j) 0).val = t.val * 5000 + (j 0).val := by
    show win0_2.index t (0 : Fin 2) * 5000 + 1 * (j 0).val = _; rw [e4]; omega
  have h1 : ((((cfg0.win 2).blk t).view.emb j) 1).val = (j 1).val := by
    show win0_2.index t (1 : Fin 2) * 4 + 1 * (j 1).val = _; rw [e5]; omega
  exact lin_at (R := 500000) (R' := 5000) (K := 8) (N := 4) (V c main_arg0) (iblk0 V c 0 t) (V c main_arg2) (iblk0 V c 1 t)
    j (((cfg0.win 2).blk t).view.emb j)
    (fun k => blk0_0 V c t (ix2 (j 0) k) (ix2 ((((cfg0.win 2).blk t).view.emb j) 0) k) h0 rfl)
    (fun k => blk0_1 V c t (ix2 (j 1) k) (ix2 ((((cfg0.win 2).blk t).view.emb j) 1) k) h1 rfl)

/-- An index of the output array is in point `t`'s block iff each coordinate is in the block's range on its axis. -/
theorem mem_blk0 (t : Fin cfg0.N) (i : S500000x4.Idx) :
    i ∈ ((cfg0.win 2).blk t).view.set ↔ ∀ a : Fin 2, win0_2.index t a * S5000x4.size a ≤ (i a).val
      ∧ (i a).val < win0_2.index t a * S5000x4.size a + S5000x4.size a := by
  show i ∈ ((View.whole main_v33).slice (win0_2.rect t)).set ↔ _
  rw [View.set_slice_whole, Rect.mem_set_unit]
  exact Iff.rfl

/-- Row `r` of the output is in the block of point `r / 5000`. -/
theorem cover0 (i : S500000x4.Idx) :
    ∃ t : Fin cfg0.N, (cfg0.win 2).flush t = true ∧ i ∈ ((cfg0.win 2).blk t).view.set := by
  have hi0 : (i 0).val < 500000 := (i 0).isLt
  have hi1 : (i 1).val < 4 := (i 1).isLt
  obtain ⟨t, ht⟩ : ∃ t : Fin cfg0.N, t.val = (i 0).val / 5000 :=
    ⟨⟨(i 0).val / 5000, by rw [show cfg0.N = 100 from N_0]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4]; omega
  | ⟨1, _⟩ =>
    show win0_2.index t (1 : Fin 2) * 4 ≤ (i 1).val ∧ (i 1).val < win0_2.index t (1 : Fin 2) * 4 + 4
    rw [e5]; omega

/-- Region 0: the array of window 2 after the region is `x · W1ᵀ`. -/
theorem reg0_val (c : Dev nD) :
    (dat0 (F := Ideal) V c).arrAt 2 cfg0.N
      = Cert.Gcn.lin (R := 500000) (K := 8) (N := 4) (V c main_arg0) (V c main_arg2) :=
  (dat0 (F := Ideal) V c).arrAt_eq_of_cover 2 _ (fun t _ => flushed0 V c t) cover0

/-! ## Region 4: the last layer and the classifier head -/

/-- A layer's features at `j` and at `i` agree when the operands agree there: the aggregated messages and the
    projected features at the entry, the self-loop weight at the row, the bias at the column. -/
theorem feat_at {R R' D : Nat} (act : EReal → EReal) (agg hw : Cert.Gcn.Mat R D) (sn : Cert.Gcn.Mat R 1) (b : Cert.Gcn.Mat 1 D)
    (agg' hw' : Cert.Gcn.Mat R' D) (sn' : Cert.Gcn.Mat R' 1) (b' : Cert.Gcn.Mat 1 D)
    (j : (⟨2, ![R', D]⟩ : Shape).Idx) (i : (⟨2, ![R, D]⟩ : Shape).Idx)
    (hagg : agg' j = agg i) (hhw : hw' j = hw i) (hsn : sn' (ix2 (j 0) 0) = sn (ix2 (i 0) 0))
    (hb : b' (ix2 0 (j 1)) = b (ix2 0 (i 1))) :
    Cert.Gcn.feat act agg' hw' sn' b' j = Cert.Gcn.feat act agg hw sn b i := by
  unfold Cert.Gcn.feat Cert.Gcn.pre
  rw [hagg, hhw, hsn, hb]

/-- The head at `j` and at `i` agree when row `j 0` of the one feature matrix is row `i 0` of the other, row `j 1`
    of the one weight is row `i 1` of the other, and the bias rows agree at the column. -/
theorem head_at {R R' D N : Nat} (h : Cert.Gcn.Mat R D) (h' : Cert.Gcn.Mat R' D) (w w' : Cert.Gcn.Mat N D) (bc bc' : Cert.Gcn.Mat 1 N)
    (j : (⟨2, ![R', N]⟩ : Shape).Idx) (i : (⟨2, ![R, N]⟩ : Shape).Idx)
    (hh : ∀ k, h' (ix2 (j 0) k) = h (ix2 (i 0) k)) (hw : ∀ k, w' (ix2 (j 1) k) = w (ix2 (i 1) k))
    (hbc : bc' (ix2 0 (j 1)) = bc (ix2 0 (i 1))) :
    Cert.Gcn.head h' w' bc' j = Cert.Gcn.head h w bc i := by
  unfold Cert.Gcn.head
  rw [hbc, lin_at h h' w w' j i hh hw]

/-- On a block of 5000 rows the body's `tanh (agg + sn * hw + b)`, the self-loop column broadcast along the row
    and the bias row down the column, is the layer's features. -/
theorem pay4_1_eq (v0 : Vec Ideal S5000x2 .f32) (v2 : Vec Ideal S5000x1 .f32) (v4 : Vec Ideal S5000x2 .f32) (v9 : Vec Ideal S1x2 .f32) :
    k4_pay1 (F := Ideal) v0 v2 v4 v9 = Cert.Gcn.feat (R := 5000) (D := 2) Ideal.tanh v0 v4 v2 v9 := by
  funext j
  unfold k4_pay1
  simp only [shapeCast_self]
  have hb2 : broadcastTo S5000x2 v2 broadcasts_S5000x1_S5000x2 j = v2 (ix2 (j 0) 0) :=
    broadcastTo_apply v2 broadcasts_S5000x1_S5000x2 j (ix2 (j 0) 0) fun a => by
      match a with
      | ⟨0, _⟩ => rfl
      | ⟨1, _⟩ => rfl
  have hb9 : broadcastTo S5000x2 v9 broadcasts_S1x2_S5000x2 j = v9 (ix2 0 (j 1)) :=
    broadcastTo_apply v9 broadcasts_S1x2_S5000x2 j (ix2 0 (j 1)) fun a => by
      match a with
      | ⟨0, _⟩ => rfl
      | ⟨1, _⟩ => rfl
  show Ideal.tanh (v0 j + broadcastTo S5000x2 v2 broadcasts_S5000x1_S5000x2 j * v4 j + broadcastTo S5000x2 v9 broadcasts_S1x2_S5000x2 j) = _
  rw [hb2, hb9]
  rfl

/-- On a block of 5000 rows the body's product of the features' rows with the classifier weight's rows, plus the
    classifier bias row down the column, is the head of the block's features. -/
theorem pay4_2_eq (v0 : Vec Ideal S5000x2 .f32) (v2 : Vec Ideal S5000x1 .f32) (v4 : Vec Ideal S5000x2 .f32) (v9 : Vec Ideal S1x2 .f32)
    (v15 : Vec Ideal S112x2 .f32) (v19 : Vec Ideal S1x112 .f32) :
    k4_pay2 (F := Ideal) v0 v2 v4 v9 v15 v19
      = Cert.Gcn.head (R := 5000) (D := 2) (N := 112) (k4_pay1 (F := Ideal) v0 v2 v4 v9) v15 v19 := by
  funext j
  unfold k4_pay2
  simp only [shapeCast_self]
  have hm := Cert.RowDot.matmul_zero_apply 5000 2 112 (φ₁ := .bf16) (φ₂ := .bf16) none
    (truncf .bf16 (k4_pay1 (F := Ideal) v0 v2 v4 v9) bitsLt_bf16_f32) (truncf .bf16 v15 bitsLt_bf16_f32) j
  have hb : broadcastTo S5000x112 v19 broadcasts_S1x112_S5000x112 j = v19 (ix2 0 (j 1)) :=
    broadcastTo_apply v19 broadcasts_S1x112_S5000x112 j (ix2 0 (j 1)) fun a => by
      match a with
      | ⟨0, _⟩ => rfl
      | ⟨1, _⟩ => rfl
  show matmul dot_S5000x2_S112x2_S5000x112_1_1_0_0_n_n none
        (truncf .bf16 (k4_pay1 (F := Ideal) v0 v2 v4 v9) bitsLt_bf16_f32) (truncf .bf16 v15 bitsLt_bf16_f32)
        (constant S5000x112 .f32 0x00000000#32) j
      + broadcastTo S5000x112 v19 broadcasts_S1x112_S5000x112 j = _
  rw [hb]
  exact congrArg (· + v19 (ix2 0 (j 1))) hm

/-- The block indices of region 4's windows at point `t`: the row-blocked windows (the aggregated messages, the
    projected features, the self-loop column, the two outputs) take block `t`; the bias row, the classifier weight
    and the classifier bias row are whole. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = t.val ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = t.val ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)

/-- Block `t` of the aggregated messages is rows `5000 t … 5000 t + 4999` of the array. -/
theorem blk4_0 (c : Dev nD) (t : Fin cfg4.N) (y : S5000x2.Idx) (i : S500000x2.Idx)
    (h0 : (i 0).val = t.val * 5000 + (y 0).val) (h1 : (i 1).val = (y 1).val) :
    (iblk4 (F := Ideal) V c 0 t : Vec Ideal S5000x2 .f32) y = (V c main_v88 : S500000x2.Idx → Elt Ideal .f32) i := by
  obtain ⟨e0, e1⟩ := idx4_0 t
  unfold iblk4
  rw [View.read_apply]
  show (V c main_v88 : S500000x2.Idx → Elt Ideal .f32) _ = V c main_v88 i
  refine congrArg (V c main_v88 : S500000x2.Idx → Elt Ideal .f32) (funext fun a => Fin.ext ?_)
  match a with
  | ⟨0, _⟩ => show win4_0.index t (0 : Fin 2) * 5000 + 1 * (y 0).val = (i 0).val; rw [e0, h0]; omega
  | ⟨1, _⟩ => show win4_0.index t (1 : Fin 2) * 2 + 1 * (y 1).val = (i 1).val; rw [e1, h1]; omega

/-- Block `t` of the projected features is the same rows of its array. -/
theorem blk4_1 (c : Dev nD) (t : Fin cfg4.N) (y : S5000x2.Idx) (i : S500000x2.Idx)
    (h0 : (i 0).val = t.val * 5000 + (y 0).val) (h1 : (i 1).val = (y 1).val) :
    (iblk4 (F := Ideal) V c 1 t : Vec Ideal S5000x2 .f32) y = (V c main_v75 : S500000x2.Idx → Elt Ideal .f32) i := by
  obtain ⟨e0, e1⟩ := idx4_1 t
  unfold iblk4
  rw [View.read_apply]
  show (V c main_v75 : S500000x2.Idx → Elt Ideal .f32) _ = V c main_v75 i
  refine congrArg (V c main_v75 : S500000x2.Idx → Elt Ideal .f32) (funext fun a => Fin.ext ?_)
  match a with
  | ⟨0, _⟩ => show win4_1.index t (0 : Fin 2) * 5000 + 1 * (y 0).val = (i 0).val; rw [e0, h0]; omega
  | ⟨1, _⟩ => show win4_1.index t (1 : Fin 2) * 2 + 1 * (y 1).val = (i 1).val; rw [e1, h1]; omega

/-- Block `t` of the self-loop column is the same rows of the column. -/
theorem blk4_2 (c : Dev nD) (t : Fin cfg4.N) (y : S5000x1.Idx) (i : S500000x1.Idx)
    (h0 : (i 0).val = t.val * 5000 + (y 0).val) (h1 : (i 1).val = (y 1).val) :
    (iblk4 (F := Ideal) V c 2 t : Vec Ideal S5000x1 .f32) y = (V c main_v27 : S500000x1.Idx → Elt Ideal .f32) i := by
  obtain ⟨e0, e1⟩ := idx4_2 t
  unfold iblk4
  rw [View.read_apply]
  show (V c main_v27 : S500000x1.Idx → Elt Ideal .f32) _ = V c main_v27 i
  refine congrArg (V c main_v27 : S500000x1.Idx → Elt Ideal .f32) (funext fun a => Fin.ext ?_)
  match a with
  | ⟨0, _⟩ => show win4_2.index t (0 : Fin 2) * 5000 + 1 * (y 0).val = (i 0).val; rw [e0, h0]; omega
  | ⟨1, _⟩ => show win4_2.index t (1 : Fin 2) * 1 + 1 * (y 1).val = (i 1).val; rw [e1, h1]; omega

/-- The bias row's block is the bias row at every point. -/
theorem blk4_3 (c : Dev nD) (t : Fin cfg4.N) (y : S1x2.Idx) (i : S1x2.Idx)
    (h0 : (i 0).val = (y 0).val) (h1 : (i 1).val = (y 1).val) :
    (iblk4 (F := Ideal) V c 3 t : Vec Ideal S1x2 .f32) y = (V c main_v31 : S1x2.Idx → Elt Ideal .f32) i := by
  obtain ⟨e0, e1⟩ := idx4_3 t
  unfold iblk4
  rw [View.read_apply]
  show (V c main_v31 : S1x2.Idx → Elt Ideal .f32) _ = V c main_v31 i
  refine congrArg (V c main_v31 : S1x2.Idx → Elt Ideal .f32) (funext fun a => Fin.ext ?_)
  match a with
  | ⟨0, _⟩ => show win4_3.index t (0 : Fin 2) * 1 + 1 * (y 0).val = (i 0).val; rw [e0, h0]; omega
  | ⟨1, _⟩ => show win4_3.index t (1 : Fin 2) * 2 + 1 * (y 1).val = (i 1).val; rw [e1, h1]; omega

/-- The classifier weight's block is the weight at every point. -/
theorem blk4_4 (c : Dev nD) (t : Fin cfg4.N) (y : S112x2.Idx) (i : S112x2.Idx)
    (h0 : (i 0).val = (y 0).val) (h1 : (i 1).val = (y 1).val) :
    (iblk4 (F := Ideal) V c 4 t : Vec Ideal S112x2 .f32) y = (V c main_arg10 : S112x2.Idx → Elt Ideal .f32) i := by
  obtain ⟨e0, e1⟩ := idx4_4 t
  unfold iblk4
  rw [View.read_apply]
  show (V c main_arg10 : S112x2.Idx → Elt Ideal .f32) _ = V c main_arg10 i
  refine congrArg (V c main_arg10 : S112x2.Idx → Elt Ideal .f32) (funext fun a => Fin.ext ?_)
  match a with
  | ⟨0, _⟩ => show win4_4.index t (0 : Fin 2) * 112 + 1 * (y 0).val = (i 0).val; rw [e0, h0]; omega
  | ⟨1, _⟩ => show win4_4.index t (1 : Fin 2) * 2 + 1 * (y 1).val = (i 1).val; rw [e1, h1]; omega

/-- The classifier bias row's block is that row at every point. -/
theorem blk4_5 (c : Dev nD) (t : Fin cfg4.N) (y : S1x112.Idx) (i : S1x112.Idx)
    (h0 : (i 0).val = (y 0).val) (h1 : (i 1).val = (y 1).val) :
    (iblk4 (F := Ideal) V c 5 t : Vec Ideal S1x112 .f32) y = (V c main_v32 : S1x112.Idx → Elt Ideal .f32) i := by
  obtain ⟨e0, e1⟩ := idx4_5 t
  unfold iblk4
  rw [View.read_apply]
  show (V c main_v32 : S1x112.Idx → Elt Ideal .f32) _ = V c main_v32 i
  refine congrArg (V c main_v32 : S1x112.Idx → Elt Ideal .f32) (funext fun a => Fin.ext ?_)
  match a with
  | ⟨0, _⟩ => show win4_5.index t (0 : Fin 2) * 1 + 1 * (y 0).val = (i 0).val; rw [e0, h0]; omega
  | ⟨1, _⟩ => show win4_5.index t (1 : Fin 2) * 112 + 1 * (y 1).val = (i 1).val; rw [e1, h1]; omega

/-- The block's features at `j` are the whole arrays' features at the row `5000 t + j 0`. -/
theorem feat_blk (c : Dev nD) (t : Fin cfg4.N) (j : S5000x2.Idx) (i : S500000x2.Idx)
    (h0 : (i 0).val = t.val * 5000 + (j 0).val) (h1 : (i 1).val = (j 1).val) :
    Cert.Gcn.feat (R := 5000) (D := 2) Ideal.tanh (iblk4 V c 0 t) (iblk4 V c 1 t) (iblk4 V c 2 t) (iblk4 V c 3 t) j
      = Cert.Gcn.feat (R := 500000) (D := 2) Ideal.tanh (V c main_v88) (V c main_v75) (V c main_v27) (V c main_v31) i :=
  feat_at Ideal.tanh (V c main_v88) (V c main_v75) (V c main_v27) (V c main_v31)
    (iblk4 V c 0 t) (iblk4 V c 1 t) (iblk4 V c 2 t) (iblk4 V c 3 t) j i
    (blk4_0 V c t j i h0 h1) (blk4_1 V c t j i h0 h1)
    (blk4_2 V c t (ix2 (j 0) 0) (ix2 (i 0) 0) h0 rfl) (blk4_3 V c t (ix2 0 (j 1)) (ix2 0 (i 1)) rfl h1)

/-- What point `t` writes back to window 6 is block `t` of the features of the whole arrays. -/
theorem flushed4_6 (c : Dev nD) (t : Fin cfg4.N) :
    (dat4 (F := Ideal) V c).flushed 6 t
      = ((cfg4.win 6).blk t).view.read (Elt Ideal)
          (Cert.Gcn.feat (R := 500000) (D := 2) Ideal.tanh (V c main_v88) (V c main_v75) (V c main_v27) (V c main_v31)) := by
  show (cfg4.win 6).cut (grid4.coords t) ((dat4 (F := Ideal) V c).after 6 t) = _
  rw [after4_6]
  unfold out4_6
  rw [View.canon_unit_zero hz]
  simp only [View.ld_unit_zero (S := S5000x2) hz, View.ld_unit_zero (S := S5000x1) hz, View.ld_unit_zero (S := S1x2) hz]
  rw [pay4_1_eq]
  obtain ⟨e0, e1⟩ := idx4_6 t
  funext j
  show Cert.Gcn.feat (R := 5000) (D := 2) Ideal.tanh (iblk4 V c 0 t) (iblk4 V c 1 t) (iblk4 V c 2 t) (iblk4 V c 3 t) j
    = Cert.Gcn.feat (R := 500000) (D := 2) Ideal.tanh (V c main_v88) (V c main_v75) (V c main_v27) (V c main_v31)
        (((cfg4.win 6).blk t).view.emb j)
  exact feat_blk V c t j (((cfg4.win 6).blk t).view.emb j)
    (by show win4_6.index t (0 : Fin 2) * 5000 + 1 * (j 0).val = _; rw [e0]; omega)
    (by show win4_6.index t (1 : Fin 2) * 2 + 1 * (j 1).val = _; rw [e1]; omega)

/-- What point `t` writes back to window 7 is block `t` of the head of the features of the whole arrays. -/
theorem flushed4_7 (c : Dev nD) (t : Fin cfg4.N) :
    (dat4 (F := Ideal) V c).flushed 7 t
      = ((cfg4.win 7).blk t).view.read (Elt Ideal)
          (Cert.Gcn.head (R := 500000) (D := 2) (N := 112)
            (Cert.Gcn.feat (R := 500000) (D := 2) Ideal.tanh (V c main_v88) (V c main_v75) (V c main_v27) (V c main_v31))
            (V c main_arg10) (V c main_v32)) := by
  show (cfg4.win 7).cut (grid4.coords t) ((dat4 (F := Ideal) V c).after 7 t) = _
  rw [after4_7]
  unfold out4_7
  rw [View.canon_unit_zero hz]
  simp only [View.ld_unit_zero (S := S5000x2) hz, View.ld_unit_zero (S := S5000x1) hz, View.ld_unit_zero (S := S1x2) hz,
    View.ld_unit_zero (S := S112x2) hz, View.ld_unit_zero (S := S1x112) hz]
  rw [pay4_2_eq, pay4_1_eq]
  obtain ⟨e0, e1⟩ := idx4_7 t
  funext j
  show Cert.Gcn.head (R := 5000) (D := 2) (N := 112)
      (Cert.Gcn.feat (R := 5000) (D := 2) Ideal.tanh (iblk4 V c 0 t) (iblk4 V c 1 t) (iblk4 V c 2 t) (iblk4 V c 3 t))
      (iblk4 V c 4 t) (iblk4 V c 5 t) j
    = Cert.Gcn.head (R := 500000) (D := 2) (N := 112)
        (Cert.Gcn.feat (R := 500000) (D := 2) Ideal.tanh (V c main_v88) (V c main_v75) (V c main_v27) (V c main_v31))
        (V c main_arg10) (V c main_v32) (((cfg4.win 7).blk t).view.emb j)
  have h0 : ((((cfg4.win 7).blk t).view.emb j) 0).val = t.val * 5000 + (j 0).val := by
    show win4_7.index t (0 : Fin 2) * 5000 + 1 * (j 0).val = _; rw [e0]; omega
  have h1 : ((((cfg4.win 7).blk t).view.emb j) 1).val = (j 1).val := by
    show win4_7.index t (1 : Fin 2) * 112 + 1 * (j 1).val = _; rw [e1]; omega
  exact head_at (R := 500000) (R' := 5000) (D := 2) (N := 112)
    (Cert.Gcn.feat (R := 500000) (D := 2) Ideal.tanh (V c main_v88) (V c main_v75) (V c main_v27) (V c main_v31))
    (Cert.Gcn.feat (R := 5000) (D := 2) Ideal.tanh (iblk4 V c 0 t) (iblk4 V c 1 t) (iblk4 V c 2 t) (iblk4 V c 3 t))
    (V c main_arg10) (iblk4 V c 4 t) (V c main_v32) (iblk4 V c 5 t) j (((cfg4.win 7).blk t).view.emb j)
    (fun k => feat_blk V c t (ix2 (j 0) k) (ix2 ((((cfg4.win 7).blk t).view.emb j) 0) k) h0 rfl)
    (fun k => blk4_4 V c t (ix2 (j 1) k) (ix2 ((((cfg4.win 7).blk t).view.emb j) 1) k) h1 rfl)
    (blk4_5 V c t (ix2 0 (j 1)) (ix2 0 ((((cfg4.win 7).blk t).view.emb j) 1)) rfl h1)

/-- An index of window 6's array is in point `t`'s block iff each coordinate is in the block's range on its axis. -/
theorem mem_blk4_6 (t : Fin cfg4.N) (i : S500000x2.Idx) :
    i ∈ ((cfg4.win 6).blk t).view.set ↔ ∀ a : Fin 2, win4_6.index t a * S5000x2.size a ≤ (i a).val
      ∧ (i a).val < win4_6.index t a * S5000x2.size a + S5000x2.size a := by
  show i ∈ ((View.whole main_v89_0).slice (win4_6.rect t)).set ↔ _
  rw [View.set_slice_whole, Rect.mem_set_unit]
  exact Iff.rfl

/-- Row `r` of window 6's array is in the block of point `r / 5000`. -/
theorem rows_cover4_6 (i : S500000x2.Idx) :
    ∃ t : Fin cfg4.N, (cfg4.win 6).flush t = true ∧ i ∈ ((cfg4.win 6).blk t).view.set := by
  have hi0 : (i 0).val < 500000 := (i 0).isLt
  have hi1 : (i 1).val < 2 := (i 1).isLt
  obtain ⟨t, ht⟩ : ∃ t : Fin cfg4.N, t.val = (i 0).val / 5000 :=
    ⟨⟨(i 0).val / 5000, by rw [show cfg4.N = 100 from N_4]; omega⟩, rfl⟩
  obtain ⟨e0, e1⟩ := idx4_6 t
  refine ⟨t, flush4_6 t, ?_⟩
  rw [mem_blk4_6]
  intro a
  match a with
  | ⟨0, _⟩ =>
    show win4_6.index t (0 : Fin 2) * 5000 ≤ (i 0).val ∧ (i 0).val < win4_6.index t (0 : Fin 2) * 5000 + 5000
    rw [e0]; omega
  | ⟨1, _⟩ =>
    show win4_6.index t (1 : Fin 2) * 2 ≤ (i 1).val ∧ (i 1).val < win4_6.index t (1 : Fin 2) * 2 + 2
    rw [e1]; omega

/-- An index of window 7's array is in point `t`'s block iff each coordinate is in the block's range on its axis. -/
theorem mem_blk4_7 (t : Fin cfg4.N) (i : S500000x112.Idx) :
    i ∈ ((cfg4.win 7).blk t).view.set ↔ ∀ a : Fin 2, win4_7.index t a * S5000x112.size a ≤ (i a).val
      ∧ (i a).val < win4_7.index t a * S5000x112.size a + S5000x112.size a := by
  show i ∈ ((View.whole main_v89_1).slice (win4_7.rect t)).set ↔ _
  rw [View.set_slice_whole, Rect.mem_set_unit]
  exact Iff.rfl

/-- Row `r` of window 7's array is in the block of point `r / 5000`. -/
theorem rows_cover4_7 (i : S500000x112.Idx) :
    ∃ t : Fin cfg4.N, (cfg4.win 7).flush t = true ∧ i ∈ ((cfg4.win 7).blk t).view.set := by
  have hi0 : (i 0).val < 500000 := (i 0).isLt
  have hi1 : (i 1).val < 112 := (i 1).isLt
  obtain ⟨t, ht⟩ : ∃ t : Fin cfg4.N, t.val = (i 0).val / 5000 :=
    ⟨⟨(i 0).val / 5000, by rw [show cfg4.N = 100 from N_4]; omega⟩, rfl⟩
  obtain ⟨e0, e1⟩ := idx4_7 t
  refine ⟨t, flush4_7 t, ?_⟩
  rw [mem_blk4_7]
  intro a
  match a with
  | ⟨0, _⟩ =>
    show win4_7.index t (0 : Fin 2) * 5000 ≤ (i 0).val ∧ (i 0).val < win4_7.index t (0 : Fin 2) * 5000 + 5000
    rw [e0]; omega
  | ⟨1, _⟩ =>
    show win4_7.index t (1 : Fin 2) * 112 ≤ (i 1).val ∧ (i 1).val < win4_7.index t (1 : Fin 2) * 112 + 112
    rw [e1]; omega

/-- Region 4, window 6: the last layer's features. -/
theorem reg4_val6 (c : Dev nD) :
    (dat4 (F := Ideal) V c).arrAt 6 cfg4.N
      = Cert.Gcn.feat (R := 500000) (D := 2) Ideal.tanh (V c main_v88) (V c main_v75) (V c main_v27) (V c main_v31) :=
  (dat4 (F := Ideal) V c).arrAt_eq_of_cover 6 _ (fun t _ => flushed4_6 V c t) rows_cover4_6

/-- Region 4, window 7: the classifier head of the last layer's features. -/
theorem reg4_val7 (c : Dev nD) :
    (dat4 (F := Ideal) V c).arrAt 7 cfg4.N
      = Cert.Gcn.head (R := 500000) (D := 2) (N := 112)
          (Cert.Gcn.feat (R := 500000) (D := 2) Ideal.tanh (V c main_v88) (V c main_v75) (V c main_v27) (V c main_v31)) (V c main_arg10) (V c main_v32) :=
  (dat4 (F := Ideal) V c).arrAt_eq_of_cover 7 _ (fun t _ => flushed4_7 V c t) rows_cover4_7

end Cert.KernelIdeal.RegValB

end
-- ==== Proof.RefVal.lean ====
/-
  The reference's dense stages as the layer functions: a host contraction against a transposed weight matrix is the
  product with the weight's rows, and its broadcasts of the self-loop column and of the bias row read at an index are
  the layer's terms.
-/
import proofs.«160437_j481036337415_2_alg».proof.Proof.Gen.ReferenceIdeal.Read
import proofs.«160437_j481036337415_2_alg».proof.Proof.Spec
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe Idealize.ShloMosaic.ValueIdx

variable (a0 : (⟨S500000x8, .f32⟩ : BufTy).Contents (Elt Ideal)) (a1 : (⟨S2x16000000, .i32⟩ : BufTy).Contents (Elt Ideal)) (a2 : (⟨S4x8, .f32⟩ : BufTy).Contents (Elt Ideal)) (a3 : (⟨S4, .f32⟩ : BufTy).Contents (Elt Ideal)) (a4 : (⟨S4x4, .f32⟩ : BufTy).Contents (Elt Ideal)) (a5 : (⟨S4, .f32⟩ : BufTy).Contents (Elt Ideal)) (a6 : (⟨S2x4, .f32⟩ : BufTy).Contents (Elt Ideal)) (a7 : (⟨S2, .f32⟩ : BufTy).Contents (Elt Ideal)) (a8 : (⟨S2x2, .f32⟩ : BufTy).Contents (Elt Ideal)) (a9 : (⟨S2, .f32⟩ : BufTy).Contents (Elt Ideal)) (a10 : (⟨S112x2, .f32⟩ : BufTy).Contents (Elt Ideal)) (a11 : (⟨S112, .f32⟩ : BufTy).Contents (Elt Ideal))

/-- A layer before its activation, written with the float operations read on the extended reals. -/
theorem pre_eq {R D : Nat} (agg hw : Cert.Gcn.Mat R D) (sn : Cert.Gcn.Mat R 1) (b : Cert.Gcn.Mat 1 D) (j : (⟨2, ![R, D]⟩ : Shape).Idx) :
    FloatOps.addf (F := Ideal) (φ := .f32) (FloatOps.addf (F := Ideal) (φ := .f32) (agg j) (FloatOps.mulf (F := Ideal) (φ := .f32) (sn (ix2 (j 0) 0)) (hw j))) (b (ix2 0 (j 1)))
      = Cert.Gcn.pre agg hw sn b j := rfl

/-- The hyperbolic tangent of a layer's pre-activation is the layer's output features. -/
theorem feat_tanh_eq {R D : Nat} (agg hw : Cert.Gcn.Mat R D) (sn : Cert.Gcn.Mat R 1) (b : Cert.Gcn.Mat 1 D) (j : (⟨2, ![R, D]⟩ : Shape).Idx) :
    FloatOps.hostUnary (F := Ideal) .tanh (φ := .f32) (FloatOps.addf (F := Ideal) (φ := .f32) (FloatOps.addf (F := Ideal) (φ := .f32) (agg j) (FloatOps.mulf (F := Ideal) (φ := .f32) (sn (ix2 (j 0) 0)) (hw j))) (b (ix2 0 (j 1))))
      = Cert.Gcn.feat Ideal.tanh agg hw sn b j :=
  congrArg Ideal.tanh (pre_eq agg hw sn b j)

/-- The first projection: contracting the features with the transposed weight sums over `k` the products of
    row `r` of the features with row `c` of the weight. -/
theorem ref_hw1 : val_main_v28 (F := Ideal) a0 a2 = Cert.Gcn.lin (R := 500000) (K := 8) (N := 4) a0 a2 := by
  funext i
  rw [val_main_v28_apply]
  unfold Cert.Gcn.lin
  refine Finset.sum_congr rfl fun k _ => ?_
  have el : lidx_main_v28 i k = ix2 (n0 := 500000) (n1 := 8) (i 0) k := funext fun a => Fin.ext (by match a with | ⟨0, _⟩ => rfl | ⟨1, _⟩ => rfl)
  have er : idx_main_v27 (ridx_main_v28 i k) = ix2 (n0 := 4) (n1 := 8) (i 1) k := funext fun a => Fin.ext (by match a with | ⟨0, _⟩ => rfl | ⟨1, _⟩ => rfl)
  rw [val_main_v27_apply, el, er]

/-- The rectifier of the aggregate plus the scaled own projection plus the bias row, read at an index: the two
    broadcasts read the self-loop column at the index's row and the bias row at the index's column, and the called
    function's second operand is the broadcast zero word. -/
theorem feat1 (j : S500000x4.Idx) :
    val_main_v49 (F := Ideal) a0 a1 a2 a3 j
      = Cert.Gcn.feat (R := 500000) (D := 4) Cert.Gcn.relu (val_main_v41 (F := Ideal) a0 a1 a2) (val_main_v28 (F := Ideal) a0 a2)
          (val_main_v42 (F := Ideal) a1) (val_main_v46 (F := Ideal) a3) j := by
  have e1 : idx_main_v43 j = ix2 (n0 := 500000) (n1 := 1) (j 0) 0 := funext fun a => Fin.ext (by match a with | ⟨0, _⟩ => rfl | ⟨1, _⟩ => rfl)
  have e2 : idx_main_v47 j = ix2 (n0 := 1) (n1 := 4) 0 (j 1) := funext fun a => Fin.ext (by match a with | ⟨0, _⟩ => rfl | ⟨1, _⟩ => rfl)
  rw [val_main_v49_apply, val_main_v48_apply, val_main_v45_apply, val_main_v44_apply, val_main_v43_apply, val_main_v47_apply, val_main_call0_v0_apply, val_main_call0_cst_apply, e1, e2]
  rfl

/-- The first layer followed by the second projection: each term of the contraction is the layer's output feature
    times an entry of the weight's row. -/
theorem ref_hw2 : val_main_v51 (F := Ideal) a0 a1 a2 a3 a4
    = Cert.Gcn.layer (R := 500000) (D := 4) (N := 4) Cert.Gcn.relu (val_main_v41 (F := Ideal) a0 a1 a2) (val_main_v28 (F := Ideal) a0 a2)
        (val_main_v42 (F := Ideal) a1) (val_main_v46 (F := Ideal) a3) a4 := by
  funext i
  rw [val_main_v51_apply]
  unfold Cert.Gcn.layer Cert.Gcn.lin
  refine Finset.sum_congr rfl fun k _ => ?_
  have el : lidx_main_v51 i k = ix2 (n0 := 500000) (n1 := 4) (i 0) k := funext fun a => Fin.ext (by match a with | ⟨0, _⟩ => rfl | ⟨1, _⟩ => rfl)
  have er : idx_main_v50 (ridx_main_v51 i k) = ix2 (n0 := 4) (n1 := 4) (i 1) k := funext fun a => Fin.ext (by match a with | ⟨0, _⟩ => rfl | ⟨1, _⟩ => rfl)
  rw [val_main_v50_apply, feat1, el, er]

/-- The hyperbolic tangent of the aggregate plus the scaled own projection plus the bias row, read at an index: the
    two broadcasts read the self-loop column at the index's row and the bias row at the index's column. -/
theorem feat2 (j : S500000x4.Idx) :
    val_main_v72 (F := Ideal) a0 a1 a2 a3 a4 a5 j
      = Cert.Gcn.feat (R := 500000) (D := 4) Ideal.tanh (val_main_v64 (F := Ideal) a0 a1 a2 a3 a4) (val_main_v51 (F := Ideal) a0 a1 a2 a3 a4)
          (val_main_v65 (F := Ideal) a1) (val_main_v69 (F := Ideal) a5) j := by
  have e1 : idx_main_v66 j = ix2 (n0 := 500000) (n1 := 1) (j 0) 0 := funext fun a => Fin.ext (by match a with | ⟨0, _⟩ => rfl | ⟨1, _⟩ => rfl)
  have e2 : idx_main_v70 j = ix2 (n0 := 1) (n1 := 4) 0 (j 1) := funext fun a => Fin.ext (by match a with | ⟨0, _⟩ => rfl | ⟨1, _⟩ => rfl)
  rw [val_main_v72_apply, val_main_v71_apply, val_main_v68_apply, val_main_v67_apply, val_main_v66_apply, val_main_v70_apply, e1, e2]
  exact feat_tanh_eq (R := 500000) (D := 4) (val_main_v64 (F := Ideal) a0 a1 a2 a3 a4) (val_main_v51 (F := Ideal) a0 a1 a2 a3 a4)
    (val_main_v65 (F := Ideal) a1) (val_main_v69 (F := Ideal) a5) j

/-- The second layer followed by the third projection. -/
theorem ref_hw3 : val_main_v74 (F := Ideal) a0 a1 a2 a3 a4 a5 a6
    = Cert.Gcn.layer (R := 500000) (D := 4) (N := 2) Ideal.tanh (val_main_v64 (F := Ideal) a0 a1 a2 a3 a4) (val_main_v51 (F := Ideal) a0 a1 a2 a3 a4)
        (val_main_v65 (F := Ideal) a1) (val_main_v69 (F := Ideal) a5) a6 := by
  funext i
  rw [val_main_v74_apply]
  unfold Cert.Gcn.layer Cert.Gcn.lin
  refine Finset.sum_congr rfl fun k _ => ?_
  have el : lidx_main_v74 i k = ix2 (n0 := 500000) (n1 := 4) (i 0) k := funext fun a => Fin.ext (by match a with | ⟨0, _⟩ => rfl | ⟨1, _⟩ => rfl)
  have er : idx_main_v73 (ridx_main_v74 i k) = ix2 (n0 := 2) (n1 := 4) (i 1) k := funext fun a => Fin.ext (by match a with | ⟨0, _⟩ => rfl | ⟨1, _⟩ => rfl)
  rw [val_main_v73_apply, feat2, el, er]

/-- The rectifier of the aggregate plus the scaled own projection plus the bias row, read at an index: the two
    broadcasts read the self-loop column at the index's row and the bias row at the index's column, and the called
    function's second operand is the broadcast zero word. -/
theorem feat3 (j : S500000x2.Idx) :
    val_main_v95 (F := Ideal) a0 a1 a2 a3 a4 a5 a6 a7 j
      = Cert.Gcn.feat (R := 500000) (D := 2) Cert.Gcn.relu (val_main_v87 (F := Ideal) a0 a1 a2 a3 a4 a5 a6) (val_main_v74 (F := Ideal) a0 a1 a2 a3 a4 a5 a6)
          (val_main_v88 (F := Ideal) a1) (val_main_v92 (F := Ideal) a7) j := by
  have e1 : idx_main_v89 j = ix2 (n0 := 500000) (n1 := 1) (j 0) 0 := funext fun a => Fin.ext (by match a with | ⟨0, _⟩ => rfl | ⟨1, _⟩ => rfl)
  have e2 : idx_main_v93 j = ix2 (n0 := 1) (n1 := 2) 0 (j 1) := funext fun a => Fin.ext (by match a with | ⟨0, _⟩ => rfl | ⟨1, _⟩ => rfl)
  rw [val_main_v95_apply, val_main_v94_apply, val_main_v91_apply, val_main_v90_apply, val_main_v89_apply, val_main_v93_apply, val_main_call1_v0_apply, val_main_call1_cst_apply, e1, e2]
  rfl

/-- The third layer followed by the fourth projection. -/
theorem ref_hw4 : val_main_v97 (F := Ideal) a0 a1 a2 a3 a4 a5 a6 a7 a8
    = Cert.Gcn.layer (R := 500000) (D := 2) (N := 2) Cert.Gcn.relu (val_main_v87 (F := Ideal) a0 a1 a2 a3 a4 a5 a6) (val_main_v74 (F := Ideal) a0 a1 a2 a3 a4 a5 a6)
        (val_main_v88 (F := Ideal) a1) (val_main_v92 (F := Ideal) a7) a8 := by
  funext i
  rw [val_main_v97_apply]
  unfold Cert.Gcn.layer Cert.Gcn.lin
  refine Finset.sum_congr rfl fun k _ => ?_
  have el : lidx_main_v97 i k = ix2 (n0 := 500000) (n1 := 2) (i 0) k := funext fun a => Fin.ext (by match a with | ⟨0, _⟩ => rfl | ⟨1, _⟩ => rfl)
  have er : idx_main_v96 (ridx_main_v97 i k) = ix2 (n0 := 2) (n1 := 2) (i 1) k := funext fun a => Fin.ext (by match a with | ⟨0, _⟩ => rfl | ⟨1, _⟩ => rfl)
  rw [val_main_v96_apply, feat3, el, er]

/-- The hyperbolic tangent of the aggregate plus the scaled own projection plus the bias row, read at an index: the
    two broadcasts read the self-loop column at the index's row and the bias row at the index's column. -/
theorem feat4 (j : S500000x2.Idx) :
    val_main_v118 (F := Ideal) a0 a1 a2 a3 a4 a5 a6 a7 a8 a9 j
      = Cert.Gcn.feat (R := 500000) (D := 2) Ideal.tanh (val_main_v110 (F := Ideal) a0 a1 a2 a3 a4 a5 a6 a7 a8) (val_main_v97 (F := Ideal) a0 a1 a2 a3 a4 a5 a6 a7 a8)
          (val_main_v111 (F := Ideal) a1) (val_main_v115 (F := Ideal) a9) j := by
  have e1 : idx_main_v112 j = ix2 (n0 := 500000) (n1 := 1) (j 0) 0 := funext fun a => Fin.ext (by match a with | ⟨0, _⟩ => rfl | ⟨1, _⟩ => rfl)
  have e2 : idx_main_v116 j = ix2 (n0 := 1) (n1 := 2) 0 (j 1) := funext fun a => Fin.ext (by match a with | ⟨0, _⟩ => rfl | ⟨1, _⟩ => rfl)
  rw [val_main_v118_apply, val_main_v117_apply, val_main_v114_apply, val_main_v113_apply, val_main_v112_apply, val_main_v116_apply, e1, e2]
  exact feat_tanh_eq (R := 500000) (D := 2) (val_main_v110 (F := Ideal) a0 a1 a2 a3 a4 a5 a6 a7 a8) (val_main_v97 (F := Ideal) a0 a1 a2 a3 a4 a5 a6 a7 a8)
    (val_main_v111 (F := Ideal) a1) (val_main_v115 (F := Ideal) a9) j

/-- The fourth layer's output features. -/
theorem ref_h4 : val_main_v118 (F := Ideal) a0 a1 a2 a3 a4 a5 a6 a7 a8 a9
    = Cert.Gcn.feat (R := 500000) (D := 2) Ideal.tanh (val_main_v110 (F := Ideal) a0 a1 a2 a3 a4 a5 a6 a7 a8) (val_main_v97 (F := Ideal) a0 a1 a2 a3 a4 a5 a6 a7 a8)
        (val_main_v111 (F := Ideal) a1) (val_main_v115 (F := Ideal) a9) :=
  funext fun j => feat4 a0 a1 a2 a3 a4 a5 a6 a7 a8 a9 j

/-- The classifier head: the contraction with the transposed weight plus the broadcast bias row. -/
theorem ref_out : val_main_v123 (F := Ideal) a0 a1 a2 a3 a4 a5 a6 a7 a8 a9 a10 a11
    = Cert.Gcn.head (R := 500000) (D := 2) (N := 112) (val_main_v118 (F := Ideal) a0 a1 a2 a3 a4 a5 a6 a7 a8 a9) a10 (val_main_v121 (F := Ideal) a11) := by
  funext i
  have e2 : idx_main_v122 i = ix2 (n0 := 1) (n1 := 112) 0 (i 1) := funext fun a => Fin.ext (by match a with | ⟨0, _⟩ => rfl | ⟨1, _⟩ => rfl)
  rw [val_main_v123_apply, val_main_v120_apply, val_main_v122_apply, e2]
  unfold Cert.Gcn.head Cert.Gcn.lin
  refine congrArg (fun t : EReal => t + val_main_v121 (F := Ideal) a11 (ix2 (n0 := 1) (n1 := 112) 0 (i 1))) ?_
  refine Finset.sum_congr rfl fun k _ => ?_
  have el : lidx_main_v120 i k = ix2 (n0 := 500000) (n1 := 2) (i 0) k := funext fun a => Fin.ext (by match a with | ⟨0, _⟩ => rfl | ⟨1, _⟩ => rfl)
  have er : idx_main_v119 (ridx_main_v120 i k) = ix2 (n0 := 112) (n1 := 2) (i 1) k := funext fun a => Fin.ext (by match a with | ⟨0, _⟩ => rfl | ⟨1, _⟩ => rfl)
  rw [val_main_v119_apply, el, er]

end Cert.ReferenceIdeal.RefVal

end
-- ==== Proof.KHost.lean ====
/-
  The host lines of the kernel's program between its regions, against the reference's stages.

  Both programs compute the edge normalisation, the self-loop column and every aggregation (a gather of source rows
  scaled by the edge weight, scatter-added at the destination rows) by the same operations in the same order, so each
  such stretch of the kernel's lines, run from contents that agree with the reference's stages on what it reads, leaves
  the reference's next stage. A bias enters the kernel as a reshaped row and the reference as a broadcast row: the same
  row, entry by entry.
-/
import proofs.«160437_j481036337415_2_alg».proof.Proof.Gen.KernelIdeal.Launch
import proofs.«160437_j481036337415_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## A reshaped row is a broadcast row -/

/-- A vector of length `D` reshaped to a `1 × D` row is the vector broadcast along a new leading unit axis: both read
    the vector at the column coordinate. -/
theorem reshape_row_eq_bcast {α : Type} (D : Nat) (x : (⟨1, ![D]⟩ : Shape).Idx → α)
    (hc : (⟨1, ![D]⟩ : Shape).ShapeCasts ⟨2, ![1, D]⟩)
    (hb : (⟨1, ![D]⟩ : Shape).BroadcastsInDim ⟨2, ![1, D]⟩ (![1] : Fin 1 → Fin 2)) :
    shapeCast ⟨2, ![1, D]⟩ x hc = broadcastInDim ⟨2, ![1, D]⟩ ![1] hb x := by
  funext j
  let k : (⟨1, ![D]⟩ : Shape).Idx := fun a => match a with | ⟨0, _⟩ => ⟨(j 1).val, (j 1).isLt⟩
  have h0 : (j 0).val = 0 := by have h : (j 0).val < 1 := (j 0).isLt; omega
  have h1 : (j 1).val < D := (j 1).isLt
  rw [shapeCast_apply x hc j k (by
    rw [Shape.rowMajor_val_one, Shape.rowMajor_val_two]
    show (j 1).val = (j 0).val * D + (j 1).val
    rw [h0, Nat.zero_mul, Nat.zero_add])]
  exact (broadcastInDim_apply ![1] hb x j k (fun a => match a with
    | ⟨0, _⟩ => by
      show (j 1).val = if D = 1 then 0 else (j 1).val
      split <;> omega)).symm

/-! ## The lines before the first region -/

theorem pre_v1 : StableHlo.after (hostOps0 (F := F)) W (Proc.devRef .tc main_v1) = Cert.ReferenceIdeal.Read.val_main_v1 (F := F) (W (Proc.devRef .tc main_arg1)) := by
  after_results_simp
  rfl
theorem pre_v3 : StableHlo.after (hostOps0 (F := F)) W (Proc.devRef .tc main_v3) = Cert.ReferenceIdeal.Read.val_main_v3 (F := F) (W (Proc.devRef .tc main_arg1)) := by
  after_results_simp
  rfl
theorem pre_v25 : StableHlo.after (hostOps0 (F := F)) W (Proc.devRef .tc main_v25) = Cert.ReferenceIdeal.Read.val_main_v25 (F := F) (W (Proc.devRef .tc main_arg1)) := by
  after_results_simp
  rfl
theorem pre_v27 : StableHlo.after (hostOps0 (F := F)) W (Proc.devRef .tc main_v27) = Cert.ReferenceIdeal.Read.val_main_v42 (F := F) (W (Proc.devRef .tc main_arg1)) := by
  after_results_simp
  rfl
theorem pre_v28 : StableHlo.after (hostOps0 (F := F)) W (Proc.devRef .tc main_v28) = Cert.ReferenceIdeal.Read.val_main_v46 (F := F) (W (Proc.devRef .tc main_arg3)) := by
  after_results_simp
  exact reshape_row_eq_bcast 4 _ _ _
theorem pre_v29 : StableHlo.after (hostOps0 (F := F)) W (Proc.devRef .tc main_v29) = Cert.ReferenceIdeal.Read.val_main_v69 (F := F) (W (Proc.devRef .tc main_arg5)) := by
  after_results_simp
  exact reshape_row_eq_bcast 4 _ _ _
theorem pre_v30 : StableHlo.after (hostOps0 (F := F)) W (Proc.devRef .tc main_v30) = Cert.ReferenceIdeal.Read.val_main_v92 (F := F) (W (Proc.devRef .tc main_arg7)) := by
  after_results_simp
  exact reshape_row_eq_bcast 2 _ _ _
theorem pre_v31 : StableHlo.after (hostOps0 (F := F)) W (Proc.devRef .tc main_v31) = Cert.ReferenceIdeal.Read.val_main_v115 (F := F) (W (Proc.devRef .tc main_arg9)) := by
  after_results_simp
  exact reshape_row_eq_bcast 2 _ _ _
theorem pre_v32 : StableHlo.after (hostOps0 (F := F)) W (Proc.devRef .tc main_v32) = Cert.ReferenceIdeal.Read.val_main_v121 (F := F) (W (Proc.devRef .tc main_arg11)) := by
  after_results_simp
  exact reshape_row_eq_bcast 112 _ _ _

/-- The reference rebuilds the self-loop column in every layer: one value. -/
theorem sn65 (x1 : (⟨Cert.ReferenceIdeal.S2x16000000, .i32⟩ : BufTy).Contents (Elt F)) : Cert.ReferenceIdeal.Read.val_main_v65 (F := F) x1 = Cert.ReferenceIdeal.Read.val_main_v42 (F := F) x1 := by
  rfl
theorem sn88 (x1 : (⟨Cert.ReferenceIdeal.S2x16000000, .i32⟩ : BufTy).Contents (Elt F)) : Cert.ReferenceIdeal.Read.val_main_v88 (F := F) x1 = Cert.ReferenceIdeal.Read.val_main_v42 (F := F) x1 := by
  rfl
theorem sn111 (x1 : (⟨Cert.ReferenceIdeal.S2x16000000, .i32⟩ : BufTy).Contents (Elt F)) : Cert.ReferenceIdeal.Read.val_main_v111 (F := F) x1 = Cert.ReferenceIdeal.Read.val_main_v42 (F := F) x1 := by
  rfl

/-! ## The aggregations between the regions -/

variable (a0 : (⟨Cert.ReferenceIdeal.S500000x8, .f32⟩ : BufTy).Contents (Elt F)) (a1 : (⟨Cert.ReferenceIdeal.S2x16000000, .i32⟩ : BufTy).Contents (Elt F)) (a2 : (⟨Cert.ReferenceIdeal.S4x8, .f32⟩ : BufTy).Contents (Elt F)) (a3 : (⟨Cert.ReferenceIdeal.S4, .f32⟩ : BufTy).Contents (Elt F)) (a4 : (⟨Cert.ReferenceIdeal.S4x4, .f32⟩ : BufTy).Contents (Elt F)) (a5 : (⟨Cert.ReferenceIdeal.S4, .f32⟩ : BufTy).Contents (Elt F)) (a6 : (⟨Cert.ReferenceIdeal.S2x4, .f32⟩ : BufTy).Contents (Elt F)) (a7 : (⟨Cert.ReferenceIdeal.S2, .f32⟩ : BufTy).Contents (Elt F)) (a8 : (⟨Cert.ReferenceIdeal.S2x2, .f32⟩ : BufTy).Contents (Elt F)) (a9 : (⟨Cert.ReferenceIdeal.S2, .f32⟩ : BufTy).Contents (Elt F)) (a10 : (⟨Cert.ReferenceIdeal.S112x2, .f32⟩ : BufTy).Contents (Elt F)) (a11 : (⟨Cert.ReferenceIdeal.S112, .f32⟩ : BufTy).Contents (Elt F))

theorem agg1
    (h25 : W (Proc.devRef .tc main_v25) = Cert.ReferenceIdeal.Read.val_main_v25 (F := F) a1) (h1 : W (Proc.devRef .tc main_v1) = Cert.ReferenceIdeal.Read.val_main_v1 (F := F) a1)
    (h3 : W (Proc.devRef .tc main_v3) = Cert.ReferenceIdeal.Read.val_main_v3 (F := F) a1) (hhw : W (Proc.devRef .tc main_v33) = Cert.ReferenceIdeal.Read.val_main_v28 (F := F) a0 a2) :
    StableHlo.after (hostOps1 (F := F)) W (Proc.devRef .tc main_v46) = Cert.ReferenceIdeal.Read.val_main_v41 (F := F) a0 a1 a2 := by
  after_results_simp
  rw [h25, h1, h3, hhw]
  unfold Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_c_5 Cert.ReferenceIdeal.Read.val_main_c_6 Cert.ReferenceIdeal.Read.val_main_cst_7
  rfl

theorem agg2
    (h25 : W (Proc.devRef .tc main_v25) = Cert.ReferenceIdeal.Read.val_main_v25 (F := F) a1) (h1 : W (Proc.devRef .tc main_v1) = Cert.ReferenceIdeal.Read.val_main_v1 (F := F) a1)
    (h3 : W (Proc.devRef .tc main_v3) = Cert.ReferenceIdeal.Read.val_main_v3 (F := F) a1) (hhw : W (Proc.devRef .tc main_v47) = Cert.ReferenceIdeal.Read.val_main_v51 (F := F) a0 a1 a2 a3 a4) :
    StableHlo.after (hostOps2 (F := F)) W (Proc.devRef .tc main_v60) = Cert.ReferenceIdeal.Read.val_main_v64 (F := F) a0 a1 a2 a3 a4 := by
  after_results_simp
  rw [h25, h1, h3, hhw]
  unfold Cert.ReferenceIdeal.Read.val_main_v64 Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_c_8 Cert.ReferenceIdeal.Read.val_main_c_9 Cert.ReferenceIdeal.Read.val_main_cst_10
  rfl

theorem agg3
    (h25 : W (Proc.devRef .tc main_v25) = Cert.ReferenceIdeal.Read.val_main_v25 (F := F) a1) (h1 : W (Proc.devRef .tc main_v1) = Cert.ReferenceIdeal.Read.val_main_v1 (F := F) a1)
    (h3 : W (Proc.devRef .tc main_v3) = Cert.ReferenceIdeal.Read.val_main_v3 (F := F) a1) (hhw : W (Proc.devRef .tc main_v61) = Cert.ReferenceIdeal.Read.val_main_v74 (F := F) a0 a1 a2 a3 a4 a5 a6) :
    StableHlo.after (hostOps3 (F := F)) W (Proc.devRef .tc main_v74) = Cert.ReferenceIdeal.Read.val_main_v87 (F := F) a0 a1 a2 a3 a4 a5 a6 := by
  after_results_simp
  rw [h25, h1, h3, hhw]
  unfold Cert.ReferenceIdeal.Read.val_main_v87 Cert.ReferenceIdeal.Read.val_main_v86 Cert.ReferenceIdeal.Read.val_main_v85 Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_c_11 Cert.ReferenceIdeal.Read.val_main_c_12 Cert.ReferenceIdeal.Read.val_main_cst_13
  rfl

theorem agg4
    (h25 : W (Proc.devRef .tc main_v25) = Cert.ReferenceIdeal.Read.val_main_v25 (F := F) a1) (h1 : W (Proc.devRef .tc main_v1) = Cert.ReferenceIdeal.Read.val_main_v1 (F := F) a1)
    (h3 : W (Proc.devRef .tc main_v3) = Cert.ReferenceIdeal.Read.val_main_v3 (F := F) a1) (hhw : W (Proc.devRef .tc main_v75) = Cert.ReferenceIdeal.Read.val_main_v97 (F := F) a0 a1 a2 a3 a4 a5 a6 a7 a8) :
    StableHlo.after (hostOps4 (F := F)) W (Proc.devRef .tc main_v88) = Cert.ReferenceIdeal.Read.val_main_v110 (F := F) a0 a1 a2 a3 a4 a5 a6 a7 a8 := by
  after_results_simp
  rw [h25, h1, h3, hhw]
  unfold Cert.ReferenceIdeal.Read.val_main_v110 Cert.ReferenceIdeal.Read.val_main_v109 Cert.ReferenceIdeal.Read.val_main_v108 Cert.ReferenceIdeal.Read.val_main_v107 Cert.ReferenceIdeal.Read.val_main_v106 Cert.ReferenceIdeal.Read.val_main_v105 Cert.ReferenceIdeal.Read.val_main_v104 Cert.ReferenceIdeal.Read.val_main_v103 Cert.ReferenceIdeal.Read.val_main_v102 Cert.ReferenceIdeal.Read.val_main_v101 Cert.ReferenceIdeal.Read.val_main_v100 Cert.ReferenceIdeal.Read.val_main_v99 Cert.ReferenceIdeal.Read.val_main_v98 Cert.ReferenceIdeal.Read.val_main_c_14 Cert.ReferenceIdeal.Read.val_main_c_15 Cert.ReferenceIdeal.Read.val_main_cst_16
  rfl

end Cert.KernelIdeal.KHost

end
-- ==== Proof.KFold.lean ====
/-
  The kernel program's two results as the reference's stages of the arguments.

  The contents of the TensorCore's buffers at the ten boundaries of the program are read forward. The lines before the
  first region leave the edge weights, the two index vectors, the self-loop column and the bias rows, which nothing
  later writes: each is found again, unchanged, at every later boundary. Then, layer by layer: a region leaves the
  layer's projected features as one function of the arrays it found (the row-local layer function), which is the
  reference's projection stage of the same arguments; the lines after it leave the aggregate of those features, which
  is the reference's aggregate stage because the operations are the same. After the last region the two result arrays
  hold the reference's last two stages.
-/
import proofs.«160437_j481036337415_2_alg».proof.Proof.Gen.KernelIdeal.Frame
import proofs.«160437_j481036337415_2_alg».proof.Proof.Gen.ReferenceIdeal.Read
import proofs.«160437_j481036337415_2_alg».proof.Proof.Spec
import proofs.«160437_j481036337415_2_alg».proof.Proof.RegValA
import proofs.«160437_j481036337415_2_alg».proof.Proof.RegValB
import proofs.«160437_j481036337415_2_alg».proof.Proof.RefVal
import proofs.«160437_j481036337415_2_alg».proof.Proof.KHost

set_option maxRecDepth 16384

noncomputable section

namespace Cert.KernelIdeal.KFold

open Cert.KernelIdeal Cert.KernelIdeal.Gen
open Idealize.ShloMosaic Idealize.ShloMosaic.TcCoe Idealize.SL.Sem
open Idealize.ShloMosaic.Pipeline (Dat)

/-- A buffer that no line of a stretch writes holds after the stretch what it held before. -/
macro "host_keep " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## What the lines before the first region leave -/

theorem W1_arg0 : W1 m ρ c (Proc.devRef .tc main_arg0) = (m ((c.tc : Thread nD τ).loc main_arg0)) :=
  (show W1 m ρ c (Proc.devRef .tc main_arg0) = W0 m ρ c (Proc.devRef .tc main_arg0) from by host_keep hostOps0).trans rfl
theorem W1_arg2 : W1 m ρ c (Proc.devRef .tc main_arg2) = (m ((c.tc : Thread nD τ).loc main_arg2)) :=
  (show W1 m ρ c (Proc.devRef .tc main_arg2) = W0 m ρ c (Proc.devRef .tc main_arg2) from by host_keep hostOps0).trans rfl
theorem W1_arg4 : W1 m ρ c (Proc.devRef .tc main_arg4) = (m ((c.tc : Thread nD τ).loc main_arg4)) :=
  (show W1 m ρ c (Proc.devRef .tc main_arg4) = W0 m ρ c (Proc.devRef .tc main_arg4) from by host_keep hostOps0).trans rfl
theorem W1_arg6 : W1 m ρ c (Proc.devRef .tc main_arg6) = (m ((c.tc : Thread nD τ).loc main_arg6)) :=
  (show W1 m ρ c (Proc.devRef .tc main_arg6) = W0 m ρ c (Proc.devRef .tc main_arg6) from by host_keep hostOps0).trans rfl
theorem W1_arg8 : W1 m ρ c (Proc.devRef .tc main_arg8) = (m ((c.tc : Thread nD τ).loc main_arg8)) :=
  (show W1 m ρ c (Proc.devRef .tc main_arg8) = W0 m ρ c (Proc.devRef .tc main_arg8) from by host_keep hostOps0).trans rfl
theorem W1_arg10 : W1 m ρ c (Proc.devRef .tc main_arg10) = (m ((c.tc : Thread nD τ).loc main_arg10)) :=
  (show W1 m ρ c (Proc.devRef .tc main_arg10) = W0 m ρ c (Proc.devRef .tc main_arg10) from by host_keep hostOps0).trans rfl
theorem W1_v1 : W1 m ρ c (Proc.devRef .tc main_v1) = Cert.ReferenceIdeal.Read.val_main_v1 (F := Ideal) (m ((c.tc : Thread nD τ).loc main_arg1)) := KHost.pre_v1 (W0 m ρ c)
theorem W1_v3 : W1 m ρ c (Proc.devRef .tc main_v3) = Cert.ReferenceIdeal.Read.val_main_v3 (F := Ideal) (m ((c.tc : Thread nD τ).loc main_arg1)) := KHost.pre_v3 (W0 m ρ c)
theorem W1_v25 : W1 m ρ c (Proc.devRef .tc main_v25) = Cert.ReferenceIdeal.Read.val_main_v25 (F := Ideal) (m ((c.tc : Thread nD τ).loc main_arg1)) := KHost.pre_v25 (W0 m ρ c)
theorem W1_v27 : W1 m ρ c (Proc.devRef .tc main_v27) = Cert.ReferenceIdeal.Read.val_main_v42 (F := Ideal) (m ((c.tc : Thread nD τ).loc main_arg1)) := KHost.pre_v27 (W0 m ρ c)
theorem W1_v28 : W1 m ρ c (Proc.devRef .tc main_v28) = Cert.ReferenceIdeal.Read.val_main_v46 (F := Ideal) (m ((c.tc : Thread nD τ).loc main_arg3)) := KHost.pre_v28 (W0 m ρ c)
theorem W1_v29 : W1 m ρ c (Proc.devRef .tc main_v29) = Cert.ReferenceIdeal.Read.val_main_v69 (F := Ideal) (m ((c.tc : Thread nD τ).loc main_arg5)) := KHost.pre_v29 (W0 m ρ c)
theorem W1_v30 : W1 m ρ c (Proc.devRef .tc main_v30) = Cert.ReferenceIdeal.Read.val_main_v92 (F := Ideal) (m ((c.tc : Thread nD τ).loc main_arg7)) := KHost.pre_v30 (W0 m ρ c)
theorem W1_v31 : W1 m ρ c (Proc.devRef .tc main_v31) = Cert.ReferenceIdeal.Read.val_main_v115 (F := Ideal) (m ((c.tc : Thread nD τ).loc main_arg9)) := KHost.pre_v31 (W0 m ρ c)
theorem W1_v32 : W1 m ρ c (Proc.devRef .tc main_v32) = Cert.ReferenceIdeal.Read.val_main_v121 (F := Ideal) (m ((c.tc : Thread nD τ).loc main_arg11)) := KHost.pre_v32 (W0 m ρ c)

/-! ## Nothing later writes them: each boundary's contents at these buffers are the first boundary's -/

theorem K_v25_2 : W2 m ρ c (Proc.devRef .tc main_v25) = W1 m ρ c (Proc.devRef .tc main_v25) :=
  (show W2 m ρ c (Proc.devRef .tc main_v25) = W1 m ρ c (Proc.devRef .tc main_v25) from W2_of_ne m ρ c main_v25 (by decide))
theorem K_v25_3 : W3 m ρ c (Proc.devRef .tc main_v25) = W1 m ρ c (Proc.devRef .tc main_v25) :=
  (show W3 m ρ c (Proc.devRef .tc main_v25) = W2 m ρ c (Proc.devRef .tc main_v25) from (by host_keep hostOps1)).trans (K_v25_2 m ρ c)
theorem K_v25_4 : W4 m ρ c (Proc.devRef .tc main_v25) = W1 m ρ c (Proc.devRef .tc main_v25) :=
  (show W4 m ρ c (Proc.devRef .tc main_v25) = W3 m ρ c (Proc.devRef .tc main_v25) from W4_of_ne m ρ c main_v25 (by decide)).trans (K_v25_3 m ρ c)
theorem K_v25_5 : W5 m ρ c (Proc.devRef .tc main_v25) = W1 m ρ c (Proc.devRef .tc main_v25) :=
  (show W5 m ρ c (Proc.devRef .tc main_v25) = W4 m ρ c (Proc.devRef .tc main_v25) from (by host_keep hostOps2)).trans (K_v25_4 m ρ c)
theorem K_v25_6 : W6 m ρ c (Proc.devRef .tc main_v25) = W1 m ρ c (Proc.devRef .tc main_v25) :=
  (show W6 m ρ c (Proc.devRef .tc main_v25) = W5 m ρ c (Proc.devRef .tc main_v25) from W6_of_ne m ρ c main_v25 (by decide)).trans (K_v25_5 m ρ c)
theorem K_v25_7 : W7 m ρ c (Proc.devRef .tc main_v25) = W1 m ρ c (Proc.devRef .tc main_v25) :=
  (show W7 m ρ c (Proc.devRef .tc main_v25) = W6 m ρ c (Proc.devRef .tc main_v25) from (by host_keep hostOps3)).trans (K_v25_6 m ρ c)
theorem K_v25_8 : W8 m ρ c (Proc.devRef .tc main_v25) = W1 m ρ c (Proc.devRef .tc main_v25) :=
  (show W8 m ρ c (Proc.devRef .tc main_v25) = W7 m ρ c (Proc.devRef .tc main_v25) from W8_of_ne m ρ c main_v25 (by decide)).trans (K_v25_7 m ρ c)
theorem K_v1_2 : W2 m ρ c (Proc.devRef .tc main_v1) = W1 m ρ c (Proc.devRef .tc main_v1) :=
  (show W2 m ρ c (Proc.devRef .tc main_v1) = W1 m ρ c (Proc.devRef .tc main_v1) from W2_of_ne m ρ c main_v1 (by decide))
theorem K_v1_3 : W3 m ρ c (Proc.devRef .tc main_v1) = W1 m ρ c (Proc.devRef .tc main_v1) :=
  (show W3 m ρ c (Proc.devRef .tc main_v1) = W2 m ρ c (Proc.devRef .tc main_v1) from (by host_keep hostOps1)).trans (K_v1_2 m ρ c)
theorem K_v1_4 : W4 m ρ c (Proc.devRef .tc main_v1) = W1 m ρ c (Proc.devRef .tc main_v1) :=
  (show W4 m ρ c (Proc.devRef .tc main_v1) = W3 m ρ c (Proc.devRef .tc main_v1) from W4_of_ne m ρ c main_v1 (by decide)).trans (K_v1_3 m ρ c)
theorem K_v1_5 : W5 m ρ c (Proc.devRef .tc main_v1) = W1 m ρ c (Proc.devRef .tc main_v1) :=
  (show W5 m ρ c (Proc.devRef .tc main_v1) = W4 m ρ c (Proc.devRef .tc main_v1) from (by host_keep hostOps2)).trans (K_v1_4 m ρ c)
theorem K_v1_6 : W6 m ρ c (Proc.devRef .tc main_v1) = W1 m ρ c (Proc.devRef .tc main_v1) :=
  (show W6 m ρ c (Proc.devRef .tc main_v1) = W5 m ρ c (Proc.devRef .tc main_v1) from W6_of_ne m ρ c main_v1 (by decide)).trans (K_v1_5 m ρ c)
theorem K_v1_7 : W7 m ρ c (Proc.devRef .tc main_v1) = W1 m ρ c (Proc.devRef .tc main_v1) :=
  (show W7 m ρ c (Proc.devRef .tc main_v1) = W6 m ρ c (Proc.devRef .tc main_v1) from (by host_keep hostOps3)).trans (K_v1_6 m ρ c)
theorem K_v1_8 : W8 m ρ c (Proc.devRef .tc main_v1) = W1 m ρ c (Proc.devRef .tc main_v1) :=
  (show W8 m ρ c (Proc.devRef .tc main_v1) = W7 m ρ c (Proc.devRef .tc main_v1) from W8_of_ne m ρ c main_v1 (by decide)).trans (K_v1_7 m ρ c)
theorem K_v3_2 : W2 m ρ c (Proc.devRef .tc main_v3) = W1 m ρ c (Proc.devRef .tc main_v3) :=
  (show W2 m ρ c (Proc.devRef .tc main_v3) = W1 m ρ c (Proc.devRef .tc main_v3) from W2_of_ne m ρ c main_v3 (by decide))
theorem K_v3_3 : W3 m ρ c (Proc.devRef .tc main_v3) = W1 m ρ c (Proc.devRef .tc main_v3) :=
  (show W3 m ρ c (Proc.devRef .tc main_v3) = W2 m ρ c (Proc.devRef .tc main_v3) from (by host_keep hostOps1)).trans (K_v3_2 m ρ c)
theorem K_v3_4 : W4 m ρ c (Proc.devRef .tc main_v3) = W1 m ρ c (Proc.devRef .tc main_v3) :=
  (show W4 m ρ c (Proc.devRef .tc main_v3) = W3 m ρ c (Proc.devRef .tc main_v3) from W4_of_ne m ρ c main_v3 (by decide)).trans (K_v3_3 m ρ c)
theorem K_v3_5 : W5 m ρ c (Proc.devRef .tc main_v3) = W1 m ρ c (Proc.devRef .tc main_v3) :=
  (show W5 m ρ c (Proc.devRef .tc main_v3) = W4 m ρ c (Proc.devRef .tc main_v3) from (by host_keep hostOps2)).trans (K_v3_4 m ρ c)
theorem K_v3_6 : W6 m ρ c (Proc.devRef .tc main_v3) = W1 m ρ c (Proc.devRef .tc main_v3) :=
  (show W6 m ρ c (Proc.devRef .tc main_v3) = W5 m ρ c (Proc.devRef .tc main_v3) from W6_of_ne m ρ c main_v3 (by decide)).trans (K_v3_5 m ρ c)
theorem K_v3_7 : W7 m ρ c (Proc.devRef .tc main_v3) = W1 m ρ c (Proc.devRef .tc main_v3) :=
  (show W7 m ρ c (Proc.devRef .tc main_v3) = W6 m ρ c (Proc.devRef .tc main_v3) from (by host_keep hostOps3)).trans (K_v3_6 m ρ c)
theorem K_v3_8 : W8 m ρ c (Proc.devRef .tc main_v3) = W1 m ρ c (Proc.devRef .tc main_v3) :=
  (show W8 m ρ c (Proc.devRef .tc main_v3) = W7 m ρ c (Proc.devRef .tc main_v3) from W8_of_ne m ρ c main_v3 (by decide)).trans (K_v3_7 m ρ c)
theorem K_v27_2 : W2 m ρ c (Proc.devRef .tc main_v27) = W1 m ρ c (Proc.devRef .tc main_v27) :=
  (show W2 m ρ c (Proc.devRef .tc main_v27) = W1 m ρ c (Proc.devRef .tc main_v27) from W2_of_ne m ρ c main_v27 (by decide))
theorem K_v27_3 : W3 m ρ c (Proc.devRef .tc main_v27) = W1 m ρ c (Proc.devRef .tc main_v27) :=
  (show W3 m ρ c (Proc.devRef .tc main_v27) = W2 m ρ c (Proc.devRef .tc main_v27) from (by host_keep hostOps1)).trans (K_v27_2 m ρ c)
theorem K_v27_4 : W4 m ρ c (Proc.devRef .tc main_v27) = W1 m ρ c (Proc.devRef .tc main_v27) :=
  (show W4 m ρ c (Proc.devRef .tc main_v27) = W3 m ρ c (Proc.devRef .tc main_v27) from (W4_arr m ρ c 2).trans (((dat1 (V3 m ρ) c).arrAt_in 2 rfl _).trans (A_eq1 (V3 m ρ) c 2))).trans (K_v27_3 m ρ c)
theorem K_v27_5 : W5 m ρ c (Proc.devRef .tc main_v27) = W1 m ρ c (Proc.devRef .tc main_v27) :=
  (show W5 m ρ c (Proc.devRef .tc main_v27) = W4 m ρ c (Proc.devRef .tc main_v27) from (by host_keep hostOps2)).trans (K_v27_4 m ρ c)
theorem K_v27_6 : W6 m ρ c (Proc.devRef .tc main_v27) = W1 m ρ c (Proc.devRef .tc main_v27) :=
  (show W6 m ρ c (Proc.devRef .tc main_v27) = W5 m ρ c (Proc.devRef .tc main_v27) from (W6_arr m ρ c 2).trans (((dat2 (V5 m ρ) c).arrAt_in 2 rfl _).trans (A_eq2 (V5 m ρ) c 2))).trans (K_v27_5 m ρ c)
theorem K_v27_7 : W7 m ρ c (Proc.devRef .tc main_v27) = W1 m ρ c (Proc.devRef .tc main_v27) :=
  (show W7 m ρ c (Proc.devRef .tc main_v27) = W6 m ρ c (Proc.devRef .tc main_v27) from (by host_keep hostOps3)).trans (K_v27_6 m ρ c)
theorem K_v27_8 : W8 m ρ c (Proc.devRef .tc main_v27) = W1 m ρ c (Proc.devRef .tc main_v27) :=
  (show W8 m ρ c (Proc.devRef .tc main_v27) = W7 m ρ c (Proc.devRef .tc main_v27) from (W8_arr m ρ c 2).trans (((dat3 (V7 m ρ) c).arrAt_in 2 rfl _).trans (A_eq3 (V7 m ρ) c 2))).trans (K_v27_7 m ρ c)
theorem K_v27_9 : W9 m ρ c (Proc.devRef .tc main_v27) = W1 m ρ c (Proc.devRef .tc main_v27) :=
  (show W9 m ρ c (Proc.devRef .tc main_v27) = W8 m ρ c (Proc.devRef .tc main_v27) from (by host_keep hostOps4)).trans (K_v27_8 m ρ c)
theorem K_v28_2 : W2 m ρ c (Proc.devRef .tc main_v28) = W1 m ρ c (Proc.devRef .tc main_v28) :=
  (show W2 m ρ c (Proc.devRef .tc main_v28) = W1 m ρ c (Proc.devRef .tc main_v28) from W2_of_ne m ρ c main_v28 (by decide))
theorem K_v28_3 : W3 m ρ c (Proc.devRef .tc main_v28) = W1 m ρ c (Proc.devRef .tc main_v28) :=
  (show W3 m ρ c (Proc.devRef .tc main_v28) = W2 m ρ c (Proc.devRef .tc main_v28) from (by host_keep hostOps1)).trans (K_v28_2 m ρ c)
theorem K_v29_2 : W2 m ρ c (Proc.devRef .tc main_v29) = W1 m ρ c (Proc.devRef .tc main_v29) :=
  (show W2 m ρ c (Proc.devRef .tc main_v29) = W1 m ρ c (Proc.devRef .tc main_v29) from W2_of_ne m ρ c main_v29 (by decide))
theorem K_v29_3 : W3 m ρ c (Proc.devRef .tc main_v29) = W1 m ρ c (Proc.devRef .tc main_v29) :=
  (show W3 m ρ c (Proc.devRef .tc main_v29) = W2 m ρ c (Proc.devRef .tc main_v29) from (by host_keep hostOps1)).trans (K_v29_2 m ρ c)
theorem K_v29_4 : W4 m ρ c (Proc.devRef .tc main_v29) = W1 m ρ c (Proc.devRef .tc main_v29) :=
  (show W4 m ρ c (Proc.devRef .tc main_v29) = W3 m ρ c (Proc.devRef .tc main_v29) from W4_of_ne m ρ c main_v29 (by decide)).trans (K_v29_3 m ρ c)
theorem K_v29_5 : W5 m ρ c (Proc.devRef .tc main_v29) = W1 m ρ c (Proc.devRef .tc main_v29) :=
  (show W5 m ρ c (Proc.devRef .tc main_v29) = W4 m ρ c (Proc.devRef .tc main_v29) from (by host_keep hostOps2)).trans (K_v29_4 m ρ c)
theorem K_v30_2 : W2 m ρ c (Proc.devRef .tc main_v30) = W1 m ρ c (Proc.devRef .tc main_v30) :=
  (show W2 m ρ c (Proc.devRef .tc main_v30) = W1 m ρ c (Proc.devRef .tc main_v30) from W2_of_ne m ρ c main_v30 (by decide))
theorem K_v30_3 : W3 m ρ c (Proc.devRef .tc main_v30) = W1 m ρ c (Proc.devRef .tc main_v30) :=
  (show W3 m ρ c (Proc.devRef .tc main_v30) = W2 m ρ c (Proc.devRef .tc main_v30) from (by host_keep hostOps1)).trans (K_v30_2 m ρ c)
theorem K_v30_4 : W4 m ρ c (Proc.devRef .tc main_v30) = W1 m ρ c (Proc.devRef .tc main_v30) :=
  (show W4 m ρ c (Proc.devRef .tc main_v30) = W3 m ρ c (Proc.devRef .tc main_v30) from W4_of_ne m ρ c main_v30 (by decide)).trans (K_v30_3 m ρ c)
theorem K_v30_5 : W5 m ρ c (Proc.devRef .tc main_v30) = W1 m ρ c (Proc.devRef .tc main_v30) :=
  (show W5 m ρ c (Proc.devRef .tc main_v30) = W4 m ρ c (Proc.devRef .tc main_v30) from (by host_keep hostOps2)).trans (K_v30_4 m ρ c)
theorem K_v30_6 : W6 m ρ c (Proc.devRef .tc main_v30) = W1 m ρ c (Proc.devRef .tc main_v30) :=
  (show W6 m ρ c (Proc.devRef .tc main_v30) = W5 m ρ c (Proc.devRef .tc main_v30) from W6_of_ne m ρ c main_v30 (by decide)).trans (K_v30_5 m ρ c)
theorem K_v30_7 : W7 m ρ c (Proc.devRef .tc main_v30) = W1 m ρ c (Proc.devRef .tc main_v30) :=
  (show W7 m ρ c (Proc.devRef .tc main_v30) = W6 m ρ c (Proc.devRef .tc main_v30) from (by host_keep hostOps3)).trans (K_v30_6 m ρ c)
theorem K_v31_2 : W2 m ρ c (Proc.devRef .tc main_v31) = W1 m ρ c (Proc.devRef .tc main_v31) :=
  (show W2 m ρ c (Proc.devRef .tc main_v31) = W1 m ρ c (Proc.devRef .tc main_v31) from W2_of_ne m ρ c main_v31 (by decide))
theorem K_v31_3 : W3 m ρ c (Proc.devRef .tc main_v31) = W1 m ρ c (Proc.devRef .tc main_v31) :=
  (show W3 m ρ c (Proc.devRef .tc main_v31) = W2 m ρ c (Proc.devRef .tc main_v31) from (by host_keep hostOps1)).trans (K_v31_2 m ρ c)
theorem K_v31_4 : W4 m ρ c (Proc.devRef .tc main_v31) = W1 m ρ c (Proc.devRef .tc main_v31) :=
  (show W4 m ρ c (Proc.devRef .tc main_v31) = W3 m ρ c (Proc.devRef .tc main_v31) from W4_of_ne m ρ c main_v31 (by decide)).trans (K_v31_3 m ρ c)
theorem K_v31_5 : W5 m ρ c (Proc.devRef .tc main_v31) = W1 m ρ c (Proc.devRef .tc main_v31) :=
  (show W5 m ρ c (Proc.devRef .tc main_v31) = W4 m ρ c (Proc.devRef .tc main_v31) from (by host_keep hostOps2)).trans (K_v31_4 m ρ c)
theorem K_v31_6 : W6 m ρ c (Proc.devRef .tc main_v31) = W1 m ρ c (Proc.devRef .tc main_v31) :=
  (show W6 m ρ c (Proc.devRef .tc main_v31) = W5 m ρ c (Proc.devRef .tc main_v31) from W6_of_ne m ρ c main_v31 (by decide)).trans (K_v31_5 m ρ c)
theorem K_v31_7 : W7 m ρ c (Proc.devRef .tc main_v31) = W1 m ρ c (Proc.devRef .tc main_v31) :=
  (show W7 m ρ c (Proc.devRef .tc main_v31) = W6 m ρ c (Proc.devRef .tc main_v31) from (by host_keep hostOps3)).trans (K_v31_6 m ρ c)
theorem K_v31_8 : W8 m ρ c (Proc.devRef .tc main_v31) = W1 m ρ c (Proc.devRef .tc main_v31) :=
  (show W8 m ρ c (Proc.devRef .tc main_v31) = W7 m ρ c (Proc.devRef .tc main_v31) from W8_of_ne m ρ c main_v31 (by decide)).trans (K_v31_7 m ρ c)
theorem K_v31_9 : W9 m ρ c (Proc.devRef .tc main_v31) = W1 m ρ c (Proc.devRef .tc main_v31) :=
  (show W9 m ρ c (Proc.devRef .tc main_v31) = W8 m ρ c (Proc.devRef .tc main_v31) from (by host_keep hostOps4)).trans (K_v31_8 m ρ c)
theorem K_v32_2 : W2 m ρ c (Proc.devRef .tc main_v32) = W1 m ρ c (Proc.devRef .tc main_v32) :=
  (show W2 m ρ c (Proc.devRef .tc main_v32) = W1 m ρ c (Proc.devRef .tc main_v32) from W2_of_ne m ρ c main_v32 (by decide))
theorem K_v32_3 : W3 m ρ c (Proc.devRef .tc main_v32) = W1 m ρ c (Proc.devRef .tc main_v32) :=
  (show W3 m ρ c (Proc.devRef .tc main_v32) = W2 m ρ c (Proc.devRef .tc main_v32) from (by host_keep hostOps1)).trans (K_v32_2 m ρ c)
theorem K_v32_4 : W4 m ρ c (Proc.devRef .tc main_v32) = W1 m ρ c (Proc.devRef .tc main_v32) :=
  (show W4 m ρ c (Proc.devRef .tc main_v32) = W3 m ρ c (Proc.devRef .tc main_v32) from W4_of_ne m ρ c main_v32 (by decide)).trans (K_v32_3 m ρ c)
theorem K_v32_5 : W5 m ρ c (Proc.devRef .tc main_v32) = W1 m ρ c (Proc.devRef .tc main_v32) :=
  (show W5 m ρ c (Proc.devRef .tc main_v32) = W4 m ρ c (Proc.devRef .tc main_v32) from (by host_keep hostOps2)).trans (K_v32_4 m ρ c)
theorem K_v32_6 : W6 m ρ c (Proc.devRef .tc main_v32) = W1 m ρ c (Proc.devRef .tc main_v32) :=
  (show W6 m ρ c (Proc.devRef .tc main_v32) = W5 m ρ c (Proc.devRef .tc main_v32) from W6_of_ne m ρ c main_v32 (by decide)).trans (K_v32_5 m ρ c)
theorem K_v32_7 : W7 m ρ c (Proc.devRef .tc main_v32) = W1 m ρ c (Proc.devRef .tc main_v32) :=
  (show W7 m ρ c (Proc.devRef .tc main_v32) = W6 m ρ c (Proc.devRef .tc main_v32) from (by host_keep hostOps3)).trans (K_v32_6 m ρ c)
theorem K_v32_8 : W8 m ρ c (Proc.devRef .tc main_v32) = W1 m ρ c (Proc.devRef .tc main_v32) :=
  (show W8 m ρ c (Proc.devRef .tc main_v32) = W7 m ρ c (Proc.devRef .tc main_v32) from W8_of_ne m ρ c main_v32 (by decide)).trans (K_v32_7 m ρ c)
theorem K_v32_9 : W9 m ρ c (Proc.devRef .tc main_v32) = W1 m ρ c (Proc.devRef .tc main_v32) :=
  (show W9 m ρ c (Proc.devRef .tc main_v32) = W8 m ρ c (Proc.devRef .tc main_v32) from (by host_keep hostOps4)).trans (K_v32_8 m ρ c)
theorem K_arg4_2 : W2 m ρ c (Proc.devRef .tc main_arg4) = W1 m ρ c (Proc.devRef .tc main_arg4) :=
  (show W2 m ρ c (Proc.devRef .tc main_arg4) = W1 m ρ c (Proc.devRef .tc main_arg4) from W2_of_ne m ρ c main_arg4 (by decide))
theorem K_arg4_3 : W3 m ρ c (Proc.devRef .tc main_arg4) = W1 m ρ c (Proc.devRef .tc main_arg4) :=
  (show W3 m ρ c (Proc.devRef .tc main_arg4) = W2 m ρ c (Proc.devRef .tc main_arg4) from (by host_keep hostOps1)).trans (K_arg4_2 m ρ c)
theorem K_arg6_2 : W2 m ρ c (Proc.devRef .tc main_arg6) = W1 m ρ c (Proc.devRef .tc main_arg6) :=
  (show W2 m ρ c (Proc.devRef .tc main_arg6) = W1 m ρ c (Proc.devRef .tc main_arg6) from W2_of_ne m ρ c main_arg6 (by decide))
theorem K_arg6_3 : W3 m ρ c (Proc.devRef .tc main_arg6) = W1 m ρ c (Proc.devRef .tc main_arg6) :=
  (show W3 m ρ c (Proc.devRef .tc main_arg6) = W2 m ρ c (Proc.devRef .tc main_arg6) from (by host_keep hostOps1)).trans (K_arg6_2 m ρ c)
theorem K_arg6_4 : W4 m ρ c (Proc.devRef .tc main_arg6) = W1 m ρ c (Proc.devRef .tc main_arg6) :=
  (show W4 m ρ c (Proc.devRef .tc main_arg6) = W3 m ρ c (Proc.devRef .tc main_arg6) from W4_of_ne m ρ c main_arg6 (by decide)).trans (K_arg6_3 m ρ c)
theorem K_arg6_5 : W5 m ρ c (Proc.devRef .tc main_arg6) = W1 m ρ c (Proc.devRef .tc main_arg6) :=
  (show W5 m ρ c (Proc.devRef .tc main_arg6) = W4 m ρ c (Proc.devRef .tc main_arg6) from (by host_keep hostOps2)).trans (K_arg6_4 m ρ c)
theorem K_arg8_2 : W2 m ρ c (Proc.devRef .tc main_arg8) = W1 m ρ c (Proc.devRef .tc main_arg8) :=
  (show W2 m ρ c (Proc.devRef .tc main_arg8) = W1 m ρ c (Proc.devRef .tc main_arg8) from W2_of_ne m ρ c main_arg8 (by decide))
theorem K_arg8_3 : W3 m ρ c (Proc.devRef .tc main_arg8) = W1 m ρ c (Proc.devRef .tc main_arg8) :=
  (show W3 m ρ c (Proc.devRef .tc main_arg8) = W2 m ρ c (Proc.devRef .tc main_arg8) from (by host_keep hostOps1)).trans (K_arg8_2 m ρ c)
theorem K_arg8_4 : W4 m ρ c (Proc.devRef .tc main_arg8) = W1 m ρ c (Proc.devRef .tc main_arg8) :=
  (show W4 m ρ c (Proc.devRef .tc main_arg8) = W3 m ρ c (Proc.devRef .tc main_arg8) from W4_of_ne m ρ c main_arg8 (by decide)).trans (K_arg8_3 m ρ c)
theorem K_arg8_5 : W5 m ρ c (Proc.devRef .tc main_arg8) = W1 m ρ c (Proc.devRef .tc main_arg8) :=
  (show W5 m ρ c (Proc.devRef .tc main_arg8) = W4 m ρ c (Proc.devRef .tc main_arg8) from (by host_keep hostOps2)).trans (K_arg8_4 m ρ c)
theorem K_arg8_6 : W6 m ρ c (Proc.devRef .tc main_arg8) = W1 m ρ c (Proc.devRef .tc main_arg8) :=
  (show W6 m ρ c (Proc.devRef .tc main_arg8) = W5 m ρ c (Proc.devRef .tc main_arg8) from W6_of_ne m ρ c main_arg8 (by decide)).trans (K_arg8_5 m ρ c)
theorem K_arg8_7 : W7 m ρ c (Proc.devRef .tc main_arg8) = W1 m ρ c (Proc.devRef .tc main_arg8) :=
  (show W7 m ρ c (Proc.devRef .tc main_arg8) = W6 m ρ c (Proc.devRef .tc main_arg8) from (by host_keep hostOps3)).trans (K_arg8_6 m ρ c)
theorem K_arg10_2 : W2 m ρ c (Proc.devRef .tc main_arg10) = W1 m ρ c (Proc.devRef .tc main_arg10) :=
  (show W2 m ρ c (Proc.devRef .tc main_arg10) = W1 m ρ c (Proc.devRef .tc main_arg10) from W2_of_ne m ρ c main_arg10 (by decide))
theorem K_arg10_3 : W3 m ρ c (Proc.devRef .tc main_arg10) = W1 m ρ c (Proc.devRef .tc main_arg10) :=
  (show W3 m ρ c (Proc.devRef .tc main_arg10) = W2 m ρ c (Proc.devRef .tc main_arg10) from (by host_keep hostOps1)).trans (K_arg10_2 m ρ c)
theorem K_arg10_4 : W4 m ρ c (Proc.devRef .tc main_arg10) = W1 m ρ c (Proc.devRef .tc main_arg10) :=
  (show W4 m ρ c (Proc.devRef .tc main_arg10) = W3 m ρ c (Proc.devRef .tc main_arg10) from W4_of_ne m ρ c main_arg10 (by decide)).trans (K_arg10_3 m ρ c)
theorem K_arg10_5 : W5 m ρ c (Proc.devRef .tc main_arg10) = W1 m ρ c (Proc.devRef .tc main_arg10) :=
  (show W5 m ρ c (Proc.devRef .tc main_arg10) = W4 m ρ c (Proc.devRef .tc main_arg10) from (by host_keep hostOps2)).trans (K_arg10_4 m ρ c)
theorem K_arg10_6 : W6 m ρ c (Proc.devRef .tc main_arg10) = W1 m ρ c (Proc.devRef .tc main_arg10) :=
  (show W6 m ρ c (Proc.devRef .tc main_arg10) = W5 m ρ c (Proc.devRef .tc main_arg10) from W6_of_ne m ρ c main_arg10 (by decide)).trans (K_arg10_5 m ρ c)
theorem K_arg10_7 : W7 m ρ c (Proc.devRef .tc main_arg10) = W1 m ρ c (Proc.devRef .tc main_arg10) :=
  (show W7 m ρ c (Proc.devRef .tc main_arg10) = W6 m ρ c (Proc.devRef .tc main_arg10) from (by host_keep hostOps3)).trans (K_arg10_6 m ρ c)
theorem K_arg10_8 : W8 m ρ c (Proc.devRef .tc main_arg10) = W1 m ρ c (Proc.devRef .tc main_arg10) :=
  (show W8 m ρ c (Proc.devRef .tc main_arg10) = W7 m ρ c (Proc.devRef .tc main_arg10) from W8_of_ne m ρ c main_arg10 (by decide)).trans (K_arg10_7 m ρ c)
theorem K_arg10_9 : W9 m ρ c (Proc.devRef .tc main_arg10) = W1 m ρ c (Proc.devRef .tc main_arg10) :=
  (show W9 m ρ c (Proc.devRef .tc main_arg10) = W8 m ρ c (Proc.devRef .tc main_arg10) from (by host_keep hostOps4)).trans (K_arg10_8 m ρ c)

/-! ## A layer's projected features outlive the aggregation that reads them -/

theorem HK1_v33 : W3 m ρ c (Proc.devRef .tc main_v33) = W2 m ρ c (Proc.devRef .tc main_v33) := by host_keep hostOps1
theorem HK2_v47 : W5 m ρ c (Proc.devRef .tc main_v47) = W4 m ρ c (Proc.devRef .tc main_v47) := by host_keep hostOps2
theorem HK3_v61 : W7 m ρ c (Proc.devRef .tc main_v61) = W6 m ρ c (Proc.devRef .tc main_v61) := by host_keep hostOps3
theorem HK4_v75 : W9 m ρ c (Proc.devRef .tc main_v75) = W8 m ρ c (Proc.devRef .tc main_v75) := by host_keep hostOps4

/-! ## Layer by layer -/

/-- After region 0: the first projection. -/
theorem hw1 : W2 m ρ c (Proc.devRef .tc main_v33) = Cert.ReferenceIdeal.Read.val_main_v28 (F := Ideal) (m ((c.tc : Thread nD τ).loc main_arg0)) (m ((c.tc : Thread nD τ).loc main_arg2)) := by
  have e0 : V1 m ρ c main_arg0 = (m ((c.tc : Thread nD τ).loc main_arg0)) := W1_arg0 m ρ c
  have e2 : V1 m ρ c main_arg2 = (m ((c.tc : Thread nD τ).loc main_arg2)) := W1_arg2 m ρ c
  refine (W2_arr m ρ c 2).trans ((RegValB.reg0_val (V1 m ρ) c).trans ?_)
  rw [e0, e2]
  exact (Cert.ReferenceIdeal.RefVal.ref_hw1 _ _).symm

/-- The first aggregation. -/
theorem agg1 : W3 m ρ c (Proc.devRef .tc main_v46) = Cert.ReferenceIdeal.Read.val_main_v41 (F := Ideal) (m ((c.tc : Thread nD τ).loc main_arg0)) (m ((c.tc : Thread nD τ).loc main_arg1)) (m ((c.tc : Thread nD τ).loc main_arg2)) :=
  KHost.agg1 (W2 m ρ c) _ _ _ ((K_v25_2 m ρ c).trans (W1_v25 m ρ c)) ((K_v1_2 m ρ c).trans (W1_v1 m ρ c))
    ((K_v3_2 m ρ c).trans (W1_v3 m ρ c)) (hw1 m ρ c)

/-- After region 1: the rectified first layer, projected. -/
theorem hw2 : W4 m ρ c (Proc.devRef .tc main_v47) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e46 : V3 m ρ c main_v46 = _ := agg1 m ρ c
  have e33 : V3 m ρ c main_v33 = _ := (HK1_v33 m ρ c).trans (hw1 m ρ c)
  have e27 : V3 m ρ c main_v27 = _ := (K_v27_3 m ρ c).trans (W1_v27 m ρ c)
  have e28 : V3 m ρ c main_v28 = _ := (K_v28_3 m ρ c).trans (W1_v28 m ρ c)
  have e4 : V3 m ρ c main_arg4 = _ := (K_arg4_3 m ρ c).trans (W1_arg4 m ρ c)
  refine (W4_arr m ρ c 5).trans ((RegValA.reg1_val (V3 m ρ) c).trans ?_)
  rw [e46, e33, e27, e28, e4]
  exact (Cert.ReferenceIdeal.RefVal.ref_hw2 _ _ _ _ _).symm

/-- The second aggregation. -/
theorem agg2 : W5 m ρ c (Proc.devRef .tc main_v60) = Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  KHost.agg2 (W4 m ρ c) _ _ _ _ _ ((K_v25_4 m ρ c).trans (W1_v25 m ρ c)) ((K_v1_4 m ρ c).trans (W1_v1 m ρ c))
    ((K_v3_4 m ρ c).trans (W1_v3 m ρ c)) (hw2 m ρ c)

/-- After region 2: the second layer, projected. -/
theorem hw3 : W6 m ρ c (Proc.devRef .tc main_v61) = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e60 : V5 m ρ c main_v60 = _ := agg2 m ρ c
  have e47 : V5 m ρ c main_v47 = _ := (HK2_v47 m ρ c).trans (hw2 m ρ c)
  have e27 : V5 m ρ c main_v27 = _ := ((K_v27_5 m ρ c).trans (W1_v27 m ρ c)).trans (KHost.sn65 _).symm
  have e29 : V5 m ρ c main_v29 = _ := (K_v29_5 m ρ c).trans (W1_v29 m ρ c)
  have e6 : V5 m ρ c main_arg6 = _ := (K_arg6_5 m ρ c).trans (W1_arg6 m ρ c)
  refine (W6_arr m ρ c 5).trans ((RegValA.reg2_val (V5 m ρ) c).trans ?_)
  rw [e60, e47, e27, e29, e6]
  exact (Cert.ReferenceIdeal.RefVal.ref_hw3 _ _ _ _ _ _ _).symm

/-- The third aggregation. -/
theorem agg3 : W7 m ρ c (Proc.devRef .tc main_v74) = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  KHost.agg3 (W6 m ρ c) _ _ _ _ _ _ _ ((K_v25_6 m ρ c).trans (W1_v25 m ρ c)) ((K_v1_6 m ρ c).trans (W1_v1 m ρ c))
    ((K_v3_6 m ρ c).trans (W1_v3 m ρ c)) (hw3 m ρ c)

/-- After region 3: the rectified third layer, projected. -/
theorem hw4 : W8 m ρ c (Proc.devRef .tc main_v75) = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have e74 : V7 m ρ c main_v74 = _ := agg3 m ρ c
  have e61 : V7 m ρ c main_v61 = _ := (HK3_v61 m ρ c).trans (hw3 m ρ c)
  have e27 : V7 m ρ c main_v27 = _ := ((K_v27_7 m ρ c).trans (W1_v27 m ρ c)).trans (KHost.sn88 _).symm
  have e30 : V7 m ρ c main_v30 = _ := (K_v30_7 m ρ c).trans (W1_v30 m ρ c)
  have e8 : V7 m ρ c main_arg8 = _ := (K_arg8_7 m ρ c).trans (W1_arg8 m ρ c)
  refine (W8_arr m ρ c 5).trans ((RegValA.reg3_val (V7 m ρ) c).trans ?_)
  rw [e74, e61, e27, e30, e8]
  exact (Cert.ReferenceIdeal.RefVal.ref_hw4 _ _ _ _ _ _ _ _ _).symm

/-- The fourth aggregation. -/
theorem agg4 : W9 m ρ c (Proc.devRef .tc main_v88) = Cert.ReferenceIdeal.Read.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  KHost.agg4 (W8 m ρ c) _ _ _ _ _ _ _ _ _ ((K_v25_8 m ρ c).trans (W1_v25 m ρ c)) ((K_v1_8 m ρ c).trans (W1_v1 m ρ c))
    ((K_v3_8 m ρ c).trans (W1_v3 m ρ c)) (hw4 m ρ c)

/-- After the last region: the network's features. -/
theorem out0_eq : W10 m ρ c (Proc.devRef .tc main_v89_0) = Cert.ReferenceIdeal.Read.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e88 : V9 m ρ c main_v88 = _ := agg4 m ρ c
  have e75 : V9 m ρ c main_v75 = _ := (HK4_v75 m ρ c).trans (hw4 m ρ c)
  have e27 : V9 m ρ c main_v27 = _ := ((K_v27_9 m ρ c).trans (W1_v27 m ρ c)).trans (KHost.sn111 _).symm
  have e31 : V9 m ρ c main_v31 = _ := (K_v31_9 m ρ c).trans (W1_v31 m ρ c)
  refine (W10_arr m ρ c 6).trans ((RegValB.reg4_val6 (V9 m ρ) c).trans ?_)
  rw [e88, e75, e27, e31]
  exact (Cert.ReferenceIdeal.RefVal.ref_h4 _ _ _ _ _ _ _ _ _ _).symm

/-- After the last region: the classifier's output. -/
theorem out1_eq : W10 m ρ c (Proc.devRef .tc main_v89_1) = Cert.ReferenceIdeal.Read.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e88 : V9 m ρ c main_v88 = _ := agg4 m ρ c
  have e75 : V9 m ρ c main_v75 = _ := (HK4_v75 m ρ c).trans (hw4 m ρ c)
  have e27 : V9 m ρ c main_v27 = _ := ((K_v27_9 m ρ c).trans (W1_v27 m ρ c)).trans (KHost.sn111 _).symm
  have e31 : V9 m ρ c main_v31 = _ := (K_v31_9 m ρ c).trans (W1_v31 m ρ c)
  have e10 : V9 m ρ c main_arg10 = _ := (K_arg10_9 m ρ c).trans (W1_arg10 m ρ c)
  have e32 : V9 m ρ c main_v32 = _ := (K_v32_9 m ρ c).trans (W1_v32 m ρ c)
  refine (W10_arr m ρ c 7).trans ((RegValB.reg4_val7 (V9 m ρ) c).trans ?_)
  rw [e88, e75, e27, e31, e10, e32, ← Cert.ReferenceIdeal.RefVal.ref_h4]
  exact (Cert.ReferenceIdeal.RefVal.ref_out _ _ _ _ _ _ _ _ _ _ _ _).symm

end Cert.KernelIdeal.KFold

end
-- ==== Proof.lean ====
/-
  A four-layer graph-convolution network: the tiled kernel program against its plain reference, over the extended reals.

  Both programs compute, from the edge list, the degree-normalised edge weights and the self-loop weights, and then four
  layers `h ↦ act (A·(h Wᵀ) + s ⊙ (h Wᵀ) + b)` (`A` the weighted scatter-add of gathered source rows, `s` the self-loop
  column) and a linear classifier head. The kernel program runs every dense stage — each projection `h Wᵀ`, the
  combination with the self-loop term and the bias, the activation, the head — in five pipelined regions over blocks of
  5000 nodes, and the gathers and scatter-adds as host lines between them; the reference runs everything as host lines.
  On the extended reals a change of float format is the identity and a matrix product is a plain sum of products, so a
  region's output array is the row-local layer function of the arrays it found (block by block, the blocks covering the
  node axis), which is what the reference's `dot_general` against the transposed weights computes; the aggregation lines
  are the same operations in both programs. The two results are therefore the reference's stages of the arguments,
  entry by entry. No law beyond reindexing a sum is used, so finiteness of the inputs is not needed.

  The frames of the two kernel programs are the library's run of the ten segments; the reference's frame is its run with
  the results dropped; the idealisation rewrote nothing.
-/
import proofs.«160437_j481036337415_2_alg».proof.Defs
import proofs.«160437_j481036337415_2_alg».proof.Proof.Gen.Kernel
import proofs.«160437_j481036337415_2_alg».proof.Proof.Gen.Kernel.Skeleton
import proofs.«160437_j481036337415_2_alg».proof.Proof.Gen.Kernel.Launch
import proofs.«160437_j481036337415_2_alg».proof.Proof.Gen.Kernel.Points
import proofs.«160437_j481036337415_2_alg».proof.Proof.Gen.Kernel.Frame
import proofs.«160437_j481036337415_2_alg».proof.Proof.Gen.KernelIdeal
import proofs.«160437_j481036337415_2_alg».proof.Proof.Gen.KernelIdeal.Skeleton
import proofs.«160437_j481036337415_2_alg».proof.Proof.Gen.KernelIdeal.Launch
import proofs.«160437_j481036337415_2_alg».proof.Proof.Gen.KernelIdeal.Points
import proofs.«160437_j481036337415_2_alg».proof.Proof.Gen.KernelIdeal.Frame
import proofs.«160437_j481036337415_2_alg».proof.Proof.Gen.ReferenceIdeal
import proofs.«160437_j481036337415_2_alg».proof.Proof.Gen.ReferenceIdeal.Read
import proofs.«160437_j481036337415_2_alg».proof.Proof.Gen.Pre_finite_inputs
import proofs.«160437_j481036337415_2_alg».proof.Proof.KRun
import proofs.«160437_j481036337415_2_alg».proof.Proof.KFold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with each result at the reference's last stages of the (agreeing) arguments. -/
theorem algebraic : Cert.algebraic_KernelIdeal_ReferenceIdeal := by
  intro m ρ m' ρ' _ hagree
  refine ⟨fun c => Cert.KernelIdeal.Gen.W10 m ρ c (Proc.devRef .tc Cert.KernelIdeal.main_v89_1),
    fun c => Cert.KernelIdeal.Gen.W10 m ρ c (Proc.devRef .tc Cert.KernelIdeal.main_v89_0),
    Cert.KernelIdeal.KRun.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v123_eq, h0, h1, h2, h3, h4, h5, h6, h7, h8, h9, h10, h11]
    exact (Cert.KernelIdeal.KFold.out1_eq m ρ c).symm
  · obtain ⟨h0, h1, h2, h3, h4, h5, h6, h7, h8, h9, h10, h11⟩ := hagree c
    rw [Cert.ReferenceIdeal.Read.val_main_v118_eq, h0, h1, h2, h3, h4, h5, h6, h7, h8, h9]
    exact (Cert.KernelIdeal.KFold.out0_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
